-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v184)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v184) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S3x256x256 : Shape := ⟨3, ![3, 256, 256]⟩
abbrev S4x256 : Shape := ⟨2, ![4, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S4x256 : S_.BroadcastsInDim S4x256 (![] : Fin 0 → Fin S4x256.rank)
  reducesTo_S4x256_S_d0_1 : S4x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S4x256 .f32) (main_arg10 : FVec F S256x128 .f32) (main_arg11 : FVec F S128 .f32) (main_arg12 : FVec F S128x1 .f32) (main_arg13 : FVec F S1 .f32) (main_v33 : IVec S_ 1) : IVec S_ 1 :=
  let main_v34 : FVec F S4x256 .f32 := Host.absf main_arg9
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S4x256 .f32) (main_arg7 : FVec F S4x256 .f32) (main_arg8 : FVec F S4x256 .f32) (main_arg9 : FVec F S4x256 .f32) (main_arg10 : FVec F S256x128 .f32) (main_arg11 : FVec F S128 .f32) (main_arg12 : FVec F S128x1 .f32) (main_arg13 : FVec F S1 .f32) (main_v13 : IVec S_ 1) (main_v16 : IVec S4x256 1) : IVec S_ 1 :=
  let main_c_5 : IVec S_ 1 := constantI S_ 1 1#1
  let main_v17 : IVec S_ 1 := (fun x v => Host.reduce IntOp.andi x v reducesTo_S4x256_S_d0_1 h_S_) main_v16 main_c_5
  let main_v18 : IVec S_ 1 := andi main_v13 main_v17
  let main_v19 : FVec F S4x256 .f32 := Host.absf main_arg6
  let main_cst_6 : FVec F S_ .f32 := constant S_ .f32 0x7F800000#32
  let main_v20 : FVec F S4x256 .f32 := broadcastInDim S4x256 ![] bcast_S_S4x256 main_cst_6
  let main_v21 : IVec S4x256 1 := cmpf .olt main_v19 main_v20
  let main_c_7 : IVec S_ 1 := constantI S_ 1 1#1
  let main_v22 : IVec S_ 1 := (fun x v => Host.reduce IntOp.andi x v reducesTo_S4x256_S_d0_1 h_S_) main_v21 main_c_7
  let main_v23 : IVec S_ 1 := andi main_v18 main_v22
  let main_v24 : FVec F S4x256 .f32 := Host.absf main_arg7
  let main_cst_8 : FVec F S_ .f32 := constant S_ .f32 0x7F800000#32
  let main_v25 : FVec F S4x256 .f32 := broadcastInDim S4x256 ![] bcast_S_S4x256 main_cst_8
  let main_v26 : IVec S4x256 1 := cmpf .olt main_v24 main_v25
  let main_c_9 : IVec S_ 1 := constantI S_ 1 1#1
  let main_v27 : IVec S_ 1 := (fun x v => Host.reduce IntOp.andi x v reducesTo_S4x256_S_d0_1 h_S_) main_v26 main_c_9
  let main_v28 : IVec S_ 1 := andi main_v23 main_v27
  let main_v29 : FVec F S4x256 .f32 := Host.absf main_arg8
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x800000 32) (main_arg2 : IVec S50000 32) (main_arg3 : FVec F S128x256 .f32) (main_arg4 : FVec F S3x256x256 .f32) (main_arg5 : FVec F S4x256 .f32) (main_arg6 : FVec F S4x256 .f32) (main_arg7 : FVec F S4x256 .f32) (main_arg8 : FVec F S4x256 .f32) (main_arg9 : FVec F S4x256 .f32) (main_arg10 : FVec F S256x128 .f32) (main_arg11 : FVec F S128 .f32) (main_arg12 : FVec F S128x1 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S3x256x256 .f32 := Host.absf main_arg4
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S4x256 .f32 := Host.absf main_arg5
  let main_cst_4 : FVec F S_ .f32 := constant S_ .f32 0x7F800000#32
  let main_v15 : FVec F S4x256 .f32 := broadcastInDim S4x256 ![] bcast_S_S4x256 main_cst_4
  let main_v16 : IVec S4x256 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S3x256x256 : Shape := ⟨3, ![3, 256, 256]⟩
abbrev S4x256 : Shape := ⟨2, ![4, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x256x256 : Shape := ⟨3, ![1, 256, 256]⟩
abbrev S256x256 : Shape := ⟨2, ![256, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x256 : Shape := ⟨2, ![1, 256]⟩
abbrev S256 : Shape := ⟨1, ![256]⟩
abbrev S2000x256 : Shape := ⟨2, ![2000, 256]⟩
abbrev S2000x1 : Shape := ⟨2, ![2000, 1]⟩
abbrev S2048x256 : Shape := ⟨2, ![2048, 256]⟩
abbrev S2048 : Shape := ⟨1, ![2048]⟩
abbrev S2048x1 : Shape := ⟨2, ![2048, 1]⟩
abbrev S1x128 : Shape := ⟨2, ![1, 128]⟩
abbrev S1x1 : Shape := ⟨2, ![1, 1]⟩
abbrev S2048x128 : Shape := ⟨2, ![2048, 128]⟩

abbrev nBuf : Space → Nat
  | .hbm => 226
  | .vmem => 78
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S3x256x256, .f32⟩
  | 5 => ⟨S4x256, .f32⟩
  | 6 => ⟨S4x256, .f32⟩
  | 7 => ⟨S4x256, .f32⟩
  | 8 => ⟨S4x256, .f32⟩
  | 9 => ⟨S4x256, .f32⟩
  | 10 => ⟨S256x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S50000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S_, .f32⟩
  | 29 => ⟨S800000, .f32⟩
  | 30 => ⟨S50000, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S800000x1, .f32⟩
  | 57 => ⟨S_, .f32⟩
  | 58 => ⟨S50000, .f32⟩
  | 59 => ⟨S50000, .f32⟩
  | 60 => ⟨S50000x1, .f32⟩
  | 61 => ⟨S1x256x256, .f32⟩
  | 62 => ⟨S256x256, .f32⟩
  | 63 => ⟨S1x256x256, .f32⟩
  | 64 => ⟨S256x256, .f32⟩
  | 65 => ⟨S1x256x256, .f32⟩
  | 66 => ⟨S256x256, .f32⟩
  | 67 => ⟨S50000x128, .bf16⟩
  | 68 => ⟨S128x256, .bf16⟩
  | 69 => ⟨S50000x256, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x256, .f32⟩
  | 79 => ⟨S800000x256, .f32⟩
  | 80 => ⟨S800000x256, .f32⟩
  | 81 => ⟨S_, .f32⟩
  | 82 => ⟨S50000x256, .f32⟩
  | 83 => ⟨S800000x1, .i32⟩
  | 84 => ⟨S50000x256, .f32⟩
  | 85 => ⟨S1x256, .f32⟩
  | 86 => ⟨S256, .f32⟩
  | 87 => ⟨S1x256, .f32⟩
  | 88 => ⟨S256, .f32⟩
  | 89 => ⟨S1x256, .f32⟩
  | 90 => ⟨S256, .f32⟩
  | 91 => ⟨S1x256, .f32⟩
  | 92 => ⟨S256, .f32⟩
  | 93 => ⟨S1x256, .f32⟩
  | 94 => ⟨S256, .f32⟩
  | 95 => ⟨S1x256, .f32⟩
  | 96 => ⟨S1x256, .f32⟩
  | 97 => ⟨S1x256, .f32⟩
  | 98 => ⟨S1x256, .f32⟩
  | 99 => ⟨S1x256, .f32⟩
  | 100 => ⟨S50000x256, .f32⟩
  | 101 => ⟨S50000x256, .bf16⟩
  | 102 => ⟨S256x256, .bf16⟩
  | 103 => ⟨S50000x256, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x256, .f32⟩
  | 113 => ⟨S800000x256, .f32⟩
  | 114 => ⟨S800000x256, .f32⟩
  | 115 => ⟨S_, .f32⟩
  | 116 => ⟨S50000x256, .f32⟩
  | 117 => ⟨S800000x1, .i32⟩
  | 118 => ⟨S50000x256, .f32⟩
  | 119 => ⟨S1x256, .f32⟩
  | 120 => ⟨S256, .f32⟩
  | 121 => ⟨S1x256, .f32⟩
  | 122 => ⟨S256, .f32⟩
  | 123 => ⟨S1x256, .f32⟩
  | 124 => ⟨S256, .f32⟩
  | 125 => ⟨S1x256, .f32⟩
  | 126 => ⟨S256, .f32⟩
  | 127 => ⟨S1x256, .f32⟩
  | _ => ⟨S50000x128, .f32⟩

abbrev hbmTy0_1 (i : Nat) : BufTy := match i % 128 with
  | 0 => ⟨S256, .f32⟩
  | 1 => ⟨S1x256, .f32⟩
  | 2 => ⟨S1x256, .f32⟩
  | 3 => ⟨S1x256, .f32⟩
  | 4 => ⟨S1x256, .f32⟩
  | 5 => ⟨S1x256, .f32⟩
  | 6 => ⟨S50000x256, .f32⟩
  | 7 => ⟨S50000x256, .bf16⟩
  | 8 => ⟨S256x256, .bf16⟩
  | 9 => ⟨S50000x256, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x256, .f32⟩
  | 19 => ⟨S800000x256, .f32⟩
  | 20 => ⟨S800000x256, .f32⟩
  | 21 => ⟨S_, .f32⟩
  | 22 => ⟨S50000x256, .f32⟩
  | 23 => ⟨S800000x1, .i32⟩
  | 24 => ⟨S50000x256, .f32⟩
  | 25 => ⟨S1x256, .f32⟩
  | 26 => ⟨S256, .f32⟩
  | 27 => ⟨S1x256, .f32⟩
  | 28 => ⟨S256, .f32⟩
  | 29 => ⟨S1x256, .f32⟩
  | 30 => ⟨S256, .f32⟩
  | 31 => ⟨S1x256, .f32⟩
  | 32 => ⟨S256, .f32⟩
  | 33 => ⟨S1x256, .f32⟩
  | 34 => ⟨S256, .f32⟩
  | 35 => ⟨S1x256, .f32⟩
  | 36 => ⟨S1x256, .f32⟩
  | 37 => ⟨S1x256, .f32⟩
  | 38 => ⟨S1x256, .f32⟩
  | 39 => ⟨S1x256, .f32⟩
  | 40 => ⟨S50000x256, .f32⟩
  | 41 => ⟨S50000x256, .bf16⟩
  | 42 => ⟨S256x256, .bf16⟩
  | 43 => ⟨S50000x256, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x256, .f32⟩
  | 53 => ⟨S800000x256, .f32⟩
  | 54 => ⟨S800000x256, .f32⟩
  | 55 => ⟨S_, .f32⟩
  | 56 => ⟨S50000x256, .f32⟩
  | 57 => ⟨S800000x1, .i32⟩
  | 58 => ⟨S50000x256, .f32⟩
  | 59 => ⟨S1x256, .f32⟩
  | 60 => ⟨S256, .f32⟩
  | 61 => ⟨S1x256, .f32⟩
  | 62 => ⟨S256, .f32⟩
  | 63 => ⟨S1x256, .f32⟩
  | 64 => ⟨S256, .f32⟩
  | 65 => ⟨S1x256, .f32⟩
  | 66 => ⟨S256, .f32⟩
  | 67 => ⟨S1x256, .f32⟩
  | 68 => ⟨S256, .f32⟩
  | 69 => ⟨S1x256, .f32⟩
  | 70 => ⟨S1x256, .f32⟩
  | 71 => ⟨S1x256, .f32⟩
  | 72 => ⟨S1x256, .f32⟩
  | 73 => ⟨S1x256, .f32⟩
  | 74 => ⟨S50000x256, .f32⟩
  | 75 => ⟨S_, .f32⟩
  | 76 => ⟨S2048x256, .f32⟩
  | 77 => ⟨S50000x1, .i32⟩
  | 78 => ⟨S2048x256, .f32⟩
  | 79 => ⟨S_, .f32⟩
  | 80 => ⟨S50000, .f32⟩
  | 81 => ⟨S_, .f32⟩
  | 82 => ⟨S2048, .f32⟩
  | 83 => ⟨S50000x1, .i32⟩
  | 84 => ⟨S2048, .f32⟩
  | 85 => ⟨S_, .f32⟩
  | 86 => ⟨S2048, .f32⟩
  | 87 => ⟨S2048, .f32⟩
  | 88 => ⟨S2048x1, .f32⟩
  | 89 => ⟨S2048x256, .f32⟩
  | 90 => ⟨S2048x256, .f32⟩
  | 91 => ⟨S2048x256, .bf16⟩
  | 92 => ⟨S256x128, .bf16⟩
  | 93 => ⟨S128x1, .bf16⟩
  | 94 => ⟨S1x128, .f32⟩
  | 95 => ⟨S1x1, .f32⟩
  | 96 => ⟨S2048x1, .f32⟩
  | 97 => ⟨S2048, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .bf16⟩
  | .local _ .vmem, ⟨1, _⟩ => ⟨S5000x128, .bf16⟩
  | .local _ .vmem, ⟨2, _⟩ => ⟨S128x256, .bf16⟩
  | .local _ .vmem, ⟨3, _⟩ => ⟨S5000x256, .f32⟩
  | .local _ .vmem, ⟨4, _⟩ => ⟨S5000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S5000x256, .bf16⟩
  | .local _ .vmem, ⟨19, _⟩ => ⟨S5000x256, .bf16⟩
  | .local _ .vmem, ⟨20, _⟩ => ⟨S256x256, .bf16⟩
  | .local _ .vmem, ⟨21, _⟩ => ⟨S5000x256, .f32⟩
  | .local _ .vmem, ⟨22, _⟩ => ⟨S5000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x1, .f32⟩
  | .local _ .vmem, ⟨28, _⟩ => ⟨S2000x1, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S5000x256, .bf16⟩
  | .local _ .vmem, ⟨37, _⟩ => ⟨S5000x256, .bf16⟩
  | .local _ .vmem, ⟨38, _⟩ => ⟨S256x256, .bf16⟩
  | .local _ .vmem, ⟨39, _⟩ => ⟨S5000x256, .f32⟩
  | .local _ .vmem, ⟨40, _⟩ => ⟨S5000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x1, .f32⟩
  | .local _ .vmem, ⟨46, _⟩ => ⟨S2000x1, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S5000x256, .bf16⟩
  | .local _ .vmem, ⟨55, _⟩ => ⟨S5000x256, .bf16⟩
  | .local _ .vmem, ⟨56, _⟩ => ⟨S256x256, .bf16⟩
  | .local _ .vmem, ⟨57, _⟩ => ⟨S5000x256, .f32⟩
  | .local _ .vmem, ⟨58, _⟩ => ⟨S5000x256, .f32⟩
  | .local _ .vmem, ⟨59, _⟩ => ⟨S2000x256, .f32⟩
  | .local _ .vmem, ⟨60, _⟩ => ⟨S2000x256, .f32⟩
  | .local _ .vmem, ⟨61, _⟩ => ⟨S2000x256, .f32⟩
  | .local _ .vmem, ⟨62, _⟩ => ⟨S2000x256, .f32⟩
  | .local _ .vmem, ⟨63, _⟩ => ⟨S2000x1, .f32⟩
  | .local _ .vmem, ⟨64, _⟩ => ⟨S2000x1, .f32⟩
  | .local _ .vmem, ⟨65, _⟩ => ⟨S1x256, .f32⟩
  | .local _ .vmem, ⟨66, _⟩ => ⟨S1x256, .f32⟩
  | .local _ .vmem, ⟨67, _⟩ => ⟨S1x256, .f32⟩
  | .local _ .vmem, ⟨68, _⟩ => ⟨S1x256, .f32⟩
  | .local _ .vmem, ⟨69, _⟩ => ⟨S1x256, .f32⟩
  | .local _ .vmem, ⟨70, _⟩ => ⟨S2000x256, .f32⟩
  | .local _ .vmem, ⟨71, _⟩ => ⟨S2000x256, .f32⟩
  | .local _ .vmem, ⟨72, _⟩ => ⟨S2048x256, .bf16⟩
  | .local _ .vmem, ⟨73, _⟩ => ⟨S256x128, .bf16⟩
  | .local _ .vmem, ⟨74, _⟩ => ⟨S1x128, .f32⟩
  | .local _ .vmem, ⟨75, _⟩ => ⟨S128x1, .bf16⟩
  | .local _ .vmem, ⟨76, _⟩ => ⟨S1x1, .f32⟩
  | .local _ .vmem, ⟨77, _⟩ => ⟨S2048x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_12 : Ref sig .tc := ⟨.hbm, 104, rfl⟩
abbrev main_v76 : Ref sig .tc := ⟨.hbm, 105, rfl⟩
abbrev main_v77 : Ref sig .tc := ⟨.hbm, 106, rfl⟩
abbrev main_c_13 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_c_15 : Ref sig .tc := ⟨.hbm, 138, rfl⟩
abbrev main_v107 : Ref sig .tc := ⟨.hbm, 139, rfl⟩
abbrev main_v108 : Ref sig .tc := ⟨.hbm, 140, rfl⟩
abbrev main_c_16 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_17 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_c_18 : Ref sig .tc := ⟨.hbm, 172, rfl⟩
abbrev main_v138 : Ref sig .tc := ⟨.hbm, 173, rfl⟩
abbrev main_v139 : Ref sig .tc := ⟨.hbm, 174, rfl⟩
abbrev main_c_19 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_20 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_21 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_22 : Ref sig .tc := ⟨.hbm, 207, rfl⟩
abbrev main_v169 : Ref sig .tc := ⟨.hbm, 208, rfl⟩
abbrev main_cst_23 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_cst_24 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg2_1 : Ref sig .tc := ⟨.vmem, 58, rfl⟩
abbrev cc7_stg0_0 : Ref sig .tc := ⟨.vmem, 59, rfl⟩
abbrev cc7_stg0_1 : Ref sig .tc := ⟨.vmem, 60, rfl⟩
abbrev cc7_stg1_0 : Ref sig .tc := ⟨.vmem, 61, rfl⟩
abbrev cc7_stg1_1 : Ref sig .tc := ⟨.vmem, 62, rfl⟩
abbrev cc7_stg2_0 : Ref sig .tc := ⟨.vmem, 63, rfl⟩
abbrev cc7_stg2_1 : Ref sig .tc := ⟨.vmem, 64, rfl⟩
abbrev cc7_stg3_0 : Ref sig .tc := ⟨.vmem, 65, rfl⟩
abbrev cc7_stg4_0 : Ref sig .tc := ⟨.vmem, 66, rfl⟩
abbrev cc7_stg5_0 : Ref sig .tc := ⟨.vmem, 67, rfl⟩
abbrev cc7_stg6_0 : Ref sig .tc := ⟨.vmem, 68, rfl⟩
abbrev cc7_stg7_0 : Ref sig .tc := ⟨.vmem, 69, rfl⟩
abbrev cc7_stg8_0 : Ref sig .tc := ⟨.vmem, 70, rfl⟩
abbrev cc7_stg8_1 : Ref sig .tc := ⟨.vmem, 71, rfl⟩
abbrev cc8_stg0_0 : Ref sig .tc := ⟨.vmem, 72, rfl⟩
abbrev cc8_stg1_0 : Ref sig .tc := ⟨.vmem, 73, rfl⟩
abbrev cc8_stg2_0 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg5_0 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem8_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem2_1 : DmaSem sig := 58
abbrev cc7_sem0_0 : DmaSem sig := 59
abbrev cc7_sem0_1 : DmaSem sig := 60
abbrev cc7_sem1_0 : DmaSem sig := 61
abbrev cc7_sem1_1 : DmaSem sig := 62
abbrev cc7_sem2_0 : DmaSem sig := 63
abbrev cc7_sem2_1 : DmaSem sig := 64
abbrev cc7_sem3_0 : DmaSem sig := 65
abbrev cc7_sem4_0 : DmaSem sig := 66
abbrev cc7_sem5_0 : DmaSem sig := 67
abbrev cc7_sem6_0 : DmaSem sig := 68
abbrev cc7_sem7_0 : DmaSem sig := 69
abbrev cc7_sem8_0 : DmaSem sig := 70
abbrev cc7_sem8_1 : DmaSem sig := 71
abbrev cc8_sem0_0 : DmaSem sig := 72
abbrev cc8_sem1_0 : DmaSem sig := 73
abbrev cc8_sem2_0 : DmaSem sig := 74
abbrev cc8_sem3_0 : DmaSem sig := 75
abbrev cc8_sem4_0 : DmaSem sig := 76
abbrev cc8_sem5_0 : DmaSem sig := 77

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S2000x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x256 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S2000x256 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x256 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S2000x256 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S2048x256 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S256x128 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x1 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S2048x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  slices_S4x256_S1x256_0_0 : S4x256.Slices ![0, 0] S1x256
  shapeCasts_S1x256_S256 : S1x256.ShapeCasts S256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S4x256_S1x256_1_0 : S4x256.Slices ![1, 0] S1x256
  slices_S4x256_S1x256_2_0 : S4x256.Slices ![2, 0] S1x256
  slices_S4x256_S1x256_3_0 : S4x256.Slices ![3, 0] S1x256
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  shapeCasts_S128_S1x128 : S128.ShapeCasts S1x128
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048 : S2048x1.ShapeCasts S2048
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  scatter_S2048x256_S50000x1_S50000x256_1_0_0_1_wf : ScatterDims.WF S2048x256 S50000x1 S50000x256 [1] [0] [0] 1
  scatter_S2048_S50000x1_S50000_n_0_0_1_wf : ScatterDims.WF S2048 S50000x1 S50000 [] [0] [0] 1
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x256.size a ≤ S50000x256.size a
  hwx1_8 : ∀ i : grid1.Coords, EltTy.bits .f32 = 32 ∨ (Rect.block (s := S50000x256) S2000x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .bf16 = 32 ∨ (Rect.block (s := S50000x256) S5000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x256.size a ≤ S1x256.size a
  hwx3_7 : ∀ i : grid3.Coords, EltTy.bits .f32 = 32 ∨ (Rect.block (s := S1x256) S1x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2000x256.size a ≤ S50000x256.size a
  hwx3_8 : ∀ i : grid3.Coords, EltTy.bits .f32 = 32 ∨ (Rect.block (s := S50000x256) S2000x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .bf16 = 32 ∨ (Rect.block (s := S50000x256) S5000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .bf16 = 32 ∨ (Rect.block (s := S256x256) S256x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x256.size a ≤ S50000x256.size a
  hwx4_2 : ∀ i : grid4.Coords, EltTy.bits .f32 = 32 ∨ (Rect.block (s := S50000x256) S5000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x256.size a ≤ S1x256.size a
  hwx5_7 : ∀ i : grid5.Coords, EltTy.bits .f32 = 32 ∨ (Rect.block (s := S1x256) S1x256.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x256.size a ≤ S50000x256.size a
  hwx5_8 : ∀ i : grid5.Coords, EltTy.bits .f32 = 32 ∨ (Rect.block (s := S50000x256) S2000x256.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S50000x256.size a
  hwx6_0 : ∀ i : grid6.Coords, EltTy.bits .bf16 = 32 ∨ (Rect.block (s := S50000x256) S5000x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .bf16 = 32 ∨ (Rect.block (s := S256x256) S256x256.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x256.size a ≤ S50000x256.size a
  hwx6_2 : ∀ i : grid6.Coords, EltTy.bits .f32 = 32 ∨ (Rect.block (s := S50000x256) S5000x256.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x256.size a ≤ S1x256.size a
  hwx7_5 : ∀ i : grid7.Coords, EltTy.bits .f32 = 32 ∨ (Rect.block (s := S1x256) S1x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x256.size a ≤ S1x256.size a
  hwx7_7 : ∀ i : grid7.Coords, EltTy.bits .f32 = 32 ∨ (Rect.block (s := S1x256) S1x256.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S2000x256.size a ≤ S50000x256.size a
  hwx7_8 : ∀ i : grid7.Coords, EltTy.bits .f32 = 32 ∨ (Rect.block (s := S50000x256) S2000x256.size (cc7_transform_8 i) (hinb7_8 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S2048x256.size a ≤ S2048x256.size a
  hwx8_0 : ∀ i : grid8.Coords, EltTy.bits .bf16 = 32 ∨ (Rect.block (s := S2048x256) S2048x256.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x128.size a ≤ S256x128.size a
  hwx8_1 : ∀ i : grid8.Coords, EltTy.bits .bf16 = 32 ∨ (Rect.block (s := S256x128) S256x128.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x1.size a ≤ S128x1.size a
  hwx8_3 : ∀ i : grid8.Coords, EltTy.bits .bf16 = 32 ∨ (Rect.block (s := S128x1) S128x1.size (cc8_transform_3 i) (hinb8_3 i)).WholeWords (EltTy.packing .bf16)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S2048x1.size a ≤ S2048x1.size a
  hwx8_5 : ∀ i : grid8.Coords, EltTy.bits .f32 = 32 ∨ (Rect.block (s := S2048x1) S2048x1.size (cc8_transform_5 i) (hinb8_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v42) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v68) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v69) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v70) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v71) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v72) S2000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v73) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v74) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v87) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v98) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v100) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v101) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v102) S1x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v103) S2000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v104) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S5000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v118) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v129) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v130) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v132) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v133) S1x256.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v134) S2000x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v135) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v136) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v137) S5000x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v149) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v137) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v35) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v160) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v161) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v162) S1x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v163) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v164) S1x256.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v165) S2000x256.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v178) S2048x256.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v179) S256x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v181) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v180) S128x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v182) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v183) S2048x1.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S3x256x256 : Shape := ⟨3, ![3, 256, 256]⟩
abbrev S4x256 : Shape := ⟨2, ![4, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S50000x256 : Shape := ⟨2, ![50000, 256]⟩
abbrev S800000x256 : Shape := ⟨2, ![800000, 256]⟩
abbrev S2048x256 : Shape := ⟨2, ![2048, 256]⟩
abbrev S2048 : Shape := ⟨1, ![2048]⟩
abbrev S2048x1 : Shape := ⟨2, ![2048, 1]⟩
abbrev S2048x128 : Shape := ⟨2, ![2048, 128]⟩
abbrev S1x128 : Shape := ⟨2, ![1, 128]⟩
abbrev S1x1 : Shape := ⟨2, ![1, 1]⟩

abbrev nBuf : Space → Nat
  | .hbm => 299
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S3x256x256, .f32⟩
  | 5 => ⟨S4x256, .f32⟩
  | 6 => ⟨S4x256, .f32⟩
  | 7 => ⟨S4x256, .f32⟩
  | 8 => ⟨S4x256, .f32⟩
  | 9 => ⟨S4x256, .f32⟩
  | 10 => ⟨S256x128, .f32⟩
  | 11 => ⟨S128, .f32⟩
  | 12 => ⟨S128x1, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S_, .f32⟩
  | 19 => ⟨S50000, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S_, .f32⟩
  | 29 => ⟨S800000, .f32⟩
  | 30 => ⟨S50000, .f32⟩
  | 31 => ⟨S_, .f32⟩
  | 32 => ⟨S50000, .f32⟩
  | 33 => ⟨S50000, .f32⟩
  | 34 => ⟨S_, .f32⟩
  | 35 => ⟨S50000, .f32⟩
  | 36 => ⟨S50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S800000x1, .f32⟩
  | 57 => ⟨S_, .f32⟩
  | 58 => ⟨S50000, .f32⟩
  | 59 => ⟨S50000, .f32⟩
  | 60 => ⟨S50000x1, .f32⟩
  | 61 => ⟨S1x256x256, .f32⟩
  | 62 => ⟨S256x256, .f32⟩
  | 63 => ⟨S1x256x256, .f32⟩
  | 64 => ⟨S256x256, .f32⟩
  | 65 => ⟨S1x256x256, .f32⟩
  | 66 => ⟨S256x256, .f32⟩
  | 67 => ⟨S1x256, .f32⟩
  | 68 => ⟨S256, .f32⟩
  | 69 => ⟨S50000x256, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x256, .f32⟩
  | 79 => ⟨S800000x256, .f32⟩
  | 80 => ⟨S800000x256, .f32⟩
  | 81 => ⟨S_, .f32⟩
  | 82 => ⟨S50000x256, .f32⟩
  | 83 => ⟨S800000x1, .i32⟩
  | 84 => ⟨S50000x256, .f32⟩
  | 85 => ⟨S50000x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S1x256, .f32⟩
  | 92 => ⟨S256, .f32⟩
  | 93 => ⟨S1x256, .f32⟩
  | 94 => ⟨S50000x256, .f32⟩
  | 95 => ⟨S50000x256, .f32⟩
  | 96 => ⟨S1x256, .f32⟩
  | 97 => ⟨S256, .f32⟩
  | 98 => ⟨S_, .f32⟩
  | 99 => ⟨S256, .f32⟩
  | 100 => ⟨S256, .f32⟩
  | 101 => ⟨S256, .f32⟩
  | 102 => ⟨S1x256, .f32⟩
  | 103 => ⟨S50000x256, .f32⟩
  | 104 => ⟨S50000x256, .f32⟩
  | 105 => ⟨S1x256, .f32⟩
  | 106 => ⟨S256, .f32⟩
  | 107 => ⟨S1x256, .f32⟩
  | 108 => ⟨S50000x256, .f32⟩
  | 109 => ⟨S50000x256, .f32⟩
  | 110 => ⟨S1x256, .f32⟩
  | 111 => ⟨S256, .f32⟩
  | 112 => ⟨S1x256, .f32⟩
  | 113 => ⟨S50000x256, .f32⟩
  | 114 => ⟨S50000x256, .f32⟩
  | 115 => ⟨S_, .f32⟩
  | 116 => ⟨S50000x256, .f32⟩
  | 117 => ⟨S50000x256, .f32⟩
  | 118 => ⟨S1x256, .f32⟩
  | 119 => ⟨S256, .f32⟩
  | 120 => ⟨S50000x256, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x128, .f32⟩

abbrev hbmTy0_1 (i : Nat) : BufTy := match i % 128 with
  | 0 => ⟨S800000x1, .i32⟩
  | 1 => ⟨S800000x256, .f32⟩
  | 2 => ⟨S800000x256, .f32⟩
  | 3 => ⟨S800000x256, .f32⟩
  | 4 => ⟨S_, .f32⟩
  | 5 => ⟨S50000x256, .f32⟩
  | 6 => ⟨S800000x1, .i32⟩
  | 7 => ⟨S50000x256, .f32⟩
  | 8 => ⟨S50000x256, .f32⟩
  | 9 => ⟨S50000x256, .f32⟩
  | 10 => ⟨S50000x256, .f32⟩
  | 11 => ⟨S1x256, .f32⟩
  | 12 => ⟨S50000x256, .f32⟩
  | 13 => ⟨S50000x256, .f32⟩
  | 14 => ⟨S1x256, .f32⟩
  | 15 => ⟨S256, .f32⟩
  | 16 => ⟨S1x256, .f32⟩
  | 17 => ⟨S50000x256, .f32⟩
  | 18 => ⟨S50000x256, .f32⟩
  | 19 => ⟨S1x256, .f32⟩
  | 20 => ⟨S256, .f32⟩
  | 21 => ⟨S_, .f32⟩
  | 22 => ⟨S256, .f32⟩
  | 23 => ⟨S256, .f32⟩
  | 24 => ⟨S256, .f32⟩
  | 25 => ⟨S1x256, .f32⟩
  | 26 => ⟨S50000x256, .f32⟩
  | 27 => ⟨S50000x256, .f32⟩
  | 28 => ⟨S1x256, .f32⟩
  | 29 => ⟨S256, .f32⟩
  | 30 => ⟨S1x256, .f32⟩
  | 31 => ⟨S50000x256, .f32⟩
  | 32 => ⟨S50000x256, .f32⟩
  | 33 => ⟨S1x256, .f32⟩
  | 34 => ⟨S256, .f32⟩
  | 35 => ⟨S1x256, .f32⟩
  | 36 => ⟨S50000x256, .f32⟩
  | 37 => ⟨S50000x256, .f32⟩
  | 38 => ⟨S_, .f32⟩
  | 39 => ⟨S50000x256, .f32⟩
  | 40 => ⟨S50000x256, .f32⟩
  | 41 => ⟨S1x256, .f32⟩
  | 42 => ⟨S256, .f32⟩
  | 43 => ⟨S50000x256, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x256, .f32⟩
  | 53 => ⟨S800000x256, .f32⟩
  | 54 => ⟨S800000x256, .f32⟩
  | 55 => ⟨S_, .f32⟩
  | 56 => ⟨S50000x256, .f32⟩
  | 57 => ⟨S800000x1, .i32⟩
  | 58 => ⟨S50000x256, .f32⟩
  | 59 => ⟨S50000x256, .f32⟩
  | 60 => ⟨S50000x256, .f32⟩
  | 61 => ⟨S50000x256, .f32⟩
  | 62 => ⟨S1x256, .f32⟩
  | 63 => ⟨S50000x256, .f32⟩
  | 64 => ⟨S50000x256, .f32⟩
  | 65 => ⟨S1x256, .f32⟩
  | 66 => ⟨S256, .f32⟩
  | 67 => ⟨S1x256, .f32⟩
  | 68 => ⟨S50000x256, .f32⟩
  | 69 => ⟨S50000x256, .f32⟩
  | 70 => ⟨S1x256, .f32⟩
  | 71 => ⟨S256, .f32⟩
  | 72 => ⟨S_, .f32⟩
  | 73 => ⟨S256, .f32⟩
  | 74 => ⟨S256, .f32⟩
  | 75 => ⟨S256, .f32⟩
  | 76 => ⟨S1x256, .f32⟩
  | 77 => ⟨S50000x256, .f32⟩
  | 78 => ⟨S50000x256, .f32⟩
  | 79 => ⟨S1x256, .f32⟩
  | 80 => ⟨S256, .f32⟩
  | 81 => ⟨S1x256, .f32⟩
  | 82 => ⟨S50000x256, .f32⟩
  | 83 => ⟨S50000x256, .f32⟩
  | 84 => ⟨S1x256, .f32⟩
  | 85 => ⟨S256, .f32⟩
  | 86 => ⟨S1x256, .f32⟩
  | 87 => ⟨S50000x256, .f32⟩
  | 88 => ⟨S50000x256, .f32⟩
  | 89 => ⟨S_, .f32⟩
  | 90 => ⟨S50000x256, .f32⟩
  | 91 => ⟨S50000x256, .f32⟩
  | 92 => ⟨S1x256, .f32⟩
  | 93 => ⟨S256, .f32⟩
  | 94 => ⟨S50000x256, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x256, .f32⟩
  | 104 => ⟨S800000x256, .f32⟩
  | 105 => ⟨S800000x256, .f32⟩
  | 106 => ⟨S_, .f32⟩
  | 107 => ⟨S50000x256, .f32⟩
  | 108 => ⟨S800000x1, .i32⟩
  | 109 => ⟨S50000x256, .f32⟩
  | 110 => ⟨S50000x256, .f32⟩
  | 111 => ⟨S50000x256, .f32⟩
  | 112 => ⟨S50000x256, .f32⟩
  | 113 => ⟨S1x256, .f32⟩
  | 114 => ⟨S50000x256, .f32⟩
  | 115 => ⟨S50000x256, .f32⟩
  | 116 => ⟨S1x256, .f32⟩
  | 117 => ⟨S256, .f32⟩
  | 118 => ⟨S1x256, .f32⟩
  | 119 => ⟨S50000x256, .f32⟩
  | 120 => ⟨S50000x256, .f32⟩
  | 121 => ⟨S1x256, .f32⟩
  | 122 => ⟨S256, .f32⟩
  | 123 => ⟨S_, .f32⟩
  | 124 => ⟨S256, .f32⟩
  | 125 => ⟨S256, .f32⟩
  | 126 => ⟨S256, .f32⟩
  | 127 => ⟨S1x256, .f32⟩
  | _ => ⟨S50000x128, .f32⟩

abbrev hbmTy0_2 (i : Nat) : BufTy := match i % 128 with
  | 0 => ⟨S50000x256, .f32⟩
  | 1 => ⟨S50000x256, .f32⟩
  | 2 => ⟨S1x256, .f32⟩
  | 3 => ⟨S256, .f32⟩
  | 4 => ⟨S1x256, .f32⟩
  | 5 => ⟨S50000x256, .f32⟩
  | 6 => ⟨S50000x256, .f32⟩
  | 7 => ⟨S1x256, .f32⟩
  | 8 => ⟨S256, .f32⟩
  | 9 => ⟨S1x256, .f32⟩
  | 10 => ⟨S50000x256, .f32⟩
  | 11 => ⟨S50000x256, .f32⟩
  | 12 => ⟨S_, .f32⟩
  | 13 => ⟨S50000x256, .f32⟩
  | 14 => ⟨S50000x256, .f32⟩
  | 15 => ⟨S_, .f32⟩
  | 16 => ⟨S2048x256, .f32⟩
  | 17 => ⟨S50000x1, .i32⟩
  | 18 => ⟨S2048x256, .f32⟩
  | 19 => ⟨S_, .f32⟩
  | 20 => ⟨S50000, .f32⟩
  | 21 => ⟨S_, .f32⟩
  | 22 => ⟨S2048, .f32⟩
  | 23 => ⟨S50000x1, .i32⟩
  | 24 => ⟨S2048, .f32⟩
  | 25 => ⟨S_, .f32⟩
  | 26 => ⟨S2048, .f32⟩
  | 27 => ⟨S2048, .f32⟩
  | 28 => ⟨S2048x1, .f32⟩
  | 29 => ⟨S2048x256, .f32⟩
  | 30 => ⟨S2048x256, .f32⟩
  | 31 => ⟨S2048x128, .f32⟩
  | 32 => ⟨S1x128, .f32⟩
  | 33 => ⟨S2048x128, .f32⟩
  | 34 => ⟨S2048x128, .f32⟩
  | 35 => ⟨S_, .f32⟩
  | 36 => ⟨S2048x128, .f32⟩
  | 37 => ⟨S2048x128, .f32⟩
  | 38 => ⟨S2048x1, .f32⟩
  | 39 => ⟨S1x1, .f32⟩
  | 40 => ⟨S2048x1, .f32⟩
  | 41 => ⟨S2048x1, .f32⟩
  | 42 => ⟨S2048, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_call0_cst : Ref sig .tc := ⟨.hbm, 115, rfl⟩
abbrev main_call0_v0 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_13 : Ref sig .tc := ⟨.hbm, 121, rfl⟩
abbrev main_v90 : Ref sig .tc := ⟨.hbm, 122, rfl⟩
abbrev main_v91 : Ref sig .tc := ⟨.hbm, 123, rfl⟩
abbrev main_c_14 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_15 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_16 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_call1_cst : Ref sig .tc := ⟨.hbm, 166, rfl⟩
abbrev main_call1_v0 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_c_17 : Ref sig .tc := ⟨.hbm, 172, rfl⟩
abbrev main_v135 : Ref sig .tc := ⟨.hbm, 173, rfl⟩
abbrev main_v136 : Ref sig .tc := ⟨.hbm, 174, rfl⟩
abbrev main_c_18 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_19 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_cst_20 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_call2_cst : Ref sig .tc := ⟨.hbm, 217, rfl⟩
abbrev main_call2_v0 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_c_21 : Ref sig .tc := ⟨.hbm, 223, rfl⟩
abbrev main_v180 : Ref sig .tc := ⟨.hbm, 224, rfl⟩
abbrev main_v181 : Ref sig .tc := ⟨.hbm, 225, rfl⟩
abbrev main_c_22 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_cst_23 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_cst_24 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_call3_cst : Ref sig .tc := ⟨.hbm, 268, rfl⟩
abbrev main_call3_v0 : Ref sig .tc := ⟨.hbm, 269, rfl⟩
abbrev main_v221 : Ref sig .tc := ⟨.hbm, 270, rfl⟩
abbrev main_cst_25 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_cst_26 : Ref sig .tc := ⟨.hbm, 275, rfl⟩
abbrev main_v225 : Ref sig .tc := ⟨.hbm, 276, rfl⟩
abbrev main_cst_27 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_cst_28 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_call4_cst : Ref sig .tc := ⟨.hbm, 291, rfl⟩
abbrev main_call4_v0 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  slices_S4x256_S1x256_0_0 : S4x256.Slices ![0, 0] S1x256
  shapeCasts_S1x256_S256 : S1x256.ShapeCasts S256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  slices_S4x256_S1x256_1_0 : S4x256.Slices ![1, 0] S1x256
  slices_S4x256_S1x256_2_0 : S4x256.Slices ![2, 0] S1x256
  slices_S4x256_S1x256_3_0 : S4x256.Slices ![3, 0] S1x256
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S2048x256_S50000x1_S50000x256_1_0_0_1_wf : ScatterDims.WF S2048x256 S50000x1 S50000x256 [1] [0] [0] 1
  scatter_S2048_S50000x1_S50000_n_0_0_1_wf : ScatterDims.WF S2048 S50000x1 S50000 [] [0] [0] 1
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S2048x256_S50000x1_S50000x256_1_0_0_1 : ScatterDims S2048x256 S50000x1 S50000x256 where
  updateWindowDims := [1]
  insertedWindowDims := [0]
  scatterDimsToOperandDims := [0]
  indexVectorDim := 1
  wf := scatter_S2048x256_S50000x1_S50000x256_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.KernelRun.lean ====
/-
  The idealized kernel's run with its RESULT named.

  @main is nineteen segments: ten stretches of host operations and, between them, nine kernel regions.
  The contents of every unscoped buffer at each segment boundary are a fold from the launch memory: a host
  stretch applies its operations in order, a region replaces its arrays by what its write-backs leave.  The frame
  run ends with every unscoped buffer at the last boundary's contents; here that fact is read at the result
  buffer as well as at the fourteen argument arrays, so that the value of the result can be computed by walking
  the fold back, segment by segment.
-/
import proofs.«157617_j32676111188646_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v184) = W19 m ρ c (Proc.devRef .tc main_v184)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v184 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c)⟩)

end Cert.KernelIdeal.Result

end
-- ==== Proof.ChainDefs.lean ====
/-
  What stays put while the kernel's program runs.

  Seven buffers computed by the first stretch of host operations — the two rows of the edge list (sources and
  destinations), the per-edge weights, the per-node self-loop weights, and the three later weight matrices — and ten of
  the argument arrays are read again by later segments and written by none.  `Kept W` says that a valuation `W` of
  the buffers holds, at each of them, the corresponding stage of the reference (for the seven) or the launch
  contents (for the arguments); every segment preserves it.
-/
import proofs.«157617_j32676111188646_1_alg».proof.Proof.Gen.KernelIdeal.Frame
import proofs.«157617_j32676111188646_1_alg».proof.Proof.RefRead

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP

variable (m : (ℓ : Loc nD τ sig) → Buf (Elt Ideal) ℓ) (ρ : Dev nD → PrngReg) (c : Dev nD)

/-- The buffers later segments read again hold what the first stretch left (as the reference's stages) and the
    launch contents of the arguments. -/
structure Kept (W : Valuation τ sig (Elt Ideal)) : Prop where
  v1 : W (Proc.devRef .tc main_v1) = (val_main_v1 (F := Ideal) (m ((c : Thread nD τ).loc main_arg1)))
  v3 : W (Proc.devRef .tc main_v3) = (val_main_v3 (F := Ideal) (m ((c : Thread nD τ).loc main_arg1)))
  v32 : W (Proc.devRef .tc main_v32) = (val_main_v32 (F := Ideal) (m ((c : Thread nD τ).loc main_arg1)))
  v35 : W (Proc.devRef .tc main_v35) = (val_main_v35 (F := Ideal) (m ((c : Thread nD τ).loc main_arg1)))
  v37 : W (Proc.devRef .tc main_v37) = (val_main_v37 (F := Ideal) (m ((c : Thread nD τ).loc main_arg4)))
  v39 : W (Proc.devRef .tc main_v39) = (val_main_v39 (F := Ideal) (m ((c : Thread nD τ).loc main_arg4)))
  v41 : W (Proc.devRef .tc main_v41) = (val_main_v41 (F := Ideal) (m ((c : Thread nD τ).loc main_arg4)))
  a2 : W (Proc.devRef .tc main_arg2) = (m ((c : Thread nD τ).loc main_arg2))
  a5 : W (Proc.devRef .tc main_arg5) = (m ((c : Thread nD τ).loc main_arg5))
  a6 : W (Proc.devRef .tc main_arg6) = (m ((c : Thread nD τ).loc main_arg6))
  a7 : W (Proc.devRef .tc main_arg7) = (m ((c : Thread nD τ).loc main_arg7))
  a8 : W (Proc.devRef .tc main_arg8) = (m ((c : Thread nD τ).loc main_arg8))
  a9 : W (Proc.devRef .tc main_arg9) = (m ((c : Thread nD τ).loc main_arg9))
  a10 : W (Proc.devRef .tc main_arg10) = (m ((c : Thread nD τ).loc main_arg10))
  a11 : W (Proc.devRef .tc main_arg11) = (m ((c : Thread nD τ).loc main_arg11))
  a12 : W (Proc.devRef .tc main_arg12) = (m ((c : Thread nD τ).loc main_arg12))
  a13 : W (Proc.devRef .tc main_arg13) = (m ((c : Thread nD τ).loc main_arg13))

end Cert.KernelIdeal.Chain

end
-- ==== Proof.LibRowColumn.lean ====
/-
  Row-by-column products on the extended reals.

  For a contraction whose dimension numbers say "rows of the left operand against columns of the right" — one
  contracted axis, the left's second and the right's first, no batch axis — both the accumulating matrix product of a
  kernel (into a zero accumulator) and the host's general dot product, read at the output entry (r, c), are the plain
  sum over k of left (r, k) times right (k, c).  The four hypotheses say exactly that about the dimension numbers'
  operand indices; they hold by computation for each concrete record.
-/
import Idealize.ShloMosaic.PureOps.Ideal.Laws
import Idealize.ShloMosaic.Lib.ValueIdx

noncomputable section

namespace Cert.Lib.RowColumn

open Idealize.ShloMosaic Idealize.ShloMosaic.ValueIdx

variable {M K N : Nat} {φ₁ φ₂ : FTy}

/-- The operand indices of a rows-against-columns contraction, re-indexed by the one contracted coordinate. -/
theorem operand_indices (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (i : (⟨2, ![M, N]⟩ : Shape).Idx) (k : Fin K) :
    d.lhsIdx i ((contrEquiv1 d K hr hs).symm k) = ix2 (i 0) k ∧ d.rhsIdx i ((contrEquiv1 d K hr hs).symm k) = ix2 k (i 1) := by
  have hk := contrEquiv1_symm_val d K hr hs k
  refine ⟨funext fun a => Fin.ext ?_, funext fun a => Fin.ext ?_⟩
  · match a with
    | ⟨0, _⟩ => exact h1 _ _
    | ⟨1, _⟩ => exact (h2 _ _).trans hk
  · match a with
    | ⟨0, _⟩ => exact (h3 _ _).trans hk
    | ⟨1, _⟩ => exact h4 _ _

/-- The host's general dot product at an entry is the sum of the row's products with the column. -/
theorem dotGeneral_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) (i : (⟨2, ![M, N]⟩ : Shape).Idx) :
    FloatOps.dotGeneral d prec sched x w i = ∑ k : Fin K, x (ix2 (i 0) k) * w (ix2 k (i 1)) := by
  rw [Ideal.dotGeneral_apply, ← Equiv.sum_comp (contrEquiv1 d K hr hs).symm]
  refine Finset.sum_congr rfl fun k _ => ?_
  obtain ⟨el, er⟩ := operand_indices d hr hs h1 h2 h3 h4 i k
  rw [el, er]
  rfl

/-- A kernel's matrix product into the zero accumulator, at an entry, is the same sum. -/
theorem matmul_zero_entry (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) (i : (⟨2, ![M, N]⟩ : Shape).Idx) :
    FloatOps.matmul d prec x w (constant (F := Ideal) (⟨2, ![M, N]⟩ : Shape) .f32 0x00000000#32) i
      = ∑ k : Fin K, x (ix2 (i 0) k) * w (ix2 k (i 1)) := by
  rw [Ideal.matmul_constant_zero_apply, ← Equiv.sum_comp (contrEquiv1 d K hr hs).symm]
  refine Finset.sum_congr rfl fun k _ => ?_
  obtain ⟨el, er⟩ := operand_indices d hr hs h1 h2 h3 h4 i k
  rw [el, er]
  rfl

/-- The whole row-by-column product of an [M, K] array and a [K, N] array, entry by entry. -/
def rowsTimes (x : (⟨2, ![M, K]⟩ : Shape).Idx → EReal) (w : (⟨2, ![K, N]⟩ : Shape).Idx → EReal) : (⟨2, ![M, N]⟩ : Shape).Idx → EReal :=
  fun i => ∑ k : Fin K, x (ix2 (i 0) k) * w (ix2 k (i 1))

/-- The host's general dot product of two whole arrays IS their row-by-column product. -/
theorem dotGeneral_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision) (sched : HostSchedule)
    (x : FVec Ideal (⟨2, ![M, K]⟩ : Shape) φ₁) (w : FVec Ideal (⟨2, ![K, N]⟩ : Shape) φ₂) :
    FloatOps.dotGeneral d prec sched x w = rowsTimes (M := M) (K := K) (N := N) x w :=
  funext fun i => dotGeneral_entry d hr hs h1 h2 h3 h4 prec sched x w i

/-- A kernel's matrix product of two whole blocks into the zero accumulator IS their row-by-column product. -/
theorem matmul_zero_eq_rowsTimes (d : DotDims (⟨2, ![M, K]⟩ : Shape) (⟨2, ![K, N]⟩ : Shape) (⟨2, ![M, N]⟩ : Shape))
    (hr : d.contr.rank = 1) (hs : d.contr.size ⟨0, by omega⟩ = K)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (prec : Option ContractPrecision)
    (x : FVec Ideal (⟨2, ![M, K]⟩ : Shape) φ₁) (w : FVec Ideal (⟨2, ![K, N]⟩ : Shape) φ₂) :
    FloatOps.matmul d prec x w (constant (F := Ideal) (⟨2, ![M, N]⟩ : Shape) .f32 0x00000000#32)
      = rowsTimes (M := M) (K := K) (N := N) x w :=
  funext fun i => matmul_zero_entry d hr hs h1 h2 h3 h4 prec x w i

end Cert.Lib.RowColumn

end
-- ==== Proof.ProductA.lean ====
/-
  The four product regions of the kernel.

  Each of them multiplies a [50000, K] array by a [K, 256] array, 5000 rows per grid point: at point t the body
  loads block row t of the left array and the whole right array, forms their product into a zero accumulator and
  stores it as block row t of the result.  Entry (r, j) of a block's product is the sum over k of the block's
  (r, k) times the right array's (k, j), and block row t's row r is the array's row 5000·t + r; the ten block rows
  tile the result.  So after the region the result array is, entry by entry, the whole product.
-/
import proofs.«157617_j32676111188646_1_alg».proof.Proof.Gen.KernelIdeal.Frame
import proofs.«157617_j32676111188646_1_alg».proof.Proof.LibRowColumn
import Idealize.ShloMosaic.Lib.Pipeline.Value
import Idealize.ShloMosaic.Lib.ValueIdx
import Idealize.ShloMosaic.PureOps.Ideal.Laws

set_option maxRecDepth 16384

noncomputable section

namespace Cert.KernelIdeal.ProductsA

open Idealize.ShloMosaic Idealize.ShloMosaic.TcCoe Idealize.SL.Sem Idealize.ShloMosaic.ValueIdx
open Idealize.ShloMosaic.Pipeline (Dat)
open Cert.KernelIdeal Cert.KernelIdeal.Gen Cert.Lib.RowColumn

theorem hz2 : (![0, 0] : Fin 2 → Nat) = fun _ => 0 := funext fun a => by fin_cases a <;> rfl

/-! ## Region 0: rows of a [50000, 128] array against a [128, 256] array, 5000 rows per grid point -/

section Region0

theorem d0_lhs0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem d0_lhs1 (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem d0_rhs0 (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem d0_rhs1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- One block's payload at the entry (r, j): the r-th block row against the j-th column. -/
theorem pay0_entry (x0 : Vec Ideal S5000x128 .bf16) (x1 : Vec Ideal S128x256 .bf16) (r : Fin 5000) (j : Fin 256) :
    k0_pay1 x0 x1 (ix2 r j) = ∑ k : Fin 128, x0 (ix2 r k) * x1 (ix2 k j) := by
  unfold k0_pay1
  simp only [shapeCast_self]
  exact Cert.Lib.RowColumn.matmul_zero_entry dot_S5000x128_S128x256_S5000x256_1_0_0_1_n_n rfl rfl d0_lhs0 d0_lhs1 d0_rhs0 d0_rhs1 none x0 x1 (ix2 r j)

theorem pay0_at (x0 : Vec Ideal S5000x128 .bf16) (x1 : Vec Ideal S128x256 .bf16) (y : S5000x256.Idx) :
    k0_pay1 x0 x1 y = ∑ k : Fin 128, x0 (ix2 (y 0) k) * x1 (ix2 k (y 1)) := by
  obtain ⟨r, j, rfl⟩ : ∃ (r : Fin 5000) (j : Fin 256), y = ix2 r j := ⟨y 0, y 1, eq_ix2 y⟩
  exact pay0_entry x0 x1 r j

variable (V : (c : Dev nD) → (b : Ref sig .tc) → Buf (Elt Ideal) ((c : Thread nD τ).loc b))

/-- The index maps over the grid: point t takes block row t of the left operand and of the result, and the whole
    right operand. -/
theorem grid_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- An entry of the left operand's block at point t is the array's entry 5000·t rows further down. -/
theorem blk0_0 (c : Dev nD) (t : Fin cfg0.N) (z : S5000x128.Idx) (i : S50000x128.Idx)
    (h0 : (i 0).val = t.val * 5000 + (z 0).val) (h1 : (i 1).val = (z 1).val) :
    iblk0 V c 0 t z = V c main_v42 i := by
  obtain ⟨e0, e1, e2, e3, e4, e5⟩ := grid_facts0 t
  show V c main_v42 (((cfg0.win 0).blk t).view.emb z) = V c main_v42 i
  refine congrArg _ ?_
  funext a; apply Fin.ext
  match a with
  | ⟨0, _⟩ => show win0_0.index t (0 : Fin 2) * 5000 + 1 * (z 0).val = (i 0).val; omega
  | ⟨1, _⟩ => show win0_0.index t (1 : Fin 2) * 128 + 1 * (z 1).val = (i 1).val; omega

/-- The right operand's block is the whole array at every point. -/
theorem blk0_1 (c : Dev nD) (t : Fin cfg0.N) (z : S128x256.Idx) (i : S128x256.Idx)
    (h0 : (i 0).val = (z 0).val) (h1 : (i 1).val = (z 1).val) :
    iblk0 V c 1 t z = V c main_v43 i := by
  obtain ⟨e0, e1, e2, e3, e4, e5⟩ := grid_facts0 t
  show V c main_v43 (((cfg0.win 1).blk t).view.emb z) = V c main_v43 i
  refine congrArg _ ?_
  funext a; apply Fin.ext
  match a with
  | ⟨0, _⟩ => show win0_1.index t (0 : Fin 2) * 128 + 1 * (z 0).val = (i 0).val; omega
  | ⟨1, _⟩ => show win0_1.index t (1 : Fin 2) * 256 + 1 * (z 1).val = (i 1).val; omega

/-- What point t writes back is block row t of the whole product. -/
theorem flushed0 (c : Dev nD) (t : Fin cfg0.N) :
    (dat0 V c).flushed 2 t = ((cfg0.win 2).blk t).view.read (Elt Ideal) (rowsTimes (M := 50000) (K := 128) (N := 256) (V c main_v42) (V c main_v43)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x256) hz2]
  obtain ⟨e0, e1, e2, e3, e4, e5⟩ := grid_facts0 t
  funext y
  show k0_pay1 (iblk0 V c 0 t) (iblk0 V c 1 t) y = rowsTimes (M := 50000) (K := 128) (N := 256) (V c main_v42) (V c main_v43) (((cfg0.win 2).blk t).view.emb y)
  refine (pay0_at _ _ y).trans ?_
  unfold rowsTimes
  refine Finset.sum_congr rfl fun k _ => ?_
  have hy0 : ((((cfg0.win 2).blk t).view.emb y) 0).val = t.val * 5000 + (y 0).val := by
    show win0_2.index t (0 : Fin 2) * 5000 + 1 * (y 0).val = _; omega
  have hy1 : ((((cfg0.win 2).blk t).view.emb y) 1).val = (y 1).val := by
    show win0_2.index t (1 : Fin 2) * 256 + 1 * (y 1).val = _; omega
  rw [blk0_0 V c t (ix2 (y 0) k) (ix2 ((((cfg0.win 2).blk t).view.emb y) 0) k) hy0 rfl,
    blk0_1 V c t (ix2 k (y 1)) (ix2 k ((((cfg0.win 2).blk t).view.emb y) 1)) rfl hy1]

/-- An index of the result array lies in point t's block iff its row lies in block row t. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v44).slice (win0_2.rect t)).set ↔ _
  rw [View.set_slice_whole, Rect.mem_set_unit]
  exact Iff.rfl

/-- Every entry of the result is written by the point its row's block belongs to. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  let t : Fin cfg0.N := ⟨(i 0).val / 5000, by rw [hN]; omega⟩
  obtain ⟨e0, e1, e2, e3, e4, e5⟩ := grid_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- After region 0 its result array holds the whole product of the arrays it was entered with. -/
theorem product0 (c : Dev nD) : (dat0 V c).arrAt 2 cfg0.N = rowsTimes (M := 50000) (K := 128) (N := 256) (V c main_v42) (V c main_v43) :=
  (dat0 V c).arrAt_eq_of_cover 2 _ (fun t _ => flushed0 V c t) cover0

end Region0

end Cert.KernelIdeal.ProductsA

end
-- ==== Proof.Step.lean ====
/-
  One entry of a graph-convolution layer after its two sums.

  With a the aggregated neighbour messages, h the node's own transformed features, s the node's self-loop weight,
  b the bias, and (mu, v, g, be) the normalisation's mean, variance, scale and shift, both programs compute
      max(((a + h·s + b − mu) · rsqrt(v + ε)) · g + be, 0)
  on the extended reals, in exactly this order of operations; ε and 0 are the same float words on both sides and
  are never evaluated.
-/
import Idealize.ShloMosaic.PureOps.Ideal

noncomputable section

namespace Cert.Step

open Idealize.ShloMosaic

/-- The step on the extended reals. -/
def normRelu (a h s b mu v g be : EReal) : EReal :=
  max ((((a + h * s) + b - mu) * Ideal.rsqrt (v + Ideal.ofBits .f32 0x3727C5AC#32)) * g + be) (Ideal.ofBits .f32 0x00000000#32)

end Cert.Step

end
-- ==== Proof.FuseEntry.lean ====
/-
  The fused combine / normalise / clip step at one entry.

  Each of the four fusing regions computes, entry by entry, the same scalar function of eight numbers: the
  aggregated messages a, the node's own features h scaled by the node's self weight s, a bias b, then the
  normalisation by a mean mu and a variance v with scale g and shift be, and the clip at zero:
      max(((a + h·s + b − mu) · rsqrt(v + ε)) · g + be, 0).
  The self weight is a column (one number per row), the five parameters are rows (one number per column).
-/
import proofs.«157617_j32676111188646_1_alg».proof.Proof.Gen.KernelIdeal.Skeleton
import proofs.«157617_j32676111188646_1_alg».proof.Proof.Step
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fuse

open Idealize.ShloMosaic Idealize.ShloMosaic.TcCoe Idealize.SL.Sem Idealize.ShloMosaic.ValueIdx
open Idealize.ShloMosaic.Pipeline (Dat)
open Cert.KernelIdeal Cert.KernelIdeal.Gen Cert.Step

/-- A column [2000, 1] broadcast along the columns, read at (r, j), is the column's r-th number. -/
theorem column_at (v : Vec Ideal S2000x1 .f32) (r : Fin 2000) (j : Fin 256) :
    broadcastTo S2000x256 v broadcasts_S2000x1_S2000x256 (ix2 r j) = v (ix2 r 0) :=
  broadcastTo_apply v broadcasts_S2000x1_S2000x256 (ix2 r j) (ix2 r 0) (fun a => by
    match a with
    | ⟨0, _⟩ => show r.val = if (2000 : Nat) = 1 then 0 else r.val; rw [if_neg (by decide)]
    | ⟨1, _⟩ => show 0 = if (1 : Nat) = 1 then 0 else j.val; rw [if_pos rfl])

/-- A row [1, 256] broadcast down the rows, read at (r, j), is the row's j-th number. -/
theorem row_at (v : Vec Ideal S1x256 .f32) (r : Fin 2000) (j : Fin 256) :
    broadcastTo S2000x256 v broadcasts_S1x256_S2000x256 (ix2 r j) = v (ix2 0 j) :=
  broadcastTo_apply v broadcasts_S1x256_S2000x256 (ix2 r j) (ix2 0 j) (fun a => by
    match a with
    | ⟨0, _⟩ => show 0 = if (1 : Nat) = 1 then 0 else r.val; rw [if_pos rfl]
    | ⟨1, _⟩ => show j.val = if (256 : Nat) = 1 then 0 else j.val; rw [if_neg (by decide)])

/-- Region 1's payload at the entry (r, j) of a block. -/
theorem pay1_entry (x0 x1 : Vec Ideal S2000x256 .f32) (x2 : Vec Ideal S2000x1 .f32) (xb xmu xv xg xbe : Vec Ideal S1x256 .f32)
    (r : Fin 2000) (j : Fin 256) :
    k1_pay1 x0 x1 x2 xb xmu xv xg xbe (ix2 r j)
      = normRelu (x0 (ix2 r j)) (x1 (ix2 r j)) (x2 (ix2 r 0)) (xb (ix2 0 j)) (xmu (ix2 0 j)) (xv (ix2 0 j)) (xg (ix2 0 j)) (xbe (ix2 0 j)) := by
  unfold k1_pay1
  simp only [shapeCast_self]
  show max ((((x0 (ix2 r j) + x1 (ix2 r j) * broadcastTo S2000x256 x2 broadcasts_S2000x1_S2000x256 (ix2 r j))
        + broadcastTo S2000x256 xb broadcasts_S1x256_S2000x256 (ix2 r j) - broadcastTo S2000x256 xmu broadcasts_S1x256_S2000x256 (ix2 r j))
        * broadcastTo S2000x256 (rsqrt (F := Ideal) (addf (F := Ideal) xv (broadcast S1x256 (Scalar.ofBits (F := Ideal) .f32 0x3727C5AC#32)))) broadcasts_S1x256_S2000x256 (ix2 r j))
        * broadcastTo S2000x256 xg broadcasts_S1x256_S2000x256 (ix2 r j) + broadcastTo S2000x256 xbe broadcasts_S1x256_S2000x256 (ix2 r j))
      (Ideal.ofBits .f32 0x00000000#32) = _
  rw [column_at, row_at, row_at, row_at, row_at, row_at]
  rfl

/-- Region 3's payload at the entry (r, j) of a block. -/
theorem pay3_entry (x0 x1 : Vec Ideal S2000x256 .f32) (x2 : Vec Ideal S2000x1 .f32) (xb xmu xv xg xbe : Vec Ideal S1x256 .f32)
    (r : Fin 2000) (j : Fin 256) :
    k3_pay1 x0 x1 x2 xb xmu xv xg xbe (ix2 r j)
      = normRelu (x0 (ix2 r j)) (x1 (ix2 r j)) (x2 (ix2 r 0)) (xb (ix2 0 j)) (xmu (ix2 0 j)) (xv (ix2 0 j)) (xg (ix2 0 j)) (xbe (ix2 0 j)) := by
  unfold k3_pay1
  simp only [shapeCast_self]
  show max ((((x0 (ix2 r j) + x1 (ix2 r j) * broadcastTo S2000x256 x2 broadcasts_S2000x1_S2000x256 (ix2 r j))
        + broadcastTo S2000x256 xb broadcasts_S1x256_S2000x256 (ix2 r j) - broadcastTo S2000x256 xmu broadcasts_S1x256_S2000x256 (ix2 r j))
        * broadcastTo S2000x256 (rsqrt (F := Ideal) (addf (F := Ideal) xv (broadcast S1x256 (Scalar.ofBits (F := Ideal) .f32 0x3727C5AC#32)))) broadcasts_S1x256_S2000x256 (ix2 r j))
        * broadcastTo S2000x256 xg broadcasts_S1x256_S2000x256 (ix2 r j) + broadcastTo S2000x256 xbe broadcasts_S1x256_S2000x256 (ix2 r j))
      (Ideal.ofBits .f32 0x00000000#32) = _
  rw [column_at, row_at, row_at, row_at, row_at, row_at]
  rfl

/-- Region 5's payload at the entry (r, j) of a block. -/
theorem pay5_entry (x0 x1 : Vec Ideal S2000x256 .f32) (x2 : Vec Ideal S2000x1 .f32) (xb xmu xv xg xbe : Vec Ideal S1x256 .f32)
    (r : Fin 2000) (j : Fin 256) :
    k5_pay1 x0 x1 x2 xb xmu xv xg xbe (ix2 r j)
      = normRelu (x0 (ix2 r j)) (x1 (ix2 r j)) (x2 (ix2 r 0)) (xb (ix2 0 j)) (xmu (ix2 0 j)) (xv (ix2 0 j)) (xg (ix2 0 j)) (xbe (ix2 0 j)) := by
  unfold k5_pay1
  simp only [shapeCast_self]
  show max ((((x0 (ix2 r j) + x1 (ix2 r j) * broadcastTo S2000x256 x2 broadcasts_S2000x1_S2000x256 (ix2 r j))
        + broadcastTo S2000x256 xb broadcasts_S1x256_S2000x256 (ix2 r j) - broadcastTo S2000x256 xmu broadcasts_S1x256_S2000x256 (ix2 r j))
        * broadcastTo S2000x256 (rsqrt (F := Ideal) (addf (F := Ideal) xv (broadcast S1x256 (Scalar.ofBits (F := Ideal) .f32 0x3727C5AC#32)))) broadcasts_S1x256_S2000x256 (ix2 r j))
        * broadcastTo S2000x256 xg broadcasts_S1x256_S2000x256 (ix2 r j) + broadcastTo S2000x256 xbe broadcasts_S1x256_S2000x256 (ix2 r j))
      (Ideal.ofBits .f32 0x00000000#32) = _
  rw [column_at, row_at, row_at, row_at, row_at, row_at]
  rfl

/-- Region 7's payload at the entry (r, j) of a block. -/
theorem pay7_entry (x0 x1 : Vec Ideal S2000x256 .f32) (x2 : Vec Ideal S2000x1 .f32) (xb xmu xv xg xbe : Vec Ideal S1x256 .f32)
    (r : Fin 2000) (j : Fin 256) :
    k7_pay1 x0 x1 x2 xb xmu xv xg xbe (ix2 r j)
      = normRelu (x0 (ix2 r j)) (x1 (ix2 r j)) (x2 (ix2 r 0)) (xb (ix2 0 j)) (xmu (ix2 0 j)) (xv (ix2 0 j)) (xg (ix2 0 j)) (xbe (ix2 0 j)) := by
  unfold k7_pay1
  simp only [shapeCast_self]
  show max ((((x0 (ix2 r j) + x1 (ix2 r j) * broadcastTo S2000x256 x2 broadcasts_S2000x1_S2000x256 (ix2 r j))
        + broadcastTo S2000x256 xb broadcasts_S1x256_S2000x256 (ix2 r j) - broadcastTo S2000x256 xmu broadcasts_S1x256_S2000x256 (ix2 r j))
        * broadcastTo S2000x256 (rsqrt (F := Ideal) (addf (F := Ideal) xv (broadcast S1x256 (Scalar.ofBits (F := Ideal) .f32 0x3727C5AC#32)))) broadcasts_S1x256_S2000x256 (ix2 r j))
        * broadcastTo S2000x256 xg broadcasts_S1x256_S2000x256 (ix2 r j) + broadcastTo S2000x256 xbe broadcasts_S1x256_S2000x256 (ix2 r j))
      (Ideal.ofBits .f32 0x00000000#32) = _
  rw [column_at, row_at, row_at, row_at, row_at, row_at]
  rfl

/-- Region 1's payload at any entry of a block. -/
theorem pay1_at (x0 x1 : Vec Ideal S2000x256 .f32) (x2 : Vec Ideal S2000x1 .f32) (xb xmu xv xg xbe : Vec Ideal S1x256 .f32)
    (y : S2000x256.Idx) :
    k1_pay1 x0 x1 x2 xb xmu xv xg xbe y
      = normRelu (x0 y) (x1 y) (x2 (ix2 (y 0) 0)) (xb (ix2 0 (y 1))) (xmu (ix2 0 (y 1))) (xv (ix2 0 (y 1))) (xg (ix2 0 (y 1))) (xbe (ix2 0 (y 1))) := by
  obtain ⟨r, j, rfl⟩ : ∃ (r : Fin 2000) (j : Fin 256), y = ix2 r j := ⟨y 0, y 1, eq_ix2 y⟩
  exact pay1_entry x0 x1 x2 xb xmu xv xg xbe r j

/-- Region 3's payload at any entry of a block. -/
theorem pay3_at (x0 x1 : Vec Ideal S2000x256 .f32) (x2 : Vec Ideal S2000x1 .f32) (xb xmu xv xg xbe : Vec Ideal S1x256 .f32)
    (y : S2000x256.Idx) :
    k3_pay1 x0 x1 x2 xb xmu xv xg xbe y
      = normRelu (x0 y) (x1 y) (x2 (ix2 (y 0) 0)) (xb (ix2 0 (y 1))) (xmu (ix2 0 (y 1))) (xv (ix2 0 (y 1))) (xg (ix2 0 (y 1))) (xbe (ix2 0 (y 1))) := by
  obtain ⟨r, j, rfl⟩ : ∃ (r : Fin 2000) (j : Fin 256), y = ix2 r j := ⟨y 0, y 1, eq_ix2 y⟩
  exact pay3_entry x0 x1 x2 xb xmu xv xg xbe r j

/-- Region 5's payload at any entry of a block. -/
theorem pay5_at (x0 x1 : Vec Ideal S2000x256 .f32) (x2 : Vec Ideal S2000x1 .f32) (xb xmu xv xg xbe : Vec Ideal S1x256 .f32)
    (y : S2000x256.Idx) :
    k5_pay1 x0 x1 x2 xb xmu xv xg xbe y
      = normRelu (x0 y) (x1 y) (x2 (ix2 (y 0) 0)) (xb (ix2 0 (y 1))) (xmu (ix2 0 (y 1))) (xv (ix2 0 (y 1))) (xg (ix2 0 (y 1))) (xbe (ix2 0 (y 1))) := by
  obtain ⟨r, j, rfl⟩ : ∃ (r : Fin 2000) (j : Fin 256), y = ix2 r j := ⟨y 0, y 1, eq_ix2 y⟩
  exact pay5_entry x0 x1 x2 xb xmu xv xg xbe r j

/-- Region 7's payload at any entry of a block. -/
theorem pay7_at (x0 x1 : Vec Ideal S2000x256 .f32) (x2 : Vec Ideal S2000x1 .f32) (xb xmu xv xg xbe : Vec Ideal S1x256 .f32)
    (y : S2000x256.Idx) :
    k7_pay1 x0 x1 x2 xb xmu xv xg xbe y
      = normRelu (x0 y) (x1 y) (x2 (ix2 (y 0) 0)) (xb (ix2 0 (y 1))) (xmu (ix2 0 (y 1))) (xv (ix2 0 (y 1))) (xg (ix2 0 (y 1))) (xbe (ix2 0 (y 1))) := by
  obtain ⟨r, j, rfl⟩ : ∃ (r : Fin 2000) (j : Fin 256), y = ix2 r j := ⟨y 0, y 1, eq_ix2 y⟩
  exact pay7_entry x0 x1 x2 xb xmu xv xg xbe r j

/-- The step applied to whole arrays, entry by entry: the two sums' arrays, the self weights' column, and the five
    parameter rows in the order the regions receive them (bias, scale, shift, mean, variance). -/
def fused (agg h : S50000x256.Idx → EReal) (s : S50000x1.Idx → EReal) (b g be mu v : S1x256.Idx → EReal) :
    S50000x256.Idx → EReal :=
  fun i => normRelu (agg i) (h i) (s (ix2 (i 0) 0)) (b (ix2 0 (i 1))) (mu (ix2 0 (i 1))) (v (ix2 0 (i 1))) (g (ix2 0 (i 1))) (be (ix2 0 (i 1)))

end Cert.KernelIdeal.Fuse

end
-- ==== Proof.FuseB.lean ====
/-
  A fusing region of the kernel (region 1).

  At grid point t the body loads block row t (2000 rows) of the two sums and of the self weights' column, and the
  five parameter rows whole, applies the layer's scalar step entry by entry, and stores block row t of the result;
  the 25 block rows tile the result.  So after the region the result array is the step applied to the whole arrays.
-/
import proofs.«157617_j32676111188646_1_alg».proof.Proof.Gen.KernelIdeal.Frame
import proofs.«157617_j32676111188646_1_alg».proof.Proof.FuseEntry
import Idealize.ShloMosaic.Lib.Pipeline.Value
import Idealize.ShloMosaic.Lib.ValueIdx

set_option maxRecDepth 16384

noncomputable section

namespace Cert.KernelIdeal.FuseB

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Fuse Cert.Step

theorem hz2 : (![0, 0] : Fin 2 → Nat) = fun _ => 0 := funext fun a => by fin_cases a <;> rfl

/-! ## Region 1: the step on 2000 rows per grid point -/

section Region1

variable (V : (c : Dev nD) → (b : Ref sig .tc) → Buf (Elt Ideal) ((c : Thread nD τ).loc b))

/-- The index maps over the grid: point t takes block row t of the two sums, of the self weights and of the
    result, and the whole of each parameter row. -/
theorem grid_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem blk1_0 (c : Dev nD) (t : Fin cfg1.N) (z : S2000x256.Idx) (i : S50000x256.Idx)
    (h0 : (i 0).val = t.val * 2000 + (z 0).val) (h1 : (i 1).val = (z 1).val) :
    iblk1 V c 0 t z = V c main_v56 i := by
  obtain ⟨e00, e01, e10, e11, e20, e21, e30, e31, e40, e41, e50, e51, e60, e61, e70, e71, e80, e81⟩ := grid_facts1 t
  show V c main_v56 (((cfg1.win 0).blk t).view.emb z) = V c main_v56 i
  refine congrArg _ ?_
  funext a; apply Fin.ext
  match a with
  | ⟨0, _⟩ => show win1_0.index t (0 : Fin 2) * 2000 + 1 * (z 0).val = (i 0).val; omega
  | ⟨1, _⟩ => show win1_0.index t (1 : Fin 2) * 256 + 1 * (z 1).val = (i 1).val; omega

theorem blk1_1 (c : Dev nD) (t : Fin cfg1.N) (z : S2000x256.Idx) (i : S50000x256.Idx)
    (h0 : (i 0).val = t.val * 2000 + (z 0).val) (h1 : (i 1).val = (z 1).val) :
    iblk1 V c 1 t z = V c main_v44 i := by
  obtain ⟨e00, e01, e10, e11, e20, e21, e30, e31, e40, e41, e50, e51, e60, e61, e70, e71, e80, e81⟩ := grid_facts1 t
  show V c main_v44 (((cfg1.win 1).blk t).view.emb z) = V c main_v44 i
  refine congrArg _ ?_
  funext a; apply Fin.ext
  match a with
  | ⟨0, _⟩ => show win1_1.index t (0 : Fin 2) * 2000 + 1 * (z 0).val = (i 0).val; omega
  | ⟨1, _⟩ => show win1_1.index t (1 : Fin 2) * 256 + 1 * (z 1).val = (i 1).val; omega

theorem blk1_2 (c : Dev nD) (t : Fin cfg1.N) (z : S2000x1.Idx) (i : S50000x1.Idx)
    (h0 : (i 0).val = t.val * 2000 + (z 0).val) (h1 : (i 1).val = (z 1).val) :
    iblk1 V c 2 t z = V c main_v35 i := by
  obtain ⟨e00, e01, e10, e11, e20, e21, e30, e31, e40, e41, e50, e51, e60, e61, e70, e71, e80, e81⟩ := grid_facts1 t
  show V c main_v35 (((cfg1.win 2).blk t).view.emb z) = V c main_v35 i
  refine congrArg _ ?_
  funext a; apply Fin.ext
  match a with
  | ⟨0, _⟩ => show win1_2.index t (0 : Fin 2) * 2000 + 1 * (z 0).val = (i 0).val; omega
  | ⟨1, _⟩ => show win1_2.index t (1 : Fin 2) * 1 + 1 * (z 1).val = (i 1).val; omega

theorem blk1_3 (c : Dev nD) (t : Fin cfg1.N) (z : S1x256.Idx) (i : S1x256.Idx)
    (h0 : (i 0).val = (z 0).val) (h1 : (i 1).val = (z 1).val) :
    iblk1 V c 3 t z = V c main_v67 i := by
  obtain ⟨e00, e01, e10, e11, e20, e21, e30, e31, e40, e41, e50, e51, e60, e61, e70, e71, e80, e81⟩ := grid_facts1 t
  show V c main_v67 (((cfg1.win 3).blk t).view.emb z) = V c main_v67 i
  refine congrArg _ ?_
  funext a; apply Fin.ext
  match a with
  | ⟨0, _⟩ => show win1_3.index t (0 : Fin 2) * 1 + 1 * (z 0).val = (i 0).val; omega
  | ⟨1, _⟩ => show win1_3.index t (1 : Fin 2) * 256 + 1 * (z 1).val = (i 1).val; omega

theorem blk1_4 (c : Dev nD) (t : Fin cfg1.N) (z : S1x256.Idx) (i : S1x256.Idx)
    (h0 : (i 0).val = (z 0).val) (h1 : (i 1).val = (z 1).val) :
    iblk1 V c 4 t z = V c main_v68 i := by
  obtain ⟨e00, e01, e10, e11, e20, e21, e30, e31, e40, e41, e50, e51, e60, e61, e70, e71, e80, e81⟩ := grid_facts1 t
  show V c main_v68 (((cfg1.win 4).blk t).view.emb z) = V c main_v68 i
  refine congrArg _ ?_
  funext a; apply Fin.ext
  match a with
  | ⟨0, _⟩ => show win1_4.index t (0 : Fin 2) * 1 + 1 * (z 0).val = (i 0).val; omega
  | ⟨1, _⟩ => show win1_4.index t (1 : Fin 2) * 256 + 1 * (z 1).val = (i 1).val; omega

theorem blk1_5 (c : Dev nD) (t : Fin cfg1.N) (z : S1x256.Idx) (i : S1x256.Idx)
    (h0 : (i 0).val = (z 0).val) (h1 : (i 1).val = (z 1).val) :
    iblk1 V c 5 t z = V c main_v69 i := by
  obtain ⟨e00, e01, e10, e11, e20, e21, e30, e31, e40, e41, e50, e51, e60, e61, e70, e71, e80, e81⟩ := grid_facts1 t
  show V c main_v69 (((cfg1.win 5).blk t).view.emb z) = V c main_v69 i
  refine congrArg _ ?_
  funext a; apply Fin.ext
  match a with
  | ⟨0, _⟩ => show win1_5.index t (0 : Fin 2) * 1 + 1 * (z 0).val = (i 0).val; omega
  | ⟨1, _⟩ => show win1_5.index t (1 : Fin 2) * 256 + 1 * (z 1).val = (i 1).val; omega

theorem blk1_6 (c : Dev nD) (t : Fin cfg1.N) (z : S1x256.Idx) (i : S1x256.Idx)
    (h0 : (i 0).val = (z 0).val) (h1 : (i 1).val = (z 1).val) :
    iblk1 V c 6 t z = V c main_v70 i := by
  obtain ⟨e00, e01, e10, e11, e20, e21, e30, e31, e40, e41, e50, e51, e60, e61, e70, e71, e80, e81⟩ := grid_facts1 t
  show V c main_v70 (((cfg1.win 6).blk t).view.emb z) = V c main_v70 i
  refine congrArg _ ?_
  funext a; apply Fin.ext
  match a with
  | ⟨0, _⟩ => show win1_6.index t (0 : Fin 2) * 1 + 1 * (z 0).val = (i 0).val; omega
  | ⟨1, _⟩ => show win1_6.index t (1 : Fin 2) * 256 + 1 * (z 1).val = (i 1).val; omega

theorem blk1_7 (c : Dev nD) (t : Fin cfg1.N) (z : S1x256.Idx) (i : S1x256.Idx)
    (h0 : (i 0).val = (z 0).val) (h1 : (i 1).val = (z 1).val) :
    iblk1 V c 7 t z = V c main_v71 i := by
  obtain ⟨e00, e01, e10, e11, e20, e21, e30, e31, e40, e41, e50, e51, e60, e61, e70, e71, e80, e81⟩ := grid_facts1 t
  show V c main_v71 (((cfg1.win 7).blk t).view.emb z) = V c main_v71 i
  refine congrArg _ ?_
  funext a; apply Fin.ext
  match a with
  | ⟨0, _⟩ => show win1_7.index t (0 : Fin 2) * 1 + 1 * (z 0).val = (i 0).val; omega
  | ⟨1, _⟩ => show win1_7.index t (1 : Fin 2) * 256 + 1 * (z 1).val = (i 1).val; omega

/-- What point t writes back is block row t of the step applied to the whole arrays. -/
theorem flushed1 (c : Dev nD) (t : Fin cfg1.N) :
    (dat1 V c).flushed 8 t = ((cfg1.win 8).blk t).view.read (Elt Ideal)
      (fused (V c main_v56) (V c main_v44) (V c main_v35) (V c main_v67) (V c main_v68) (V c main_v69) (V c main_v70) (V c main_v71)) := by
  show (cfg1.win 8).cut (grid1.coords t) ((dat1 V c).after 8 t) = _
  rw [after1_8]
  unfold out1_8
  rw [View.canon_unit_zero hz2]
  simp only [View.ld_unit_zero (S := S2000x256) hz2, View.ld_unit_zero (S := S2000x1) hz2, View.ld_unit_zero (S := S1x256) hz2]
  obtain ⟨e00, e01, e10, e11, e20, e21, e30, e31, e40, e41, e50, e51, e60, e61, e70, e71, e80, e81⟩ := grid_facts1 t
  funext y
  show k1_pay1 (iblk1 V c 0 t) (iblk1 V c 1 t) (iblk1 V c 2 t) (iblk1 V c 3 t) (iblk1 V c 6 t) (iblk1 V c 7 t) (iblk1 V c 4 t) (iblk1 V c 5 t) y
    = fused (V c main_v56) (V c main_v44) (V c main_v35) (V c main_v67) (V c main_v68) (V c main_v69) (V c main_v70) (V c main_v71) (((cfg1.win 8).blk t).view.emb y)
  refine (pay1_at _ _ _ _ _ _ _ _ y).trans ?_
  unfold fused
  have hy0 : ((((cfg1.win 8).blk t).view.emb y) 0).val = t.val * 2000 + (y 0).val := by
    show win1_8.index t (0 : Fin 2) * 2000 + 1 * (y 0).val = _; omega
  have hy1 : ((((cfg1.win 8).blk t).view.emb y) 1).val = (y 1).val := by
    show win1_8.index t (1 : Fin 2) * 256 + 1 * (y 1).val = _; omega
  rw [blk1_0 V c t y (((cfg1.win 8).blk t).view.emb y) hy0 hy1, blk1_1 V c t y (((cfg1.win 8).blk t).view.emb y) hy0 hy1,
    blk1_2 V c t (ix2 (y 0) 0) (ix2 ((((cfg1.win 8).blk t).view.emb y) 0) 0) hy0 rfl,
    blk1_3 V c t (ix2 0 (y 1)) (ix2 0 ((((cfg1.win 8).blk t).view.emb y) 1)) rfl hy1,
    blk1_4 V c t (ix2 0 (y 1)) (ix2 0 ((((cfg1.win 8).blk t).view.emb y) 1)) rfl hy1,
    blk1_5 V c t (ix2 0 (y 1)) (ix2 0 ((((cfg1.win 8).blk t).view.emb y) 1)) rfl hy1,
    blk1_6 V c t (ix2 0 (y 1)) (ix2 0 ((((cfg1.win 8).blk t).view.emb y) 1)) rfl hy1,
    blk1_7 V c t (ix2 0 (y 1)) (ix2 0 ((((cfg1.win 8).blk t).view.emb y) 1)) rfl hy1]

theorem mem_blk1 (t : Fin cfg1.N) (i : S50000x256.Idx) :
    i ∈ ((cfg1.win 8).blk t).view.set ↔ ∀ a : Fin 2, win1_8.index t a * S2000x256.size a ≤ (i a).val ∧ (i a).val < win1_8.index t a * S2000x256.size a + S2000x256.size a := by
  show i ∈ ((View.whole main_v72).slice (win1_8.rect t)).set ↔ _
  rw [View.set_slice_whole, Rect.mem_set_unit]
  exact Iff.rfl

/-- Every entry of the result is written by the point its row's block belongs to. -/
theorem cover1 (i : S50000x256.Idx) : ∃ t : Fin cfg1.N, (cfg1.win 8).flush t = true ∧ i ∈ ((cfg1.win 8).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e00, e01, e10, e11, e20, e21, e30, e31, e40, e41, e50, e51, e60, e61, e70, e71, e80, e81⟩ := grid_facts1 t
  have ht : t.val = (i 0).val / 2000 := rfl
  refine ⟨t, flush1_8 t, ?_⟩
  rw [mem_blk1]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 256 ≤ (i 1).val ∧ (i 1).val < win1_8.index t (1 : Fin 2) * 256 + 256; omega

/-- After region 1 its result array holds the step of the arrays it was entered with. -/
theorem stepped1 (c : Dev nD) : (dat1 V c).arrAt 8 cfg1.N
    = fused (V c main_v56) (V c main_v44) (V c main_v35) (V c main_v67) (V c main_v68) (V c main_v69) (V c main_v70) (V c main_v71) :=
  (dat1 V c).arrAt_eq_of_cover 8 _ (fun t _ => flushed1 V c t) cover1

end Region1

end Cert.KernelIdeal.FuseB

end
-- ==== Proof.RefLayer.lean ====
/-
  The reference's layer step on whole arrays, and its value at an entry.

  After the two sums of a layer the reference applies, to whole [50000, 256] arrays, the bias, the normalisation
  and the clip at zero, each per-column parameter a [256] vector broadcast first to a row [1, 256] and then down
  the 50000 rows, the self-loop weight a column [50000, 1] broadcast along the 256 columns.  Read at the entry
  (n, j) this is the scalar step of the node's and column's numbers.
-/
import proofs.«157617_j32676111188646_1_alg».proof.Proof.RefRead
import proofs.«157617_j32676111188646_1_alg».proof.Proof.LibRowColumn
import proofs.«157617_j32676111188646_1_alg».proof.Proof.Step
import Idealize.ShloMosaic.Lib.Pipeline.Value
import Idealize.ShloMosaic.Lib.ValueIdx

set_option maxRecDepth 16384

noncomputable section

namespace Cert.ReferenceIdeal.Layers

open Idealize.ShloMosaic Idealize.ShloMosaic.TcCoe Idealize.ShloMosaic.ValueIdx
open Cert.ReferenceIdeal Cert.ReferenceIdeal.Gen Cert.ReferenceIdeal.ReadP Cert.Step Cert.Lib.RowColumn

/-- A per-column vector as the reference spreads it over the array. -/
abbrev spread (x : FVec Ideal S256 .f32) : FVec Ideal S50000x256 .f32 :=
  broadcastInDim S50000x256 ![0, 1] bcast_S1x256_S50000x256_0_1 (broadcastInDim S1x256 ![1] bcast_S256_S1x256_1 x)

/-- The layer's step on whole arrays, operation by operation as the reference applies it. -/
def layer (agg h : FVec Ideal S50000x256 .f32) (s : FVec Ideal S50000x1 .f32) (b mu v g be : FVec Ideal S256 .f32) :
    FVec Ideal S50000x256 .f32 :=
  maximumf (addf (mulf (mulf (subf (addf (addf agg (mulf h (broadcastInDim S50000x256 ![0, 1] bcast_S50000x1_S50000x256_0_1 s)))
      (spread b)) (spread mu))
      (spread (Host.rsqrt (addf v (broadcastInDim S256 ![] bcast_S_S256 (constant S_ .f32 0x3727C5AC#32))))))
      (spread g)) (spread be))
    (broadcastInDim S50000x256 ![] bcast_S_S50000x256 (constant S_ .f32 0x00000000#32))

theorem spread_at (x : FVec Ideal S256 .f32) (n : Fin 50000) (j : Fin 256) : spread x (ix2 n j) = x (ix1 j) := by
  unfold spread
  rw [broadcastInDim_apply _ bcast_S1x256_S50000x256_0_1 _ (ix2 n j) (ix2 0 j) (fun a => by
    match a with
    | ⟨0, _⟩ => show 0 = if (1 : Nat) = 1 then 0 else n.val; rw [if_pos rfl]
    | ⟨1, _⟩ => show j.val = if (256 : Nat) = 1 then 0 else j.val; rw [if_neg (by decide)])]
  exact broadcastInDim_apply _ bcast_S256_S1x256_1 x (ix2 0 j) (ix1 j) (fun a => by
    match a with
    | ⟨0, _⟩ => show j.val = if (256 : Nat) = 1 then 0 else j.val; rw [if_neg (by decide)])

theorem column_at (s : FVec Ideal S50000x1 .f32) (n : Fin 50000) (j : Fin 256) :
    broadcastInDim S50000x256 ![0, 1] bcast_S50000x1_S50000x256_0_1 s (ix2 n j) = s (ix2 n 0) :=
  broadcastInDim_apply _ bcast_S50000x1_S50000x256_0_1 s (ix2 n j) (ix2 n 0) (fun a => by
    match a with
    | ⟨0, _⟩ => show n.val = if (50000 : Nat) = 1 then 0 else n.val; rw [if_neg (by decide)]
    | ⟨1, _⟩ => show 0 = if (1 : Nat) = 1 then 0 else j.val; rw [if_pos rfl])

/-- The layer at the entry (n, j). -/
theorem layer_entry (agg h : FVec Ideal S50000x256 .f32) (s : FVec Ideal S50000x1 .f32) (b mu v g be : FVec Ideal S256 .f32)
    (n : Fin 50000) (j : Fin 256) :
    layer agg h s b mu v g be (ix2 n j)
      = normRelu (agg (ix2 n j)) (h (ix2 n j)) (s (ix2 n 0)) (b (ix1 j)) (mu (ix1 j)) (v (ix1 j)) (g (ix1 j)) (be (ix1 j)) := by
  unfold layer
  show max ((((agg (ix2 n j) + h (ix2 n j) * broadcastInDim S50000x256 ![0, 1] bcast_S50000x1_S50000x256_0_1 s (ix2 n j))
        + spread b (ix2 n j) - spread mu (ix2 n j))
        * spread (Host.rsqrt (F := Ideal) (addf (F := Ideal) v (broadcastInDim S256 ![] bcast_S_S256 (constant (F := Ideal) S_ .f32 0x3727C5AC#32)))) (ix2 n j))
        * spread g (ix2 n j) + spread be (ix2 n j))
      (Ideal.ofBits .f32 0x00000000#32) = _
  rw [column_at, spread_at, spread_at, spread_at, spread_at, spread_at]
  rfl

/-- The four layers of the reference are this step of their two sums and their parameters' rows. -/
theorem layer1_eq (x0 x1 x3 x5 x6 x7 x8 x9) :
    val_main_v86 (F := Ideal) x0 x1 x3 x5 x6 x7 x8 x9
      = layer (val_main_v56 (F := Ideal) x0 x1 x3) (val_main_v44 (F := Ideal) x0 x3) (val_main_v35 (F := Ideal) x1) (val_main_v43 (F := Ideal) x5) (val_main_v64 (F := Ideal) x8) (val_main_v69 (F := Ideal) x9) (val_main_v77 (F := Ideal) x6) (val_main_v82 (F := Ideal) x7) := rfl
theorem layer2_eq (x0 x1 x3 x4 x5 x6 x7 x8 x9) :
    val_main_v131 (F := Ideal) x0 x1 x3 x4 x5 x6 x7 x8 x9
      = layer (val_main_v101 (F := Ideal) x0 x1 x3 x4 x5 x6 x7 x8 x9) (val_main_v89 (F := Ideal) x0 x1 x3 x4 x5 x6 x7 x8 x9) (val_main_v35 (F := Ideal) x1) (val_main_v88 (F := Ideal) x5) (val_main_v109 (F := Ideal) x8) (val_main_v114 (F := Ideal) x9) (val_main_v122 (F := Ideal) x6) (val_main_v127 (F := Ideal) x7) := rfl
theorem layer3_eq (x0 x1 x3 x4 x5 x6 x7 x8 x9) :
    val_main_v176 (F := Ideal) x0 x1 x3 x4 x5 x6 x7 x8 x9
      = layer (val_main_v146 (F := Ideal) x0 x1 x3 x4 x5 x6 x7 x8 x9) (val_main_v134 (F := Ideal) x0 x1 x3 x4 x5 x6 x7 x8 x9) (val_main_v35 (F := Ideal) x1) (val_main_v133 (F := Ideal) x5) (val_main_v154 (F := Ideal) x8) (val_main_v159 (F := Ideal) x9) (val_main_v167 (F := Ideal) x6) (val_main_v172 (F := Ideal) x7) := rfl
theorem layer4_eq (x0 x1 x3 x4 x5 x6 x7 x8 x9) :
    val_main_v221 (F := Ideal) x0 x1 x3 x4 x5 x6 x7 x8 x9
      = layer (val_main_v191 (F := Ideal) x0 x1 x3 x4 x5 x6 x7 x8 x9) (val_main_v179 (F := Ideal) x0 x1 x3 x4 x5 x6 x7 x8 x9) (val_main_v35 (F := Ideal) x1) (val_main_v178 (F := Ideal) x5) (val_main_v199 (F := Ideal) x8) (val_main_v204 (F := Ideal) x9) (val_main_v212 (F := Ideal) x6) (val_main_v217 (F := Ideal) x7) := rfl

/-! ## The reference's dot products as row-by-column products -/

theorem dotA_lhs0 (i : S50000x256.Idx) (q : dot_S50000x128_S128x256_S50000x256_1_0_0_1_n_n.contr.Idx) : (dot_S50000x128_S128x256_S50000x256_1_0_0_1_n_n.lhsIdx i q 0).val = (i 0).val := by
  unfold DotDims.lhsIdx
  rw [dif_neg (show ¬(0 : Fin S50000x128.rank) ∈ dot_S50000x128_S128x256_S50000x256_1_0_0_1_n_n.lhsBatch by decide), dif_pos (show (0 : Fin S50000x128.rank) ∈ dot_S50000x128_S128x256_S50000x256_1_0_0_1_n_n.lhsNonContracting by decide)]
  rfl
theorem dotA_lhs1 (i : S50000x256.Idx) (q : dot_S50000x128_S128x256_S50000x256_1_0_0_1_n_n.contr.Idx) : (dot_S50000x128_S128x256_S50000x256_1_0_0_1_n_n.lhsIdx i q 1).val = (q ⟨0, by decide⟩).val :=
  dot_S50000x128_S128x256_S50000x256_1_0_0_1_n_n.lhsIdx_val_of_single rfl i q
theorem dotA_rhs0 (i : S50000x256.Idx) (q : dot_S50000x128_S128x256_S50000x256_1_0_0_1_n_n.contr.Idx) : (dot_S50000x128_S128x256_S50000x256_1_0_0_1_n_n.rhsIdx i q 0).val = (q ⟨0, by decide⟩).val :=
  dot_S50000x128_S128x256_S50000x256_1_0_0_1_n_n.rhsIdx_val_of_single rfl i q
theorem dotA_rhs1 (i : S50000x256.Idx) (q : dot_S50000x128_S128x256_S50000x256_1_0_0_1_n_n.contr.Idx) : (dot_S50000x128_S128x256_S50000x256_1_0_0_1_n_n.rhsIdx i q 1).val = (i 1).val := by
  unfold DotDims.rhsIdx
  rw [dif_neg (show ¬(1 : Fin S128x256.rank) ∈ dot_S50000x128_S128x256_S50000x256_1_0_0_1_n_n.rhsBatch by decide), dif_pos (show (1 : Fin S128x256.rank) ∈ dot_S50000x128_S128x256_S50000x256_1_0_0_1_n_n.rhsNonContracting by decide)]
  rfl
/-- The reference's [50000, 128] × [128, 256] dot product is the row-by-column product. -/
theorem dotA (x : FVec Ideal S50000x128 .f32) (w : FVec Ideal S128x256 .f32) :
    Host.dotGeneral dot_S50000x128_S128x256_S50000x256_1_0_0_1_n_n none x w = rowsTimes (M := 50000) (K := 128) (N := 256) x w := by
  simp only [Host.dotGeneral]
  exact dotGeneral_eq_rowsTimes dot_S50000x128_S128x256_S50000x256_1_0_0_1_n_n rfl rfl dotA_lhs0 dotA_lhs1 dotA_rhs0 dotA_rhs1 _ _ x w

theorem dotB_lhs0 (i : S50000x256.Idx) (q : dot_S50000x256_S256x256_S50000x256_1_0_0_1_n_n.contr.Idx) : (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem dotB_lhs1 (i : S50000x256.Idx) (q : dot_S50000x256_S256x256_S50000x256_1_0_0_1_n_n.contr.Idx) : (dot_S50000x256_S256x256_S50000x256_1_0_0_1_n_n.lhsIdx i q 1).val = (q ⟨0, by decide⟩).val :=
  dot_S50000x256_S256x256_S50000x256_1_0_0_1_n_n.lhsIdx_val_of_single rfl i q
theorem dotB_rhs0 (i : S50000x256.Idx) (q : dot_S50000x256_S256x256_S50000x256_1_0_0_1_n_n.contr.Idx) : (dot_S50000x256_S256x256_S50000x256_1_0_0_1_n_n.rhsIdx i q 0).val = (q ⟨0, by decide⟩).val :=
  dot_S50000x256_S256x256_S50000x256_1_0_0_1_n_n.rhsIdx_val_of_single rfl i q
theorem dotB_rhs1 (i : S50000x256.Idx) (q : dot_S50000x256_S256x256_S50000x256_1_0_0_1_n_n.contr.Idx) : (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl
/-- The reference's [50000, 256] × [256, 256] dot product is the row-by-column product. -/
theorem dotB (x : FVec Ideal S50000x256 .f32) (w : FVec Ideal S256x256 .f32) :
    Host.dotGeneral dot_S50000x256_S256x256_S50000x256_1_0_0_1_n_n none x w = rowsTimes (M := 50000) (K := 256) (N := 256) x w := by
  simp only [Host.dotGeneral]
  exact dotGeneral_eq_rowsTimes dot_S50000x256_S256x256_S50000x256_1_0_0_1_n_n rfl rfl dotB_lhs0 dotB_lhs1 dotB_rhs0 dotB_rhs1 _ _ x w

theorem dotC_lhs0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem dotC_lhs1 (i : S2048x128.Idx) (q : dot_S2048x256_S256x128_S2048x128_1_0_0_1_n_n.contr.Idx) : (dot_S2048x256_S256x128_S2048x128_1_0_0_1_n_n.lhsIdx i q 1).val = (q ⟨0, by decide⟩).val :=
  dot_S2048x256_S256x128_S2048x128_1_0_0_1_n_n.lhsIdx_val_of_single rfl i q
theorem dotC_rhs0 (i : S2048x128.Idx) (q : dot_S2048x256_S256x128_S2048x128_1_0_0_1_n_n.contr.Idx) : (dot_S2048x256_S256x128_S2048x128_1_0_0_1_n_n.rhsIdx i q 0).val = (q ⟨0, by decide⟩).val :=
  dot_S2048x256_S256x128_S2048x128_1_0_0_1_n_n.rhsIdx_val_of_single rfl i q
theorem dotC_rhs1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl
/-- The reference's [2048, 256] × [256, 128] dot product is the row-by-column product. -/
theorem dotC (x : FVec Ideal S2048x256 .f32) (w : FVec Ideal S256x128 .f32) :
    Host.dotGeneral dot_S2048x256_S256x128_S2048x128_1_0_0_1_n_n none x w = rowsTimes (M := 2048) (K := 256) (N := 128) x w := by
  simp only [Host.dotGeneral]
  exact dotGeneral_eq_rowsTimes dot_S2048x256_S256x128_S2048x128_1_0_0_1_n_n rfl rfl dotC_lhs0 dotC_lhs1 dotC_rhs0 dotC_rhs1 _ _ x w

theorem dotD_lhs0 (i : S2048x1.Idx) (q : dot_S2048x128_S128x1_S2048x1_1_0_0_1_n_n.contr.Idx) : (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
  rfl
theorem dotD_lhs1 (i : S2048x1.Idx) (q : dot_S2048x128_S128x1_S2048x1_1_0_0_1_n_n.contr.Idx) : (dot_S2048x128_S128x1_S2048x1_1_0_0_1_n_n.lhsIdx i q 1).val = (q ⟨0, by decide⟩).val :=
  dot_S2048x128_S128x1_S2048x1_1_0_0_1_n_n.lhsIdx_val_of_single rfl i q
theorem dotD_rhs0 (i : S2048x1.Idx) (q : dot_S2048x128_S128x1_S2048x1_1_0_0_1_n_n.contr.Idx) : (dot_S2048x128_S128x1_S2048x1_1_0_0_1_n_n.rhsIdx i q 0).val = (q ⟨0, by decide⟩).val :=
  dot_S2048x128_S128x1_S2048x1_1_0_0_1_n_n.rhsIdx_val_of_single rfl i q
theorem dotD_rhs1 (i : S2048x1.Idx) (q : dot_S2048x128_S128x1_S2048x1_1_0_0_1_n_n.contr.Idx) : (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
  rfl
/-- The reference's [2048, 128] × [128, 1] dot product is the row-by-column product. -/
theorem dotD (x : FVec Ideal S2048x128 .f32) (w : FVec Ideal S128x1 .f32) :
    Host.dotGeneral dot_S2048x128_S128x1_S2048x1_1_0_0_1_n_n none x w = rowsTimes (M := 2048) (K := 128) (N := 1) x w := by
  simp only [Host.dotGeneral]
  exact dotGeneral_eq_rowsTimes dot_S2048x128_S128x1_S2048x1_1_0_0_1_n_n rfl rfl dotD_lhs0 dotD_lhs1 dotD_rhs0 dotD_rhs1 _ _ x w

/-! ## The read-out head -/

/-- A per-column vector of the hidden layer spread over the 2048 graphs. -/
abbrev spreadH (x : FVec Ideal S128 .f32) : FVec Ideal S2048x128 .f32 :=
  broadcastInDim S2048x128 ![0, 1] bcast_S1x128_S2048x128_0_1 (broadcastInDim S1x128 ![1] bcast_S128_S1x128_1 x)

/-- The last bias spread over the 2048 graphs. -/
abbrev spreadO (x : FVec Ideal S1 .f32) : FVec Ideal S2048x1 .f32 :=
  broadcastInDim S2048x1 ![0, 1] bcast_S1x1_S2048x1_0_1 (broadcastInDim S1x1 ![1] bcast_S1_S1x1_1 x)

/-- The reference's head on whole arrays, operation by operation. -/
def headR (p : FVec Ideal S2048x256 .f32) (w1 : FVec Ideal S256x128 .f32) (b1 : FVec Ideal S128 .f32)
    (w2 : FVec Ideal S128x1 .f32) (b2 : FVec Ideal S1 .f32) : FVec Ideal S2048x1 .f32 :=
  addf (Host.dotGeneral dot_S2048x128_S128x1_S2048x1_1_0_0_1_n_n none
      (maximumf (addf (Host.dotGeneral dot_S2048x256_S256x128_S2048x128_1_0_0_1_n_n none p w1) (spreadH b1))
        (broadcastInDim S2048x128 ![] bcast_S_S2048x128 (constant S_ .f32 0x00000000#32))) w2)
    (spreadO b2)

theorem head_eq (x0 x1 x2 x3 x4 x5 x6 x7 x8 x9 x10 x11 x12 x13) :
    val_main_v242 (F := Ideal) x0 x1 x2 x3 x4 x5 x6 x7 x8 x9 x10 x11 x12 x13 = headR (val_main_v233 (F := Ideal) x0 x1 x2 x3 x4 x5 x6 x7 x8 x9) x10 x11 x12 x13 := rfl

theorem spreadH_at (x : FVec Ideal S128 .f32) (n : Fin 2048) (k : Fin 128) : spreadH x (ix2 n k) = x (ix1 k) := by
  unfold spreadH
  rw [broadcastInDim_apply _ bcast_S1x128_S2048x128_0_1 _ (ix2 n k) (ix2 0 k) (fun a => by
    match a with
    | ⟨0, _⟩ => show 0 = if (1 : Nat) = 1 then 0 else n.val; rw [if_pos rfl]
    | ⟨1, _⟩ => show k.val = if (128 : Nat) = 1 then 0 else k.val; rw [if_neg (by decide)])]
  exact broadcastInDim_apply _ bcast_S128_S1x128_1 x (ix2 0 k) (ix1 k) (fun a => by
    match a with
    | ⟨0, _⟩ => show k.val = if (128 : Nat) = 1 then 0 else k.val; rw [if_neg (by decide)])

theorem spreadO_at (x : FVec Ideal S1 .f32) (n : Fin 2048) (u : Fin 1) : spreadO x (ix2 n u) = x (ix1 0) := by
  unfold spreadO
  rw [broadcastInDim_apply _ bcast_S1x1_S2048x1_0_1 _ (ix2 n u) (ix2 0 0) (fun a => by
    match a with
    | ⟨0, _⟩ => show 0 = if (1 : Nat) = 1 then 0 else n.val; rw [if_pos rfl]
    | ⟨1, _⟩ => show 0 = if (1 : Nat) = 1 then 0 else u.val; rw [if_pos rfl])]
  exact broadcastInDim_apply _ bcast_S1_S1x1_1 x (ix2 0 0) (ix1 0) (fun a => by
    match a with
    | ⟨0, _⟩ => show 0 = if (1 : Nat) = 1 then 0 else 0; rw [if_pos rfl])

end Cert.ReferenceIdeal.Layers

end
-- ==== Proof.HeadEntry.lean ====
/-
  The read-out head on one block.

  The last region receives the pooled graph features p [2048, 256], a first weight matrix w1 [256, 128] with bias
  row b1 [1, 128], and a second weight column w2 [128, 1] with bias b2 [1, 1], all whole.  It forms the hidden
  layer max(p·w1 + b1, 0) and then hidden·w2 + b2; both products go into zero accumulators, so each is the plain
  row-by-column product.
-/
import proofs.«157617_j32676111188646_1_alg».proof.Proof.Gen.KernelIdeal.Skeleton
import proofs.«157617_j32676111188646_1_alg».proof.Proof.LibRowColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Idealize.ShloMosaic Idealize.ShloMosaic.TcCoe Idealize.SL.Sem Idealize.ShloMosaic.ValueIdx
open Idealize.ShloMosaic.Pipeline (Dat)
open Cert.KernelIdeal Cert.KernelIdeal.Gen
open Cert.Lib.RowColumn

theorem dC_lhs0 (i : S2048x128.Idx) (q : dot_S2048x256_S256x128_S2048x128_1_0_0_1_n_n.contr.Idx) : (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem dC_lhs1 (i : S2048x128.Idx) (q : dot_S2048x256_S256x128_S2048x128_1_0_0_1_n_n.contr.Idx) : (dot_S2048x256_S256x128_S2048x128_1_0_0_1_n_n.lhsIdx i q 1).val = (q ⟨0, by decide⟩).val :=
  dot_S2048x256_S256x128_S2048x128_1_0_0_1_n_n.lhsIdx_val_of_single rfl i q
theorem dC_rhs0 (i : S2048x128.Idx) (q : dot_S2048x256_S256x128_S2048x128_1_0_0_1_n_n.contr.Idx) : (dot_S2048x256_S256x128_S2048x128_1_0_0_1_n_n.rhsIdx i q 0).val = (q ⟨0, by decide⟩).val :=
  dot_S2048x256_S256x128_S2048x128_1_0_0_1_n_n.rhsIdx_val_of_single rfl i q
theorem dC_rhs1 (i : S2048x128.Idx) (q : dot_S2048x256_S256x128_S2048x128_1_0_0_1_n_n.contr.Idx) : (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

theorem dD_lhs0 (i : S2048x1.Idx) (q : dot_S2048x128_S128x1_S2048x1_1_0_0_1_n_n.contr.Idx) : (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
  rfl
theorem dD_lhs1 (i : S2048x1.Idx) (q : dot_S2048x128_S128x1_S2048x1_1_0_0_1_n_n.contr.Idx) : (dot_S2048x128_S128x1_S2048x1_1_0_0_1_n_n.lhsIdx i q 1).val = (q ⟨0, by decide⟩).val :=
  dot_S2048x128_S128x1_S2048x1_1_0_0_1_n_n.lhsIdx_val_of_single rfl i q
theorem dD_rhs0 (i : S2048x1.Idx) (q : dot_S2048x128_S128x1_S2048x1_1_0_0_1_n_n.contr.Idx) : (dot_S2048x128_S128x1_S2048x1_1_0_0_1_n_n.rhsIdx i q 0).val = (q ⟨0, by decide⟩).val :=
  dot_S2048x128_S128x1_S2048x1_1_0_0_1_n_n.rhsIdx_val_of_single rfl i q
theorem dD_rhs1 (i : S2048x1.Idx) (q : dot_S2048x128_S128x1_S2048x1_1_0_0_1_n_n.contr.Idx) : (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
  rfl

/-- The hidden layer: the first product plus the bias row, clipped at zero. -/
def hidden (p : S2048x256.Idx → EReal) (w1 : S256x128.Idx → EReal) (b1 : S1x128.Idx → EReal) : S2048x128.Idx → EReal :=
  fun j => max (rowsTimes (M := 2048) (K := 256) (N := 128) p w1 j + b1 (ix2 0 (j 1))) (Ideal.ofBits .f32 0x00000000#32)

/-- The head: the hidden layer against the second weight column, plus the last bias. -/
def head (p : S2048x256.Idx → EReal) (w1 : S256x128.Idx → EReal) (b1 : S1x128.Idx → EReal) (w2 : S128x1.Idx → EReal)
    (b2 : S1x1.Idx → EReal) : S2048x1.Idx → EReal :=
  fun i => rowsTimes (M := 2048) (K := 128) (N := 1) (hidden p w1 b1) w2 i + b2 (ix2 0 0)

/-- The one number of a [1, 1] array broadcast down a column. -/
theorem scalar_at (v : Vec Ideal S1x1 .f32) (y : S2048x1.Idx) :
    broadcastTo S2048x1 v broadcasts_S1x1_S2048x1 y = v (ix2 0 0) :=
  broadcastTo_apply v broadcasts_S1x1_S2048x1 y (ix2 0 0) (fun a => by
    match a with
    | ⟨0, _⟩ => show 0 = if (1 : Nat) = 1 then 0 else (y 0).val; rw [if_pos rfl]
    | ⟨1, _⟩ => show 0 = if (1 : Nat) = 1 then 0 else (y 1).val; rw [if_pos rfl])

/-- The region's payload is the head of its five loaded blocks. -/
theorem pay8_eq (x0 : Vec Ideal S2048x256 .bf16) (x1 : Vec Ideal S256x128 .bf16) (x2 : Vec Ideal S1x128 .f32)
    (x3 : Vec Ideal S128x1 .bf16) (x4 : Vec Ideal S1x1 .f32) :
    k8_pay1 x0 x1 x2 x3 x4 = head x0 x1 x2 x3 x4 := by
  unfold k8_pay1
  simp only [shapeCast_self]
  have e1 : (matmul (φ₁ := .bf16) (φ₂ := .bf16) dot_S2048x256_S256x128_S2048x128_1_0_0_1_n_n none x0 x1 (constant (F := Ideal) S2048x128 .f32 0x00000000#32) : FVec Ideal S2048x128 .f32)
      = rowsTimes (M := 2048) (K := 256) (N := 128) x0 x1 :=
    matmul_zero_eq_rowsTimes (φ₁ := .bf16) (φ₂ := .bf16) dot_S2048x256_S256x128_S2048x128_1_0_0_1_n_n rfl rfl dC_lhs0 dC_lhs1 dC_rhs0 dC_rhs1 none x0 x1
  rw [e1]
  have e2 : ∀ hid : FVec Ideal S2048x128 .bf16,
      (matmul (φ₁ := .bf16) (φ₂ := .bf16) dot_S2048x128_S128x1_S2048x1_1_0_0_1_n_n none hid x3 (constant (F := Ideal) S2048x1 .f32 0x00000000#32) : FVec Ideal S2048x1 .f32)
      = rowsTimes (M := 2048) (K := 128) (N := 1) hid x3 := fun hid =>
    matmul_zero_eq_rowsTimes (φ₁ := .bf16) (φ₂ := .bf16) dot_S2048x128_S128x1_S2048x1_1_0_0_1_n_n rfl rfl dD_lhs0 dD_lhs1 dD_rhs0 dD_rhs1 none hid x3
  rw [e2]
  funext y
  show rowsTimes (M := 2048) (K := 128) (N := 1) _ x3 y + broadcastTo S2048x1 x4 broadcasts_S1x1_S2048x1 y = _
  rw [scalar_at]
  unfold head
  refine congrArg (· + x4 (ix2 0 0)) ?_
  refine congrFun (congrArg (fun hid => rowsTimes (M := 2048) (K := 128) (N := 1) hid x3) ?_) y
  funext j
  obtain ⟨a, k, rfl⟩ : ∃ (a : Fin 2048) (k : Fin 128), j = ix2 a k := ⟨j 0, j 1, eq_ix2 j⟩
  show max (rowsTimes (M := 2048) (K := 256) (N := 128) x0 x1 (ix2 a k) + broadcastTo S2048x128 x2 broadcasts_S1x128_S2048x128 (ix2 a k)) (Ideal.ofBits .f32 0x00000000#32) = _
  rw [broadcastTo_1b_ab_apply]
  rfl

end Cert.KernelIdeal.Head

end
-- ==== Proof.Bridge.lean ====
/-
  The kernel's two entry-by-entry array functions are the reference's whole-array operations.

  The fusing regions receive each per-column parameter as a [1, 256] row that is the [256] vector cast to that
  shape, where the reference broadcasts the vector to a row and then down the rows; the head receives its two biases
  cast the same way.  Read at an entry these are the same numbers, and the reference's dot products are the
  row-by-column products, so the functions agree.
-/
import proofs.«157617_j32676111188646_1_alg».proof.Proof.RefLayer
import proofs.«157617_j32676111188646_1_alg».proof.Proof.FuseEntry
import proofs.«157617_j32676111188646_1_alg».proof.Proof.HeadEntry
import Idealize.ShloMosaic.Lib.ValueLayout

set_option maxRecDepth 16384

noncomputable section

namespace Cert.Bridge

open Idealize.ShloMosaic Idealize.ShloMosaic.TcCoe Idealize.ShloMosaic.ValueIdx
open Cert.Step Cert.Lib.RowColumn
open Cert.KernelIdeal.Fuse (fused)
open Cert.KernelIdeal.Head (head hidden)
open Cert.ReferenceIdeal.Layers

/-- The step applied entry by entry to the cast rows is the reference's layer step. -/
theorem fused_eq_layer (agg h : FVec Ideal Cert.ReferenceIdeal.S50000x256 .f32) (s : FVec Ideal Cert.ReferenceIdeal.S50000x1 .f32)
    (b mu v g be : FVec Ideal Cert.ReferenceIdeal.S256 .f32) (hc : Cert.KernelIdeal.S256.ShapeCasts Cert.KernelIdeal.S1x256) :
    fused agg h s (shapeCast Cert.KernelIdeal.S1x256 b hc) (shapeCast Cert.KernelIdeal.S1x256 g hc) (shapeCast Cert.KernelIdeal.S1x256 be hc)
        (shapeCast Cert.KernelIdeal.S1x256 mu hc) (shapeCast Cert.KernelIdeal.S1x256 v hc)
      = layer agg h s b mu v g be := by
  funext i
  obtain ⟨n, j, rfl⟩ : ∃ (n : Fin 50000) (j : Fin 256), i = ix2 n j := ⟨i 0, i 1, eq_ix2 i⟩
  rw [layer_entry]
  show normRelu (agg (ix2 n j)) (h (ix2 n j)) (s (ix2 n 0)) (shapeCast Cert.KernelIdeal.S1x256 b hc (ix2 0 j))
      (shapeCast Cert.KernelIdeal.S1x256 mu hc (ix2 0 j)) (shapeCast Cert.KernelIdeal.S1x256 v hc (ix2 0 j))
      (shapeCast Cert.KernelIdeal.S1x256 g hc (ix2 0 j)) (shapeCast Cert.KernelIdeal.S1x256 be hc (ix2 0 j)) = _
  rw [shapeCast_a_1a_apply b hc 0 j, shapeCast_a_1a_apply mu hc 0 j, shapeCast_a_1a_apply v hc 0 j,
    shapeCast_a_1a_apply g hc 0 j, shapeCast_a_1a_apply be hc 0 j]

/-- The kernel's head of the cast biases is the reference's head. -/
theorem head_eq_headR (p : FVec Ideal Cert.ReferenceIdeal.S2048x256 .f32) (w1 : FVec Ideal Cert.ReferenceIdeal.S256x128 .f32)
    (b1 : FVec Ideal Cert.ReferenceIdeal.S128 .f32) (w2 : FVec Ideal Cert.ReferenceIdeal.S128x1 .f32) (b2 : FVec Ideal Cert.ReferenceIdeal.S1 .f32)
    (h1 : Cert.KernelIdeal.S128.ShapeCasts Cert.KernelIdeal.S1x128) (h2 : Cert.KernelIdeal.S1.ShapeCasts Cert.KernelIdeal.S1x1) :
    head p w1 (shapeCast Cert.KernelIdeal.S1x128 b1 h1) w2 (shapeCast Cert.KernelIdeal.S1x1 b2 h2) = headR p w1 b1 w2 b2 := by
  unfold headR
  rw [dotC, dotD]
  have hh : hidden p w1 (shapeCast Cert.KernelIdeal.S1x128 b1 h1)
      = maximumf (addf (rowsTimes (M := 2048) (K := 256) (N := 128) p w1) (spreadH b1))
          (broadcastInDim Cert.ReferenceIdeal.S2048x128 ![] Cert.ReferenceIdeal.Gen.bcast_S_S2048x128 (constant (F := Ideal) Cert.ReferenceIdeal.S_ .f32 0x00000000#32)) := by
    funext j
    obtain ⟨a, k, rfl⟩ : ∃ (a : Fin 2048) (k : Fin 128), j = ix2 a k := ⟨j 0, j 1, eq_ix2 j⟩
    show max (rowsTimes (M := 2048) (K := 256) (N := 128) p w1 (ix2 a k) + shapeCast Cert.KernelIdeal.S1x128 b1 h1 (ix2 0 k)) (Ideal.ofBits .f32 0x00000000#32)
      = max (rowsTimes (M := 2048) (K := 256) (N := 128) p w1 (ix2 a k) + spreadH b1 (ix2 a k)) (Ideal.ofBits .f32 0x00000000#32)
    rw [shapeCast_a_1a_apply b1 h1 0 k, spreadH_at]
  funext i
  obtain ⟨n, u, rfl⟩ : ∃ (n : Fin 2048) (u : Fin 1), i = ix2 n u := ⟨i 0, i 1, eq_ix2 i⟩
  show rowsTimes (M := 2048) (K := 128) (N := 1) (hidden p w1 (shapeCast Cert.KernelIdeal.S1x128 b1 h1)) w2 (ix2 n u)
      + shapeCast Cert.KernelIdeal.S1x1 b2 h2 (ix2 0 0)
    = rowsTimes (M := 2048) (K := 128) (N := 1) _ w2 (ix2 n u) + spreadO b2 (ix2 n u)
  rw [hh, shapeCast_a_1a_apply b2 h2 0 0, spreadO_at]

end Cert.Bridge

end
-- ==== Proof.ChainL0.lean ====
/-
  Layer 1 of the kernel's program, segment by segment.

  A stretch of host operations prepares the two operands of the feature product, a region forms the product, a
  second stretch gathers the product's rows along the edges, weights them, sums them into their destination nodes
  and re-shapes the layer's five parameter rows, and a second region applies the layer's step.  Each buffer a
  segment leaves is identified with the reference's stage of the same meaning; the host operations are the
  reference's own, applied to equal operands, and are never opened.
-/
import proofs.«157617_j32676111188646_1_alg».proof.Proof.Gen.KernelIdeal.Frame
import proofs.«157617_j32676111188646_1_alg».proof.Proof.RefRead
import proofs.«157617_j32676111188646_1_alg».proof.Proof.ChainDefs
import proofs.«157617_j32676111188646_1_alg».proof.Proof.ProductA
import proofs.«157617_j32676111188646_1_alg».proof.Proof.FuseB
import proofs.«157617_j32676111188646_1_alg».proof.Proof.RefLayer
import proofs.«157617_j32676111188646_1_alg».proof.Proof.Bridge

set_option maxRecDepth 16384
set_option maxHeartbeats 4000000

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP
open Cert.Lib.RowColumn Cert.KernelIdeal.Fuse Cert.ReferenceIdeal.Layers Cert.Bridge
variable (m : (ℓ : Loc nD τ sig) → Buf (Elt Ideal) ℓ) (ρ : Dev nD → PrngReg) (c : Dev nD)

set_option maxHeartbeats 8000000 in
/-- After the first stretch the kept buffers hold the reference's stages of the same operations. -/
theorem L0_keptA : Kept m c (W1 m ρ c) where
  v1 := by show StableHlo.after hostOps0 (W0 m ρ c) _ = _; after_results_simp <;> rfl
  v3 := by show StableHlo.after hostOps0 (W0 m ρ c) _ = _; after_results_simp <;> rfl
  v32 := by show StableHlo.after hostOps0 (W0 m ρ c) _ = _; after_results_simp <;> rfl
  v35 := by show StableHlo.after hostOps0 (W0 m ρ c) _ = _; after_results_simp <;> rfl
  v37 := by show StableHlo.after hostOps0 (W0 m ρ c) _ = _; after_results_simp <;> rfl
  v39 := by show StableHlo.after hostOps0 (W0 m ρ c) _ = _; after_results_simp <;> rfl
  v41 := by show StableHlo.after hostOps0 (W0 m ρ c) _ = _; after_results_simp <;> rfl
  a2 := by show StableHlo.after hostOps0 (W0 m ρ c) _ = _; after_results_simp <;> rfl
  a5 := by show StableHlo.after hostOps0 (W0 m ρ c) _ = _; after_results_simp <;> rfl
  a6 := by show StableHlo.after hostOps0 (W0 m ρ c) _ = _; after_results_simp <;> rfl
  a7 := by show StableHlo.after hostOps0 (W0 m ρ c) _ = _; after_results_simp <;> rfl
  a8 := by show StableHlo.after hostOps0 (W0 m ρ c) _ = _; after_results_simp <;> rfl
  a9 := by show StableHlo.after hostOps0 (W0 m ρ c) _ = _; after_results_simp <;> rfl
  a10 := by show StableHlo.after hostOps0 (W0 m ρ c) _ = _; after_results_simp <;> rfl
  a11 := by show StableHlo.after hostOps0 (W0 m ρ c) _ = _; after_results_simp <;> rfl
  a12 := by show StableHlo.after hostOps0 (W0 m ρ c) _ = _; after_results_simp <;> rfl
  a13 := by show StableHlo.after hostOps0 (W0 m ρ c) _ = _; after_results_simp <;> rfl

/-- The product's operands are the node features and the first weight matrix (the change of float format is the
    identity on the extended reals). -/
theorem L0_va : W1 m ρ c (Proc.devRef .tc main_v42) = (m ((c : Thread nD τ).loc main_arg0)) := by
  show StableHlo.after hostOps0 (W0 m ρ c) _ = _; after_results_simp <;> rfl
theorem L0_vb : W1 m ρ c (Proc.devRef .tc main_v43) = (m ((c : Thread nD τ).loc main_arg3)) := by
  show StableHlo.after hostOps0 (W0 m ρ c) _ = _; after_results_simp <;> rfl

/-- The product region changes only its result array. -/
theorem L0_keptRA (k : Kept m c (W1 m ρ c)) : Kept m c (W2 m ρ c) where
  v1 := (W2_of_ne m ρ c main_v1 (by decide)).trans k.v1
  v3 := (W2_of_ne m ρ c main_v3 (by decide)).trans k.v3
  v32 := (W2_of_ne m ρ c main_v32 (by decide)).trans k.v32
  v35 := (W2_of_ne m ρ c main_v35 (by decide)).trans k.v35
  v37 := (W2_of_ne m ρ c main_v37 (by decide)).trans k.v37
  v39 := (W2_of_ne m ρ c main_v39 (by decide)).trans k.v39
  v41 := (W2_of_ne m ρ c main_v41 (by decide)).trans k.v41
  a2 := (W2_of_ne m ρ c main_arg2 (by decide)).trans k.a2
  a5 := (W2_of_ne m ρ c main_arg5 (by decide)).trans k.a5
  a6 := (W2_of_ne m ρ c main_arg6 (by decide)).trans k.a6
  a7 := (W2_of_ne m ρ c main_arg7 (by decide)).trans k.a7
  a8 := (W2_of_ne m ρ c main_arg8 (by decide)).trans k.a8
  a9 := (W2_of_ne m ρ c main_arg9 (by decide)).trans k.a9
  a10 := (W2_of_ne m ρ c main_arg10 (by decide)).trans k.a10
  a11 := (W2_of_ne m ρ c main_arg11 (by decide)).trans k.a11
  a12 := (W2_of_ne m ρ c main_arg12 (by decide)).trans k.a12
  a13 := (W2_of_ne m ρ c main_arg13 (by decide)).trans k.a13

/-- The product region leaves the reference's product of the same operands. -/
theorem L0_h :
    W2 m ρ c (Proc.devRef .tc main_v44) = (val_main_v44 (F := Ideal) (m ((c : Thread nD τ).loc main_arg0)) (m ((c : Thread nD τ).loc main_arg3))) := by
  refine (W2_arr m ρ c 2).trans ?_
  rw [Cert.KernelIdeal.ProductsA.product0 (V1 m ρ) c]
  show rowsTimes (M := 50000) (K := 128) (N := 256) (W1 m ρ c (Proc.devRef .tc main_v42)) (W1 m ρ c (Proc.devRef .tc main_v43)) = _
  rw [L0_va m ρ c, L0_vb m ρ c]
  exact (dotA _ _).symm

/-- The second stretch writes none of the kept buffers. -/
theorem L0_keptHB {W : Valuation τ sig (Elt Ideal)} (k : Kept m c W) : Kept m c (StableHlo.after hostOps1 W) where
  v1 := by after_results_simp; exact k.v1
  v3 := by after_results_simp; exact k.v3
  v32 := by after_results_simp; exact k.v32
  v35 := by after_results_simp; exact k.v35
  v37 := by after_results_simp; exact k.v37
  v39 := by after_results_simp; exact k.v39
  v41 := by after_results_simp; exact k.v41
  a2 := by after_results_simp; exact k.a2
  a5 := by after_results_simp; exact k.a5
  a6 := by after_results_simp; exact k.a6
  a7 := by after_results_simp; exact k.a7
  a8 := by after_results_simp; exact k.a8
  a9 := by after_results_simp; exact k.a9
  a10 := by after_results_simp; exact k.a10
  a11 := by after_results_simp; exact k.a11
  a12 := by after_results_simp; exact k.a12
  a13 := by after_results_simp; exact k.a13

/-- The weighted messages summed into their destinations are the reference's, of the same product. -/
theorem L0_agg {W : Valuation τ sig (Elt Ideal)} (k : Kept m c W) (hh : W (Proc.devRef .tc main_v44) = (val_main_v44 (F := Ideal) (m ((c : Thread nD τ).loc main_arg0)) (m ((c : Thread nD τ).loc main_arg3)))) :
    StableHlo.after hostOps1 W (Proc.devRef .tc main_v56) = (val_main_v56 (F := Ideal) (m ((c : Thread nD τ).loc main_arg0)) (m ((c : Thread nD τ).loc main_arg1)) (m ((c : Thread nD τ).loc main_arg3))) := by
  after_results_simp
  rw [k.v1, k.v3, k.v32, hh]
  rfl
/-- The product itself is still there. -/
theorem L0_hh {W : Valuation τ sig (Elt Ideal)} (hh : W (Proc.devRef .tc main_v44) = (val_main_v44 (F := Ideal) (m ((c : Thread nD τ).loc main_arg0)) (m ((c : Thread nD τ).loc main_arg3)))) :
    StableHlo.after hostOps1 W (Proc.devRef .tc main_v44) = (val_main_v44 (F := Ideal) (m ((c : Thread nD τ).loc main_arg0)) (m ((c : Thread nD τ).loc main_arg3))) := by
  after_results_simp; exact hh
/-- Parameter row 0 of the layer, as a [1, 256] array, is the reference's [256] vector cast to that shape. -/
theorem L0_row0 {W : Valuation τ sig (Elt Ideal)} (k : Kept m c W) :
    StableHlo.after hostOps1 W (Proc.devRef .tc main_v67) = shapeCast S1x256 (val_main_v43 (F := Ideal) (m ((c : Thread nD τ).loc main_arg5))) shapeCasts_S256_S1x256 := by
  after_results_simp; rw [k.a5]; rfl
/-- Parameter row 1 of the layer, as a [1, 256] array, is the reference's [256] vector cast to that shape. -/
theorem L0_row1 {W : Valuation τ sig (Elt Ideal)} (k : Kept m c W) :
    StableHlo.after hostOps1 W (Proc.devRef .tc main_v68) = shapeCast S1x256 (val_main_v77 (F := Ideal) (m ((c : Thread nD τ).loc main_arg6))) shapeCasts_S256_S1x256 := by
  after_results_simp; rw [k.a6]; rfl
/-- Parameter row 2 of the layer, as a [1, 256] array, is the reference's [256] vector cast to that shape. -/
theorem L0_row2 {W : Valuation τ sig (Elt Ideal)} (k : Kept m c W) :
    StableHlo.after hostOps1 W (Proc.devRef .tc main_v69) = shapeCast S1x256 (val_main_v82 (F := Ideal) (m ((c : Thread nD τ).loc main_arg7))) shapeCasts_S256_S1x256 := by
  after_results_simp; rw [k.a7]; rfl
/-- Parameter row 3 of the layer, as a [1, 256] array, is the reference's [256] vector cast to that shape. -/
theorem L0_row3 {W : Valuation τ sig (Elt Ideal)} (k : Kept m c W) :
    StableHlo.after hostOps1 W (Proc.devRef .tc main_v70) = shapeCast S1x256 (val_main_v64 (F := Ideal) (m ((c : Thread nD τ).loc main_arg8))) shapeCasts_S256_S1x256 := by
  after_results_simp; rw [k.a8]; rfl
/-- Parameter row 4 of the layer, as a [1, 256] array, is the reference's [256] vector cast to that shape. -/
theorem L0_row4 {W : Valuation τ sig (Elt Ideal)} (k : Kept m c W) :
    StableHlo.after hostOps1 W (Proc.devRef .tc main_v71) = shapeCast S1x256 (val_main_v69 (F := Ideal) (m ((c : Thread nD τ).loc main_arg9))) shapeCasts_S256_S1x256 := by
  after_results_simp; rw [k.a9]; rfl

/-- The self-loop weights pass through the step region unchanged: it only reads them. -/
theorem self_kept4 : W4 m ρ c (Proc.devRef .tc main_v35) = W3 m ρ c (Proc.devRef .tc main_v35) := by
  have hf : ∀ t : Fin cfg1.N, (cfg1.win 2).flush t = false :=
    (by decide +kernel : ∀ t : Fin grid1.N, win1_2.flush t = false)
  refine (W4_arr m ρ c 2).trans ?_
  funext i
  exact ((dat1 (V3 m ρ) c).arrAt_apply_of_forall_not_mem 2 cfg1.N i
    (fun t _ h => absurd h (by rw [hf t]; decide))).trans (congrFun (A_eq1 (V3 m ρ) c 2) i)

/-- The step region changes only its result array. -/
theorem L0_keptRB (k : Kept m c (W3 m ρ c)) : Kept m c (W4 m ρ c) where
  v1 := (W4_of_ne m ρ c main_v1 (by decide)).trans k.v1
  v3 := (W4_of_ne m ρ c main_v3 (by decide)).trans k.v3
  v32 := (W4_of_ne m ρ c main_v32 (by decide)).trans k.v32
  v35 := (self_kept4 m ρ c).trans k.v35
  v37 := (W4_of_ne m ρ c main_v37 (by decide)).trans k.v37
  v39 := (W4_of_ne m ρ c main_v39 (by decide)).trans k.v39
  v41 := (W4_of_ne m ρ c main_v41 (by decide)).trans k.v41
  a2 := (W4_of_ne m ρ c main_arg2 (by decide)).trans k.a2
  a5 := (W4_of_ne m ρ c main_arg5 (by decide)).trans k.a5
  a6 := (W4_of_ne m ρ c main_arg6 (by decide)).trans k.a6
  a7 := (W4_of_ne m ρ c main_arg7 (by decide)).trans k.a7
  a8 := (W4_of_ne m ρ c main_arg8 (by decide)).trans k.a8
  a9 := (W4_of_ne m ρ c main_arg9 (by decide)).trans k.a9
  a10 := (W4_of_ne m ρ c main_arg10 (by decide)).trans k.a10
  a11 := (W4_of_ne m ρ c main_arg11 (by decide)).trans k.a11
  a12 := (W4_of_ne m ρ c main_arg12 (by decide)).trans k.a12
  a13 := (W4_of_ne m ρ c main_arg13 (by decide)).trans k.a13

/-- LAYER 1: after its step region the kept buffers are still kept and the layer's result is the reference's. -/
theorem layer_0 :
    Kept m c (W4 m ρ c) ∧ W4 m ρ c (Proc.devRef .tc main_v72) = (val_main_v86 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) := by
  have k2 : Kept m c (W2 m ρ c) := (L0_keptRA m ρ c (L0_keptA m ρ c))
  have hh : W2 m ρ c (Proc.devRef .tc main_v44) = (val_main_v44 (F := Ideal) (m ((c : Thread nD τ).loc main_arg0)) (m ((c : Thread nD τ).loc main_arg3))) := (L0_h m ρ c)
  have k3 : Kept m c (StableHlo.after hostOps1 (W2 m ρ c)) := L0_keptHB m c k2
  refine ⟨L0_keptRB m ρ c k3, ?_⟩
  refine (W4_arr m ρ c 8).trans ?_
  rw [Cert.KernelIdeal.FuseB.stepped1 (V3 m ρ) c]
  show fused (StableHlo.after hostOps1 (W2 m ρ c) (Proc.devRef .tc main_v56)) (StableHlo.after hostOps1 (W2 m ρ c) (Proc.devRef .tc main_v44))
      (StableHlo.after hostOps1 (W2 m ρ c) (Proc.devRef .tc main_v35))
      (StableHlo.after hostOps1 (W2 m ρ c) (Proc.devRef .tc main_v67)) (StableHlo.after hostOps1 (W2 m ρ c) (Proc.devRef .tc main_v68))
      (StableHlo.after hostOps1 (W2 m ρ c) (Proc.devRef .tc main_v69)) (StableHlo.after hostOps1 (W2 m ρ c) (Proc.devRef .tc main_v70))
      (StableHlo.after hostOps1 (W2 m ρ c) (Proc.devRef .tc main_v71)) = _
  rw [L0_agg m c k2 hh, L0_hh m c hh, k3.v35, L0_row0 m c k2, L0_row1 m c k2, L0_row2 m c k2, L0_row3 m c k2, L0_row4 m c k2]
  rw [layer1_eq]
  exact fused_eq_layer _ _ _ _ _ _ _ _ _

end Cert.KernelIdeal.Chain

end
-- ==== Proof.ProductB.lean ====
/-
  The four product regions of the kernel.

  Each of them multiplies a [50000, K] array by a [K, 256] array, 5000 rows per grid point: at point t the body
  loads block row t of the left array and the whole right array, forms their product into a zero accumulator and
  stores it as block row t of the result.  Entry (r, j) of a block's product is the sum over k of the block's
  (r, k) times the right array's (k, j), and block row t's row r is the array's row 5000·t + r; the ten block rows
  tile the result.  So after the region the result array is, entry by entry, the whole product.
-/
import proofs.«157617_j32676111188646_1_alg».proof.Proof.Gen.KernelIdeal.Frame
import proofs.«157617_j32676111188646_1_alg».proof.Proof.LibRowColumn
import Idealize.ShloMosaic.Lib.Pipeline.Value
import Idealize.ShloMosaic.Lib.ValueIdx
import Idealize.ShloMosaic.PureOps.Ideal.Laws

set_option maxRecDepth 16384

noncomputable section

namespace Cert.KernelIdeal.ProductsB

open Idealize.ShloMosaic Idealize.ShloMosaic.TcCoe Idealize.SL.Sem Idealize.ShloMosaic.ValueIdx
open Idealize.ShloMosaic.Pipeline (Dat)
open Cert.KernelIdeal Cert.KernelIdeal.Gen Cert.Lib.RowColumn

theorem hz2 : (![0, 0] : Fin 2 → Nat) = fun _ => 0 := funext fun a => by fin_cases a <;> rfl

/-! ## Region 2: rows of a [50000, 256] array against a [256, 256] array, 5000 rows per grid point -/

section Region2

theorem d2_lhs0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem d2_lhs1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem d2_rhs0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem d2_rhs1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- One block's payload at the entry (r, j): the r-th block row against the j-th column. -/
theorem pay2_entry (x0 : Vec Ideal S5000x256 .bf16) (x1 : Vec Ideal S256x256 .bf16) (r : Fin 5000) (j : Fin 256) :
    k2_pay1 x0 x1 (ix2 r j) = ∑ k : Fin 256, x0 (ix2 r k) * x1 (ix2 k j) := by
  unfold k2_pay1
  simp only [shapeCast_self]
  exact Cert.Lib.RowColumn.matmul_zero_entry dot_S5000x256_S256x256_S5000x256_1_0_0_1_n_n rfl rfl d2_lhs0 d2_lhs1 d2_rhs0 d2_rhs1 none x0 x1 (ix2 r j)

theorem pay2_at (x0 : Vec Ideal S5000x256 .bf16) (x1 : Vec Ideal S256x256 .bf16) (y : S5000x256.Idx) :
    k2_pay1 x0 x1 y = ∑ k : Fin 256, x0 (ix2 (y 0) k) * x1 (ix2 k (y 1)) := by
  obtain ⟨r, j, rfl⟩ : ∃ (r : Fin 5000) (j : Fin 256), y = ix2 r j := ⟨y 0, y 1, eq_ix2 y⟩
  exact pay2_entry x0 x1 r j

variable (V : (c : Dev nD) → (b : Ref sig .tc) → Buf (Elt Ideal) ((c : Thread nD τ).loc b))

/-- The index maps over the grid: point t takes block row t of the left operand and of the result, and the whole
    right operand. -/
theorem grid_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- An entry of the left operand's block at point t is the array's entry 5000·t rows further down. -/
theorem blk2_0 (c : Dev nD) (t : Fin cfg2.N) (z : S5000x256.Idx) (i : S50000x256.Idx)
    (h0 : (i 0).val = t.val * 5000 + (z 0).val) (h1 : (i 1).val = (z 1).val) :
    iblk2 V c 0 t z = V c main_v73 i := by
  obtain ⟨e0, e1, e2, e3, e4, e5⟩ := grid_facts2 t
  show V c main_v73 (((cfg2.win 0).blk t).view.emb z) = V c main_v73 i
  refine congrArg _ ?_
  funext a; apply Fin.ext
  match a with
  | ⟨0, _⟩ => show win2_0.index t (0 : Fin 2) * 5000 + 1 * (z 0).val = (i 0).val; omega
  | ⟨1, _⟩ => show win2_0.index t (1 : Fin 2) * 256 + 1 * (z 1).val = (i 1).val; omega

/-- The right operand's block is the whole array at every point. -/
theorem blk2_1 (c : Dev nD) (t : Fin cfg2.N) (z : S256x256.Idx) (i : S256x256.Idx)
    (h0 : (i 0).val = (z 0).val) (h1 : (i 1).val = (z 1).val) :
    iblk2 V c 1 t z = V c main_v74 i := by
  obtain ⟨e0, e1, e2, e3, e4, e5⟩ := grid_facts2 t
  show V c main_v74 (((cfg2.win 1).blk t).view.emb z) = V c main_v74 i
  refine congrArg _ ?_
  funext a; apply Fin.ext
  match a with
  | ⟨0, _⟩ => show win2_1.index t (0 : Fin 2) * 256 + 1 * (z 0).val = (i 0).val; omega
  | ⟨1, _⟩ => show win2_1.index t (1 : Fin 2) * 256 + 1 * (z 1).val = (i 1).val; omega

/-- What point t writes back is block row t of the whole product. -/
theorem flushed2 (c : Dev nD) (t : Fin cfg2.N) :
    (dat2 V c).flushed 2 t = ((cfg2.win 2).blk t).view.read (Elt Ideal) (rowsTimes (M := 50000) (K := 256) (N := 256) (V c main_v73) (V c main_v74)) := by
  show (cfg2.win 2).cut (grid2.coords t) ((dat2 V c).after 2 t) = _
  rw [after2_2]
  unfold out2_2
  rw [View.canon_unit_zero hz2]
  simp only [View.ld_unit_zero (S := S5000x256) hz2, View.ld_unit_zero (S := S256x256) hz2]
  obtain ⟨e0, e1, e2, e3, e4, e5⟩ := grid_facts2 t
  funext y
  show k2_pay1 (iblk2 V c 0 t) (iblk2 V c 1 t) y = rowsTimes (M := 50000) (K := 256) (N := 256) (V c main_v73) (V c main_v74) (((cfg2.win 2).blk t).view.emb y)
  refine (pay2_at _ _ y).trans ?_
  unfold rowsTimes
  refine Finset.sum_congr rfl fun k _ => ?_
  have hy0 : ((((cfg2.win 2).blk t).view.emb y) 0).val = t.val * 5000 + (y 0).val := by
    show win2_2.index t (0 : Fin 2) * 5000 + 1 * (y 0).val = _; omega
  have hy1 : ((((cfg2.win 2).blk t).view.emb y) 1).val = (y 1).val := by
    show win2_2.index t (1 : Fin 2) * 256 + 1 * (y 1).val = _; omega
  rw [blk2_0 V c t (ix2 (y 0) k) (ix2 ((((cfg2.win 2).blk t).view.emb y) 0) k) hy0 rfl,
    blk2_1 V c t (ix2 k (y 1)) (ix2 k ((((cfg2.win 2).blk t).view.emb y) 1)) rfl hy1]

/-- An index of the result array lies in point t's block iff its row lies in block row t. -/
theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v75).slice (win2_2.rect t)).set ↔ _
  rw [View.set_slice_whole, Rect.mem_set_unit]
  exact Iff.rfl

/-- Every entry of the result is written by the point its row's block belongs to. -/
theorem cover2 (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 10 := N_2
  let t : Fin cfg2.N := ⟨(i 0).val / 5000, by rw [hN]; omega⟩
  obtain ⟨e0, e1, e2, e3, e4, e5⟩ := grid_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

/-- After region 2 its result array holds the whole product of the arrays it was entered with. -/
theorem product2 (c : Dev nD) : (dat2 V c).arrAt 2 cfg2.N = rowsTimes (M := 50000) (K := 256) (N := 256) (V c main_v73) (V c main_v74) :=
  (dat2 V c).arrAt_eq_of_cover 2 _ (fun t _ => flushed2 V c t) cover2

end Region2

end Cert.KernelIdeal.ProductsB

end
-- ==== Proof.FuseD.lean ====
/-
  A fusing region of the kernel (region 3).

  At grid point t the body loads block row t (2000 rows) of the two sums and of the self weights' column, and the
  five parameter rows whole, applies the layer's scalar step entry by entry, and stores block row t of the result;
  the 25 block rows tile the result.  So after the region the result array is the step applied to the whole arrays.
-/
import proofs.«157617_j32676111188646_1_alg».proof.Proof.Gen.KernelIdeal.Frame
import proofs.«157617_j32676111188646_1_alg».proof.Proof.FuseEntry
import Idealize.ShloMosaic.Lib.Pipeline.Value
import Idealize.ShloMosaic.Lib.ValueIdx

set_option maxRecDepth 16384

noncomputable section

namespace Cert.KernelIdeal.FuseD

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Fuse Cert.Step

theorem hz2 : (![0, 0] : Fin 2 → Nat) = fun _ => 0 := funext fun a => by fin_cases a <;> rfl

/-! ## Region 3: the step on 2000 rows per grid point -/

section Region3

variable (V : (c : Dev nD) → (b : Ref sig .tc) → Buf (Elt Ideal) ((c : Thread nD τ).loc b))

/-- The index maps over the grid: point t takes block row t of the two sums, of the self weights and of the
    result, and the whole of each parameter row. -/
theorem grid_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0 :=
  (by decide +kernel : ∀ t : Fin grid3.N, _)

theorem blk3_0 (c : Dev nD) (t : Fin cfg3.N) (z : S2000x256.Idx) (i : S50000x256.Idx)
    (h0 : (i 0).val = t.val * 2000 + (z 0).val) (h1 : (i 1).val = (z 1).val) :
    iblk3 V c 0 t z = V c main_v87 i := by
  obtain ⟨e00, e01, e10, e11, e20, e21, e30, e31, e40, e41, e50, e51, e60, e61, e70, e71, e80, e81⟩ := grid_facts3 t
  show V c main_v87 (((cfg3.win 0).blk t).view.emb z) = V c main_v87 i
  refine congrArg _ ?_
  funext a; apply Fin.ext
  match a with
  | ⟨0, _⟩ => show win3_0.index t (0 : Fin 2) * 2000 + 1 * (z 0).val = (i 0).val; omega
  | ⟨1, _⟩ => show win3_0.index t (1 : Fin 2) * 256 + 1 * (z 1).val = (i 1).val; omega

theorem blk3_1 (c : Dev nD) (t : Fin cfg3.N) (z : S2000x256.Idx) (i : S50000x256.Idx)
    (h0 : (i 0).val = t.val * 2000 + (z 0).val) (h1 : (i 1).val = (z 1).val) :
    iblk3 V c 1 t z = V c main_v75 i := by
  obtain ⟨e00, e01, e10, e11, e20, e21, e30, e31, e40, e41, e50, e51, e60, e61, e70, e71, e80, e81⟩ := grid_facts3 t
  show V c main_v75 (((cfg3.win 1).blk t).view.emb z) = V c main_v75 i
  refine congrArg _ ?_
  funext a; apply Fin.ext
  match a with
  | ⟨0, _⟩ => show win3_1.index t (0 : Fin 2) * 2000 + 1 * (z 0).val = (i 0).val; omega
  | ⟨1, _⟩ => show win3_1.index t (1 : Fin 2) * 256 + 1 * (z 1).val = (i 1).val; omega

theorem blk3_2 (c : Dev nD) (t : Fin cfg3.N) (z : S2000x1.Idx) (i : S50000x1.Idx)
    (h0 : (i 0).val = t.val * 2000 + (z 0).val) (h1 : (i 1).val = (z 1).val) :
    iblk3 V c 2 t z = V c main_v35 i := by
  obtain ⟨e00, e01, e10, e11, e20, e21, e30, e31, e40, e41, e50, e51, e60, e61, e70, e71, e80, e81⟩ := grid_facts3 t
  show V c main_v35 (((cfg3.win 2).blk t).view.emb z) = V c main_v35 i
  refine congrArg _ ?_
  funext a; apply Fin.ext
  match a with
  | ⟨0, _⟩ => show win3_2.index t (0 : Fin 2) * 2000 + 1 * (z 0).val = (i 0).val; omega
  | ⟨1, _⟩ => show win3_2.index t (1 : Fin 2) * 1 + 1 * (z 1).val = (i 1).val; omega

theorem blk3_3 (c : Dev nD) (t : Fin cfg3.N) (z : S1x256.Idx) (i : S1x256.Idx)
    (h0 : (i 0).val = (z 0).val) (h1 : (i 1).val = (z 1).val) :
    iblk3 V c 3 t z = V c main_v98 i := by
  obtain ⟨e00, e01, e10, e11, e20, e21, e30, e31, e40, e41, e50, e51, e60, e61, e70, e71, e80, e81⟩ := grid_facts3 t
  show V c main_v98 (((cfg3.win 3).blk t).view.emb z) = V c main_v98 i
  refine congrArg _ ?_
  funext a; apply Fin.ext
  match a with
  | ⟨0, _⟩ => show win3_3.index t (0 : Fin 2) * 1 + 1 * (z 0).val = (i 0).val; omega
  | ⟨1, _⟩ => show win3_3.index t (1 : Fin 2) * 256 + 1 * (z 1).val = (i 1).val; omega

theorem blk3_4 (c : Dev nD) (t : Fin cfg3.N) (z : S1x256.Idx) (i : S1x256.Idx)
    (h0 : (i 0).val = (z 0).val) (h1 : (i 1).val = (z 1).val) :
    iblk3 V c 4 t z = V c main_v99 i := by
  obtain ⟨e00, e01, e10, e11, e20, e21, e30, e31, e40, e41, e50, e51, e60, e61, e70, e71, e80, e81⟩ := grid_facts3 t
  show V c main_v99 (((cfg3.win 4).blk t).view.emb z) = V c main_v99 i
  refine congrArg _ ?_
  funext a; apply Fin.ext
  match a with
  | ⟨0, _⟩ => show win3_4.index t (0 : Fin 2) * 1 + 1 * (z 0).val = (i 0).val; omega
  | ⟨1, _⟩ => show win3_4.index t (1 : Fin 2) * 256 + 1 * (z 1).val = (i 1).val; omega

theorem blk3_5 (c : Dev nD) (t : Fin cfg3.N) (z : S1x256.Idx) (i : S1x256.Idx)
    (h0 : (i 0).val = (z 0).val) (h1 : (i 1).val = (z 1).val) :
    iblk3 V c 5 t z = V c main_v100 i := by
  obtain ⟨e00, e01, e10, e11, e20, e21, e30, e31, e40, e41, e50, e51, e60, e61, e70, e71, e80, e81⟩ := grid_facts3 t
  show V c main_v100 (((cfg3.win 5).blk t).view.emb z) = V c main_v100 i
  refine congrArg _ ?_
  funext a; apply Fin.ext
  match a with
  | ⟨0, _⟩ => show win3_5.index t (0 : Fin 2) * 1 + 1 * (z 0).val = (i 0).val; omega
  | ⟨1, _⟩ => show win3_5.index t (1 : Fin 2) * 256 + 1 * (z 1).val = (i 1).val; omega

theorem blk3_6 (c : Dev nD) (t : Fin cfg3.N) (z : S1x256.Idx) (i : S1x256.Idx)
    (h0 : (i 0).val = (z 0).val) (h1 : (i 1).val = (z 1).val) :
    iblk3 V c 6 t z = V c main_v101 i := by
  obtain ⟨e00, e01, e10, e11, e20, e21, e30, e31, e40, e41, e50, e51, e60, e61, e70, e71, e80, e81⟩ := grid_facts3 t
  show V c main_v101 (((cfg3.win 6).blk t).view.emb z) = V c main_v101 i
  refine congrArg _ ?_
  funext a; apply Fin.ext
  match a with
  | ⟨0, _⟩ => show win3_6.index t (0 : Fin 2) * 1 + 1 * (z 0).val = (i 0).val; omega
  | ⟨1, _⟩ => show win3_6.index t (1 : Fin 2) * 256 + 1 * (z 1).val = (i 1).val; omega

theorem blk3_7 (c : Dev nD) (t : Fin cfg3.N) (z : S1x256.Idx) (i : S1x256.Idx)
    (h0 : (i 0).val = (z 0).val) (h1 : (i 1).val = (z 1).val) :
    iblk3 V c 7 t z = V c main_v102 i := by
  obtain ⟨e00, e01, e10, e11, e20, e21, e30, e31, e40, e41, e50, e51, e60, e61, e70, e71, e80, e81⟩ := grid_facts3 t
  show V c main_v102 (((cfg3.win 7).blk t).view.emb z) = V c main_v102 i
  refine congrArg _ ?_
  funext a; apply Fin.ext
  match a with
  | ⟨0, _⟩ => show win3_7.index t (0 : Fin 2) * 1 + 1 * (z 0).val = (i 0).val; omega
  | ⟨1, _⟩ => show win3_7.index t (1 : Fin 2) * 256 + 1 * (z 1).val = (i 1).val; omega

/-- What point t writes back is block row t of the step applied to the whole arrays. -/
theorem flushed3 (c : Dev nD) (t : Fin cfg3.N) :
    (dat3 V c).flushed 8 t = ((cfg3.win 8).blk t).view.read (Elt Ideal)
      (fused (V c main_v87) (V c main_v75) (V c main_v35) (V c main_v98) (V c main_v99) (V c main_v100) (V c main_v101) (V c main_v102)) := by
  show (cfg3.win 8).cut (grid3.coords t) ((dat3 V c).after 8 t) = _
  rw [after3_8]
  unfold out3_8
  rw [View.canon_unit_zero hz2]
  simp only [View.ld_unit_zero (S := S2000x256) hz2, View.ld_unit_zero (S := S2000x1) hz2, View.ld_unit_zero (S := S1x256) hz2]
  obtain ⟨e00, e01, e10, e11, e20, e21, e30, e31, e40, e41, e50, e51, e60, e61, e70, e71, e80, e81⟩ := grid_facts3 t
  funext y
  show k3_pay1 (iblk3 V c 0 t) (iblk3 V c 1 t) (iblk3 V c 2 t) (iblk3 V c 3 t) (iblk3 V c 6 t) (iblk3 V c 7 t) (iblk3 V c 4 t) (iblk3 V c 5 t) y
    = fused (V c main_v87) (V c main_v75) (V c main_v35) (V c main_v98) (V c main_v99) (V c main_v100) (V c main_v101) (V c main_v102) (((cfg3.win 8).blk t).view.emb y)
  refine (pay3_at _ _ _ _ _ _ _ _ y).trans ?_
  unfold fused
  have hy0 : ((((cfg3.win 8).blk t).view.emb y) 0).val = t.val * 2000 + (y 0).val := by
    show win3_8.index t (0 : Fin 2) * 2000 + 1 * (y 0).val = _; omega
  have hy1 : ((((cfg3.win 8).blk t).view.emb y) 1).val = (y 1).val := by
    show win3_8.index t (1 : Fin 2) * 256 + 1 * (y 1).val = _; omega
  rw [blk3_0 V c t y (((cfg3.win 8).blk t).view.emb y) hy0 hy1, blk3_1 V c t y (((cfg3.win 8).blk t).view.emb y) hy0 hy1,
    blk3_2 V c t (ix2 (y 0) 0) (ix2 ((((cfg3.win 8).blk t).view.emb y) 0) 0) hy0 rfl,
    blk3_3 V c t (ix2 0 (y 1)) (ix2 0 ((((cfg3.win 8).blk t).view.emb y) 1)) rfl hy1,
    blk3_4 V c t (ix2 0 (y 1)) (ix2 0 ((((cfg3.win 8).blk t).view.emb y) 1)) rfl hy1,
    blk3_5 V c t (ix2 0 (y 1)) (ix2 0 ((((cfg3.win 8).blk t).view.emb y) 1)) rfl hy1,
    blk3_6 V c t (ix2 0 (y 1)) (ix2 0 ((((cfg3.win 8).blk t).view.emb y) 1)) rfl hy1,
    blk3_7 V c t (ix2 0 (y 1)) (ix2 0 ((((cfg3.win 8).blk t).view.emb y) 1)) rfl hy1]

theorem mem_blk3 (t : Fin cfg3.N) (i : S50000x256.Idx) :
    i ∈ ((cfg3.win 8).blk t).view.set ↔ ∀ a : Fin 2, win3_8.index t a * S2000x256.size a ≤ (i a).val ∧ (i a).val < win3_8.index t a * S2000x256.size a + S2000x256.size a := by
  show i ∈ ((View.whole main_v103).slice (win3_8.rect t)).set ↔ _
  rw [View.set_slice_whole, Rect.mem_set_unit]
  exact Iff.rfl

/-- Every entry of the result is written by the point its row's block belongs to. -/
theorem cover3 (i : S50000x256.Idx) : ∃ t : Fin cfg3.N, (cfg3.win 8).flush t = true ∧ i ∈ ((cfg3.win 8).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨e00, e01, e10, e11, e20, e21, e30, e31, e40, e41, e50, e51, e60, e61, e70, e71, e80, e81⟩ := grid_facts3 t
  have ht : t.val = (i 0).val / 2000 := rfl
  refine ⟨t, flush3_8 t, ?_⟩
  rw [mem_blk3]
  intro a
  match a with
  | ⟨0, _⟩ => show win3_8.index t (0 : Fin 2) * 2000 ≤ (i 0).val ∧ (i 0).val < win3_8.index t (0 : Fin 2) * 2000 + 2000; omega
  | ⟨1, _⟩ => show win3_8.index t (1 : Fin 2) * 256 ≤ (i 1).val ∧ (i 1).val < win3_8.index t (1 : Fin 2) * 256 + 256; omega

/-- After region 3 its result array holds the step of the arrays it was entered with. -/
theorem stepped3 (c : Dev nD) : (dat3 V c).arrAt 8 cfg3.N
    = fused (V c main_v87) (V c main_v75) (V c main_v35) (V c main_v98) (V c main_v99) (V c main_v100) (V c main_v101) (V c main_v102) :=
  (dat3 V c).arrAt_eq_of_cover 8 _ (fun t _ => flushed3 V c t) cover3

end Region3

end Cert.KernelIdeal.FuseD

end
-- ==== Proof.ChainL1.lean ====
/-
  Layer 2 of the kernel's program, segment by segment.

  A stretch of host operations prepares the two operands of the feature product, a region forms the product, a
  second stretch gathers the product's rows along the edges, weights them, sums them into their destination nodes
  and re-shapes the layer's five parameter rows, and a second region applies the layer's step.  Each buffer a
  segment leaves is identified with the reference's stage of the same meaning; the host operations are the
  reference's own, applied to equal operands, and are never opened.
-/
import proofs.«157617_j32676111188646_1_alg».proof.Proof.Gen.KernelIdeal.Frame
import proofs.«157617_j32676111188646_1_alg».proof.Proof.RefRead
import proofs.«157617_j32676111188646_1_alg».proof.Proof.ChainDefs
import proofs.«157617_j32676111188646_1_alg».proof.Proof.ProductB
import proofs.«157617_j32676111188646_1_alg».proof.Proof.FuseD
import proofs.«157617_j32676111188646_1_alg».proof.Proof.RefLayer
import proofs.«157617_j32676111188646_1_alg».proof.Proof.Bridge

set_option maxRecDepth 16384
set_option maxHeartbeats 4000000

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP
open Cert.Lib.RowColumn Cert.KernelIdeal.Fuse Cert.ReferenceIdeal.Layers Cert.Bridge
variable (m : (ℓ : Loc nD τ sig) → Buf (Elt Ideal) ℓ) (ρ : Dev nD → PrngReg) (c : Dev nD)

/-- Narrowing the float format is the identity on the extended reals. -/
theorem L1_narrow_id {s : Shape} (x : FVec Ideal s .f32) (h : FTy.bf16.bits < FTy.f32.bits) :
    (truncf .bf16 x h : FVec Ideal s .bf16) = x := rfl

/-- The first stretch writes none of the kept buffers. -/
theorem L1_keptHA {W : Valuation τ sig (Elt Ideal)} (k : Kept m c W) : Kept m c (StableHlo.after hostOps2 W) where
  v1 := by after_results_simp; exact k.v1
  v3 := by after_results_simp; exact k.v3
  v32 := by after_results_simp; exact k.v32
  v35 := by after_results_simp; exact k.v35
  v37 := by after_results_simp; exact k.v37
  v39 := by after_results_simp; exact k.v39
  v41 := by after_results_simp; exact k.v41
  a2 := by after_results_simp; exact k.a2
  a5 := by after_results_simp; exact k.a5
  a6 := by after_results_simp; exact k.a6
  a7 := by after_results_simp; exact k.a7
  a8 := by after_results_simp; exact k.a8
  a9 := by after_results_simp; exact k.a9
  a10 := by after_results_simp; exact k.a10
  a11 := by after_results_simp; exact k.a11
  a12 := by after_results_simp; exact k.a12
  a13 := by after_results_simp; exact k.a13

/-- The product's operands are the previous layer's result and the layer's weight matrix (the change of float
    format is the identity on the extended reals). -/
theorem L1_va {W : Valuation τ sig (Elt Ideal)} (hcur : W (Proc.devRef .tc main_v72) = (val_main_v86 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps2 W (Proc.devRef .tc main_v73) = (val_main_v86 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp; rw [hcur]; exact L1_narrow_id _ _
theorem L1_vb {W : Valuation τ sig (Elt Ideal)} (k : Kept m c W) :
    StableHlo.after hostOps2 W (Proc.devRef .tc main_v74) = (val_main_v37 (F := Ideal) (m ((c : Thread nD τ).loc main_arg4))) := by
  after_results_simp; rw [k.v37]; exact L1_narrow_id _ _

/-- The product region changes only its result array. -/
theorem L1_keptRA (k : Kept m c (W5 m ρ c)) : Kept m c (W6 m ρ c) where
  v1 := (W6_of_ne m ρ c main_v1 (by decide)).trans k.v1
  v3 := (W6_of_ne m ρ c main_v3 (by decide)).trans k.v3
  v32 := (W6_of_ne m ρ c main_v32 (by decide)).trans k.v32
  v35 := (W6_of_ne m ρ c main_v35 (by decide)).trans k.v35
  v37 := (W6_of_ne m ρ c main_v37 (by decide)).trans k.v37
  v39 := (W6_of_ne m ρ c main_v39 (by decide)).trans k.v39
  v41 := (W6_of_ne m ρ c main_v41 (by decide)).trans k.v41
  a2 := (W6_of_ne m ρ c main_arg2 (by decide)).trans k.a2
  a5 := (W6_of_ne m ρ c main_arg5 (by decide)).trans k.a5
  a6 := (W6_of_ne m ρ c main_arg6 (by decide)).trans k.a6
  a7 := (W6_of_ne m ρ c main_arg7 (by decide)).trans k.a7
  a8 := (W6_of_ne m ρ c main_arg8 (by decide)).trans k.a8
  a9 := (W6_of_ne m ρ c main_arg9 (by decide)).trans k.a9
  a10 := (W6_of_ne m ρ c main_arg10 (by decide)).trans k.a10
  a11 := (W6_of_ne m ρ c main_arg11 (by decide)).trans k.a11
  a12 := (W6_of_ne m ρ c main_arg12 (by decide)).trans k.a12
  a13 := (W6_of_ne m ρ c main_arg13 (by decide)).trans k.a13

/-- The product region leaves the reference's product of the same operands. -/
theorem L1_h (k : Kept m c (W4 m ρ c)) (hcur : W4 m ρ c (Proc.devRef .tc main_v72) = (val_main_v86 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)))) :
    W6 m ρ c (Proc.devRef .tc main_v75) = (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W6_arr m ρ c 2).trans ?_
  rw [Cert.KernelIdeal.ProductsB.product2 (V5 m ρ) c]
  show rowsTimes (M := 50000) (K := 256) (N := 256) (StableHlo.after hostOps2 (W4 m ρ c) (Proc.devRef .tc main_v73)) (StableHlo.after hostOps2 (W4 m ρ c) (Proc.devRef .tc main_v74)) = _
  rw [L1_va m c hcur, L1_vb m c k]
  exact (dotB _ _).symm

/-- The second stretch writes none of the kept buffers. -/
theorem L1_keptHB {W : Valuation τ sig (Elt Ideal)} (k : Kept m c W) : Kept m c (StableHlo.after hostOps3 W) where
  v1 := by after_results_simp; exact k.v1
  v3 := by after_results_simp; exact k.v3
  v32 := by after_results_simp; exact k.v32
  v35 := by after_results_simp; exact k.v35
  v37 := by after_results_simp; exact k.v37
  v39 := by after_results_simp; exact k.v39
  v41 := by after_results_simp; exact k.v41
  a2 := by after_results_simp; exact k.a2
  a5 := by after_results_simp; exact k.a5
  a6 := by after_results_simp; exact k.a6
  a7 := by after_results_simp; exact k.a7
  a8 := by after_results_simp; exact k.a8
  a9 := by after_results_simp; exact k.a9
  a10 := by after_results_simp; exact k.a10
  a11 := by after_results_simp; exact k.a11
  a12 := by after_results_simp; exact k.a12
  a13 := by after_results_simp; exact k.a13

/-- The weighted messages summed into their destinations are the reference's, of the same product. -/
theorem L1_agg {W : Valuation τ sig (Elt Ideal)} (k : Kept m c W) (hh : W (Proc.devRef .tc main_v75) = (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps3 W (Proc.devRef .tc main_v87) = (val_main_v101 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp
  rw [k.v1, k.v3, k.v32, hh]
  rfl
/-- The product itself is still there. -/
theorem L1_hh {W : Valuation τ sig (Elt Ideal)} (hh : W (Proc.devRef .tc main_v75) = (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps3 W (Proc.devRef .tc main_v75) = (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp; exact hh
/-- Parameter row 0 of the layer, as a [1, 256] array, is the reference's [256] vector cast to that shape. -/
theorem L1_row0 {W : Valuation τ sig (Elt Ideal)} (k : Kept m c W) :
    StableHlo.after hostOps3 W (Proc.devRef .tc main_v98) = shapeCast S1x256 (val_main_v88 (F := Ideal) (m ((c : Thread nD τ).loc main_arg5))) shapeCasts_S256_S1x256 := by
  after_results_simp; rw [k.a5]; rfl
/-- Parameter row 1 of the layer, as a [1, 256] array, is the reference's [256] vector cast to that shape. -/
theorem L1_row1 {W : Valuation τ sig (Elt Ideal)} (k : Kept m c W) :
    StableHlo.after hostOps3 W (Proc.devRef .tc main_v99) = shapeCast S1x256 (val_main_v122 (F := Ideal) (m ((c : Thread nD τ).loc main_arg6))) shapeCasts_S256_S1x256 := by
  after_results_simp; rw [k.a6]; rfl
/-- Parameter row 2 of the layer, as a [1, 256] array, is the reference's [256] vector cast to that shape. -/
theorem L1_row2 {W : Valuation τ sig (Elt Ideal)} (k : Kept m c W) :
    StableHlo.after hostOps3 W (Proc.devRef .tc main_v100) = shapeCast S1x256 (val_main_v127 (F := Ideal) (m ((c : Thread nD τ).loc main_arg7))) shapeCasts_S256_S1x256 := by
  after_results_simp; rw [k.a7]; rfl
/-- Parameter row 3 of the layer, as a [1, 256] array, is the reference's [256] vector cast to that shape. -/
theorem L1_row3 {W : Valuation τ sig (Elt Ideal)} (k : Kept m c W) :
    StableHlo.after hostOps3 W (Proc.devRef .tc main_v101) = shapeCast S1x256 (val_main_v109 (F := Ideal) (m ((c : Thread nD τ).loc main_arg8))) shapeCasts_S256_S1x256 := by
  after_results_simp; rw [k.a8]; rfl
/-- Parameter row 4 of the layer, as a [1, 256] array, is the reference's [256] vector cast to that shape. -/
theorem L1_row4 {W : Valuation τ sig (Elt Ideal)} (k : Kept m c W) :
    StableHlo.after hostOps3 W (Proc.devRef .tc main_v102) = shapeCast S1x256 (val_main_v114 (F := Ideal) (m ((c : Thread nD τ).loc main_arg9))) shapeCasts_S256_S1x256 := by
  after_results_simp; rw [k.a9]; rfl

/-- The self-loop weights pass through the step region unchanged: it only reads them. -/
theorem self_kept8 : W8 m ρ c (Proc.devRef .tc main_v35) = W7 m ρ c (Proc.devRef .tc main_v35) := by
  have hf : ∀ t : Fin cfg3.N, (cfg3.win 2).flush t = false :=
    (by decide +kernel : ∀ t : Fin grid3.N, win3_2.flush t = false)
  refine (W8_arr m ρ c 2).trans ?_
  funext i
  exact ((dat3 (V7 m ρ) c).arrAt_apply_of_forall_not_mem 2 cfg3.N i
    (fun t _ h => absurd h (by rw [hf t]; decide))).trans (congrFun (A_eq3 (V7 m ρ) c 2) i)

/-- The step region changes only its result array. -/
theorem L1_keptRB (k : Kept m c (W7 m ρ c)) : Kept m c (W8 m ρ c) where
  v1 := (W8_of_ne m ρ c main_v1 (by decide)).trans k.v1
  v3 := (W8_of_ne m ρ c main_v3 (by decide)).trans k.v3
  v32 := (W8_of_ne m ρ c main_v32 (by decide)).trans k.v32
  v35 := (self_kept8 m ρ c).trans k.v35
  v37 := (W8_of_ne m ρ c main_v37 (by decide)).trans k.v37
  v39 := (W8_of_ne m ρ c main_v39 (by decide)).trans k.v39
  v41 := (W8_of_ne m ρ c main_v41 (by decide)).trans k.v41
  a2 := (W8_of_ne m ρ c main_arg2 (by decide)).trans k.a2
  a5 := (W8_of_ne m ρ c main_arg5 (by decide)).trans k.a5
  a6 := (W8_of_ne m ρ c main_arg6 (by decide)).trans k.a6
  a7 := (W8_of_ne m ρ c main_arg7 (by decide)).trans k.a7
  a8 := (W8_of_ne m ρ c main_arg8 (by decide)).trans k.a8
  a9 := (W8_of_ne m ρ c main_arg9 (by decide)).trans k.a9
  a10 := (W8_of_ne m ρ c main_arg10 (by decide)).trans k.a10
  a11 := (W8_of_ne m ρ c main_arg11 (by decide)).trans k.a11
  a12 := (W8_of_ne m ρ c main_arg12 (by decide)).trans k.a12
  a13 := (W8_of_ne m ρ c main_arg13 (by decide)).trans k.a13

/-- LAYER 2: after its step region the kept buffers are still kept and the layer's result is the reference's. -/
theorem layer_1 (k : Kept m c (W4 m ρ c)) (hcur : W4 m ρ c (Proc.devRef .tc main_v72) = (val_main_v86 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)))) :
    Kept m c (W8 m ρ c) ∧ W8 m ρ c (Proc.devRef .tc main_v103) = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have k2 : Kept m c (W6 m ρ c) := (L1_keptRA m ρ c (L1_keptHA m c k))
  have hh : W6 m ρ c (Proc.devRef .tc main_v75) = (val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := (L1_h m ρ c k hcur)
  have k3 : Kept m c (StableHlo.after hostOps3 (W6 m ρ c)) := L1_keptHB m c k2
  refine ⟨L1_keptRB m ρ c k3, ?_⟩
  refine (W8_arr m ρ c 8).trans ?_
  rw [Cert.KernelIdeal.FuseD.stepped3 (V7 m ρ) c]
  show fused (StableHlo.after hostOps3 (W6 m ρ c) (Proc.devRef .tc main_v87)) (StableHlo.after hostOps3 (W6 m ρ c) (Proc.devRef .tc main_v75))
      (StableHlo.after hostOps3 (W6 m ρ c) (Proc.devRef .tc main_v35))
      (StableHlo.after hostOps3 (W6 m ρ c) (Proc.devRef .tc main_v98)) (StableHlo.after hostOps3 (W6 m ρ c) (Proc.devRef .tc main_v99))
      (StableHlo.after hostOps3 (W6 m ρ c) (Proc.devRef .tc main_v100)) (StableHlo.after hostOps3 (W6 m ρ c) (Proc.devRef .tc main_v101))
      (StableHlo.after hostOps3 (W6 m ρ c) (Proc.devRef .tc main_v102)) = _
  rw [L1_agg m c k2 hh, L1_hh m c hh, k3.v35, L1_row0 m c k2, L1_row1 m c k2, L1_row2 m c k2, L1_row3 m c k2, L1_row4 m c k2]
  rw [layer2_eq]
  exact fused_eq_layer _ _ _ _ _ _ _ _ _

end Cert.KernelIdeal.Chain

end
-- ==== Proof.ProductC.lean ====
/-
  The four product regions of the kernel.

  Each of them multiplies a [50000, K] array by a [K, 256] array, 5000 rows per grid point: at point t the body
  loads block row t of the left array and the whole right array, forms their product into a zero accumulator and
  stores it as block row t of the result.  Entry (r, j) of a block's product is the sum over k of the block's
  (r, k) times the right array's (k, j), and block row t's row r is the array's row 5000·t + r; the ten block rows
  tile the result.  So after the region the result array is, entry by entry, the whole product.
-/
import proofs.«157617_j32676111188646_1_alg».proof.Proof.Gen.KernelIdeal.Frame
import proofs.«157617_j32676111188646_1_alg».proof.Proof.LibRowColumn
import Idealize.ShloMosaic.Lib.Pipeline.Value
import Idealize.ShloMosaic.Lib.ValueIdx
import Idealize.ShloMosaic.PureOps.Ideal.Laws

set_option maxRecDepth 16384

noncomputable section

namespace Cert.KernelIdeal.ProductsC

open Idealize.ShloMosaic Idealize.ShloMosaic.TcCoe Idealize.SL.Sem Idealize.ShloMosaic.ValueIdx
open Idealize.ShloMosaic.Pipeline (Dat)
open Cert.KernelIdeal Cert.KernelIdeal.Gen Cert.Lib.RowColumn

theorem hz2 : (![0, 0] : Fin 2 → Nat) = fun _ => 0 := funext fun a => by fin_cases a <;> rfl

/-! ## Region 4: rows of a [50000, 256] array against a [256, 256] array, 5000 rows per grid point -/

section Region4

theorem d4_lhs0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem d4_lhs1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem d4_rhs0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem d4_rhs1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- One block's payload at the entry (r, j): the r-th block row against the j-th column. -/
theorem pay4_entry (x0 : Vec Ideal S5000x256 .bf16) (x1 : Vec Ideal S256x256 .bf16) (r : Fin 5000) (j : Fin 256) :
    k4_pay1 x0 x1 (ix2 r j) = ∑ k : Fin 256, x0 (ix2 r k) * x1 (ix2 k j) := by
  unfold k4_pay1
  simp only [shapeCast_self]
  exact Cert.Lib.RowColumn.matmul_zero_entry dot_S5000x256_S256x256_S5000x256_1_0_0_1_n_n rfl rfl d4_lhs0 d4_lhs1 d4_rhs0 d4_rhs1 none x0 x1 (ix2 r j)

theorem pay4_at (x0 : Vec Ideal S5000x256 .bf16) (x1 : Vec Ideal S256x256 .bf16) (y : S5000x256.Idx) :
    k4_pay1 x0 x1 y = ∑ k : Fin 256, x0 (ix2 (y 0) k) * x1 (ix2 k (y 1)) := by
  obtain ⟨r, j, rfl⟩ : ∃ (r : Fin 5000) (j : Fin 256), y = ix2 r j := ⟨y 0, y 1, eq_ix2 y⟩
  exact pay4_entry x0 x1 r j

variable (V : (c : Dev nD) → (b : Ref sig .tc) → Buf (Elt Ideal) ((c : Thread nD τ).loc b))

/-- The index maps over the grid: point t takes block row t of the left operand and of the result, and the whole
    right operand. -/
theorem grid_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- An entry of the left operand's block at point t is the array's entry 5000·t rows further down. -/
theorem blk4_0 (c : Dev nD) (t : Fin cfg4.N) (z : S5000x256.Idx) (i : S50000x256.Idx)
    (h0 : (i 0).val = t.val * 5000 + (z 0).val) (h1 : (i 1).val = (z 1).val) :
    iblk4 V c 0 t z = V c main_v104 i := by
  obtain ⟨e0, e1, e2, e3, e4, e5⟩ := grid_facts4 t
  show V c main_v104 (((cfg4.win 0).blk t).view.emb z) = V c main_v104 i
  refine congrArg _ ?_
  funext a; apply Fin.ext
  match a with
  | ⟨0, _⟩ => show win4_0.index t (0 : Fin 2) * 5000 + 1 * (z 0).val = (i 0).val; omega
  | ⟨1, _⟩ => show win4_0.index t (1 : Fin 2) * 256 + 1 * (z 1).val = (i 1).val; omega

/-- The right operand's block is the whole array at every point. -/
theorem blk4_1 (c : Dev nD) (t : Fin cfg4.N) (z : S256x256.Idx) (i : S256x256.Idx)
    (h0 : (i 0).val = (z 0).val) (h1 : (i 1).val = (z 1).val) :
    iblk4 V c 1 t z = V c main_v105 i := by
  obtain ⟨e0, e1, e2, e3, e4, e5⟩ := grid_facts4 t
  show V c main_v105 (((cfg4.win 1).blk t).view.emb z) = V c main_v105 i
  refine congrArg _ ?_
  funext a; apply Fin.ext
  match a with
  | ⟨0, _⟩ => show win4_1.index t (0 : Fin 2) * 256 + 1 * (z 0).val = (i 0).val; omega
  | ⟨1, _⟩ => show win4_1.index t (1 : Fin 2) * 256 + 1 * (z 1).val = (i 1).val; omega

/-- What point t writes back is block row t of the whole product. -/
theorem flushed4 (c : Dev nD) (t : Fin cfg4.N) :
    (dat4 V c).flushed 2 t = ((cfg4.win 2).blk t).view.read (Elt Ideal) (rowsTimes (M := 50000) (K := 256) (N := 256) (V c main_v104) (V c main_v105)) := by
  show (cfg4.win 2).cut (grid4.coords t) ((dat4 V c).after 2 t) = _
  rw [after4_2]
  unfold out4_2
  rw [View.canon_unit_zero hz2]
  simp only [View.ld_unit_zero (S := S5000x256) hz2, View.ld_unit_zero (S := S256x256) hz2]
  obtain ⟨e0, e1, e2, e3, e4, e5⟩ := grid_facts4 t
  funext y
  show k4_pay1 (iblk4 V c 0 t) (iblk4 V c 1 t) y = rowsTimes (M := 50000) (K := 256) (N := 256) (V c main_v104) (V c main_v105) (((cfg4.win 2).blk t).view.emb y)
  refine (pay4_at _ _ y).trans ?_
  unfold rowsTimes
  refine Finset.sum_congr rfl fun k _ => ?_
  have hy0 : ((((cfg4.win 2).blk t).view.emb y) 0).val = t.val * 5000 + (y 0).val := by
    show win4_2.index t (0 : Fin 2) * 5000 + 1 * (y 0).val = _; omega
  have hy1 : ((((cfg4.win 2).blk t).view.emb y) 1).val = (y 1).val := by
    show win4_2.index t (1 : Fin 2) * 256 + 1 * (y 1).val = _; omega
  rw [blk4_0 V c t (ix2 (y 0) k) (ix2 ((((cfg4.win 2).blk t).view.emb y) 0) k) hy0 rfl,
    blk4_1 V c t (ix2 k (y 1)) (ix2 k ((((cfg4.win 2).blk t).view.emb y) 1)) rfl hy1]

/-- An index of the result array lies in point t's block iff its row lies in block row t. -/
theorem mem_blk4 (t : Fin cfg4.N) (i : S50000x256.Idx) :
    i ∈ ((cfg4.win 2).blk t).view.set ↔ ∀ a : Fin 2, win4_2.index t a * S5000x256.size a ≤ (i a).val ∧ (i a).val < win4_2.index t a * S5000x256.size a + S5000x256.size a := by
  show i ∈ ((View.whole main_v106).slice (win4_2.rect t)).set ↔ _
  rw [View.set_slice_whole, Rect.mem_set_unit]
  exact Iff.rfl

/-- Every entry of the result is written by the point its row's block belongs to. -/
theorem cover4 (i : S50000x256.Idx) : ∃ t : Fin cfg4.N, (cfg4.win 2).flush t = true ∧ i ∈ ((cfg4.win 2).blk t).view.set := by
  have hi0 : (i 0).val < 50000 := (i 0).isLt
  have hi1 : (i 1).val < 256 := (i 1).isLt
  have hN : cfg4.N = 10 := N_4
  let t : Fin cfg4.N := ⟨(i 0).val / 5000, by rw [hN]; omega⟩
  obtain ⟨e0, e1, e2, e3, e4, e5⟩ := grid_facts4 t
  have ht : t.val = (i 0).val / 5000 := rfl
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 256 ≤ (i 1).val ∧ (i 1).val < win4_2.index t (1 : Fin 2) * 256 + 256; omega

/-- After region 4 its result array holds the whole product of the arrays it was entered with. -/
theorem product4 (c : Dev nD) : (dat4 V c).arrAt 2 cfg4.N = rowsTimes (M := 50000) (K := 256) (N := 256) (V c main_v104) (V c main_v105) :=
  (dat4 V c).arrAt_eq_of_cover 2 _ (fun t _ => flushed4 V c t) cover4

end Region4

end Cert.KernelIdeal.ProductsC

end
-- ==== Proof.FuseF.lean ====
/-
  A fusing region of the kernel (region 5).

  At grid point t the body loads block row t (2000 rows) of the two sums and of the self weights' column, and the
  five parameter rows whole, applies the layer's scalar step entry by entry, and stores block row t of the result;
  the 25 block rows tile the result.  So after the region the result array is the step applied to the whole arrays.
-/
import proofs.«157617_j32676111188646_1_alg».proof.Proof.Gen.KernelIdeal.Frame
import proofs.«157617_j32676111188646_1_alg».proof.Proof.FuseEntry
import Idealize.ShloMosaic.Lib.Pipeline.Value
import Idealize.ShloMosaic.Lib.ValueIdx

set_option maxRecDepth 16384

noncomputable section

namespace Cert.KernelIdeal.FuseF

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Fuse Cert.Step

theorem hz2 : (![0, 0] : Fin 2 → Nat) = fun _ => 0 := funext fun a => by fin_cases a <;> rfl

/-! ## Region 5: the step on 2000 rows per grid point -/

section Region5

variable (V : (c : Dev nD) → (b : Ref sig .tc) → Buf (Elt Ideal) ((c : Thread nD τ).loc b))

/-- The index maps over the grid: point t takes block row t of the two sums, of the self weights and of the
    result, and the whole of each parameter row. -/
theorem grid_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0 :=
  (by decide +kernel : ∀ t : Fin grid5.N, _)

theorem blk5_0 (c : Dev nD) (t : Fin cfg5.N) (z : S2000x256.Idx) (i : S50000x256.Idx)
    (h0 : (i 0).val = t.val * 2000 + (z 0).val) (h1 : (i 1).val = (z 1).val) :
    iblk5 V c 0 t z = V c main_v118 i := by
  obtain ⟨e00, e01, e10, e11, e20, e21, e30, e31, e40, e41, e50, e51, e60, e61, e70, e71, e80, e81⟩ := grid_facts5 t
  show V c main_v118 (((cfg5.win 0).blk t).view.emb z) = V c main_v118 i
  refine congrArg _ ?_
  funext a; apply Fin.ext
  match a with
  | ⟨0, _⟩ => show win5_0.index t (0 : Fin 2) * 2000 + 1 * (z 0).val = (i 0).val; omega
  | ⟨1, _⟩ => show win5_0.index t (1 : Fin 2) * 256 + 1 * (z 1).val = (i 1).val; omega

theorem blk5_1 (c : Dev nD) (t : Fin cfg5.N) (z : S2000x256.Idx) (i : S50000x256.Idx)
    (h0 : (i 0).val = t.val * 2000 + (z 0).val) (h1 : (i 1).val = (z 1).val) :
    iblk5 V c 1 t z = V c main_v106 i := by
  obtain ⟨e00, e01, e10, e11, e20, e21, e30, e31, e40, e41, e50, e51, e60, e61, e70, e71, e80, e81⟩ := grid_facts5 t
  show V c main_v106 (((cfg5.win 1).blk t).view.emb z) = V c main_v106 i
  refine congrArg _ ?_
  funext a; apply Fin.ext
  match a with
  | ⟨0, _⟩ => show win5_1.index t (0 : Fin 2) * 2000 + 1 * (z 0).val = (i 0).val; omega
  | ⟨1, _⟩ => show win5_1.index t (1 : Fin 2) * 256 + 1 * (z 1).val = (i 1).val; omega

theorem blk5_2 (c : Dev nD) (t : Fin cfg5.N) (z : S2000x1.Idx) (i : S50000x1.Idx)
    (h0 : (i 0).val = t.val * 2000 + (z 0).val) (h1 : (i 1).val = (z 1).val) :
    iblk5 V c 2 t z = V c main_v35 i := by
  obtain ⟨e00, e01, e10, e11, e20, e21, e30, e31, e40, e41, e50, e51, e60, e61, e70, e71, e80, e81⟩ := grid_facts5 t
  show V c main_v35 (((cfg5.win 2).blk t).view.emb z) = V c main_v35 i
  refine congrArg _ ?_
  funext a; apply Fin.ext
  match a with
  | ⟨0, _⟩ => show win5_2.index t (0 : Fin 2) * 2000 + 1 * (z 0).val = (i 0).val; omega
  | ⟨1, _⟩ => show win5_2.index t (1 : Fin 2) * 1 + 1 * (z 1).val = (i 1).val; omega

theorem blk5_3 (c : Dev nD) (t : Fin cfg5.N) (z : S1x256.Idx) (i : S1x256.Idx)
    (h0 : (i 0).val = (z 0).val) (h1 : (i 1).val = (z 1).val) :
    iblk5 V c 3 t z = V c main_v129 i := by
  obtain ⟨e00, e01, e10, e11, e20, e21, e30, e31, e40, e41, e50, e51, e60, e61, e70, e71, e80, e81⟩ := grid_facts5 t
  show V c main_v129 (((cfg5.win 3).blk t).view.emb z) = V c main_v129 i
  refine congrArg _ ?_
  funext a; apply Fin.ext
  match a with
  | ⟨0, _⟩ => show win5_3.index t (0 : Fin 2) * 1 + 1 * (z 0).val = (i 0).val; omega
  | ⟨1, _⟩ => show win5_3.index t (1 : Fin 2) * 256 + 1 * (z 1).val = (i 1).val; omega

theorem blk5_4 (c : Dev nD) (t : Fin cfg5.N) (z : S1x256.Idx) (i : S1x256.Idx)
    (h0 : (i 0).val = (z 0).val) (h1 : (i 1).val = (z 1).val) :
    iblk5 V c 4 t z = V c main_v130 i := by
  obtain ⟨e00, e01, e10, e11, e20, e21, e30, e31, e40, e41, e50, e51, e60, e61, e70, e71, e80, e81⟩ := grid_facts5 t
  show V c main_v130 (((cfg5.win 4).blk t).view.emb z) = V c main_v130 i
  refine congrArg _ ?_
  funext a; apply Fin.ext
  match a with
  | ⟨0, _⟩ => show win5_4.index t (0 : Fin 2) * 1 + 1 * (z 0).val = (i 0).val; omega
  | ⟨1, _⟩ => show win5_4.index t (1 : Fin 2) * 256 + 1 * (z 1).val = (i 1).val; omega

theorem blk5_5 (c : Dev nD) (t : Fin cfg5.N) (z : S1x256.Idx) (i : S1x256.Idx)
    (h0 : (i 0).val = (z 0).val) (h1 : (i 1).val = (z 1).val) :
    iblk5 V c 5 t z = V c main_v131 i := by
  obtain ⟨e00, e01, e10, e11, e20, e21, e30, e31, e40, e41, e50, e51, e60, e61, e70, e71, e80, e81⟩ := grid_facts5 t
  show V c main_v131 (((cfg5.win 5).blk t).view.emb z) = V c main_v131 i
  refine congrArg _ ?_
  funext a; apply Fin.ext
  match a with
  | ⟨0, _⟩ => show win5_5.index t (0 : Fin 2) * 1 + 1 * (z 0).val = (i 0).val; omega
  | ⟨1, _⟩ => show win5_5.index t (1 : Fin 2) * 256 + 1 * (z 1).val = (i 1).val; omega

theorem blk5_6 (c : Dev nD) (t : Fin cfg5.N) (z : S1x256.Idx) (i : S1x256.Idx)
    (h0 : (i 0).val = (z 0).val) (h1 : (i 1).val = (z 1).val) :
    iblk5 V c 6 t z = V c main_v132 i := by
  obtain ⟨e00, e01, e10, e11, e20, e21, e30, e31, e40, e41, e50, e51, e60, e61, e70, e71, e80, e81⟩ := grid_facts5 t
  show V c main_v132 (((cfg5.win 6).blk t).view.emb z) = V c main_v132 i
  refine congrArg _ ?_
  funext a; apply Fin.ext
  match a with
  | ⟨0, _⟩ => show win5_6.index t (0 : Fin 2) * 1 + 1 * (z 0).val = (i 0).val; omega
  | ⟨1, _⟩ => show win5_6.index t (1 : Fin 2) * 256 + 1 * (z 1).val = (i 1).val; omega

theorem blk5_7 (c : Dev nD) (t : Fin cfg5.N) (z : S1x256.Idx) (i : S1x256.Idx)
    (h0 : (i 0).val = (z 0).val) (h1 : (i 1).val = (z 1).val) :
    iblk5 V c 7 t z = V c main_v133 i := by
  obtain ⟨e00, e01, e10, e11, e20, e21, e30, e31, e40, e41, e50, e51, e60, e61, e70, e71, e80, e81⟩ := grid_facts5 t
  show V c main_v133 (((cfg5.win 7).blk t).view.emb z) = V c main_v133 i
  refine congrArg _ ?_
  funext a; apply Fin.ext
  match a with
  | ⟨0, _⟩ => show win5_7.index t (0 : Fin 2) * 1 + 1 * (z 0).val = (i 0).val; omega
  | ⟨1, _⟩ => show win5_7.index t (1 : Fin 2) * 256 + 1 * (z 1).val = (i 1).val; omega

/-- What point t writes back is block row t of the step applied to the whole arrays. -/
theorem flushed5 (c : Dev nD) (t : Fin cfg5.N) :
    (dat5 V c).flushed 8 t = ((cfg5.win 8).blk t).view.read (Elt Ideal)
      (fused (V c main_v118) (V c main_v106) (V c main_v35) (V c main_v129) (V c main_v130) (V c main_v131) (V c main_v132) (V c main_v133)) := by
  show (cfg5.win 8).cut (grid5.coords t) ((dat5 V c).after 8 t) = _
  rw [after5_8]
  unfold out5_8
  rw [View.canon_unit_zero hz2]
  simp only [View.ld_unit_zero (S := S2000x256) hz2, View.ld_unit_zero (S := S2000x1) hz2, View.ld_unit_zero (S := S1x256) hz2]
  obtain ⟨e00, e01, e10, e11, e20, e21, e30, e31, e40, e41, e50, e51, e60, e61, e70, e71, e80, e81⟩ := grid_facts5 t
  funext y
  show k5_pay1 (iblk5 V c 0 t) (iblk5 V c 1 t) (iblk5 V c 2 t) (iblk5 V c 3 t) (iblk5 V c 6 t) (iblk5 V c 7 t) (iblk5 V c 4 t) (iblk5 V c 5 t) y
    = fused (V c main_v118) (V c main_v106) (V c main_v35) (V c main_v129) (V c main_v130) (V c main_v131) (V c main_v132) (V c main_v133) (((cfg5.win 8).blk t).view.emb y)
  refine (pay5_at _ _ _ _ _ _ _ _ y).trans ?_
  unfold fused
  have hy0 : ((((cfg5.win 8).blk t).view.emb y) 0).val = t.val * 2000 + (y 0).val := by
    show win5_8.index t (0 : Fin 2) * 2000 + 1 * (y 0).val = _; omega
  have hy1 : ((((cfg5.win 8).blk t).view.emb y) 1).val = (y 1).val := by
    show win5_8.index t (1 : Fin 2) * 256 + 1 * (y 1).val = _; omega
  rw [blk5_0 V c t y (((cfg5.win 8).blk t).view.emb y) hy0 hy1, blk5_1 V c t y (((cfg5.win 8).blk t).view.emb y) hy0 hy1,
    blk5_2 V c t (ix2 (y 0) 0) (ix2 ((((cfg5.win 8).blk t).view.emb y) 0) 0) hy0 rfl,
    blk5_3 V c t (ix2 0 (y 1)) (ix2 0 ((((cfg5.win 8).blk t).view.emb y) 1)) rfl hy1,
    blk5_4 V c t (ix2 0 (y 1)) (ix2 0 ((((cfg5.win 8).blk t).view.emb y) 1)) rfl hy1,
    blk5_5 V c t (ix2 0 (y 1)) (ix2 0 ((((cfg5.win 8).blk t).view.emb y) 1)) rfl hy1,
    blk5_6 V c t (ix2 0 (y 1)) (ix2 0 ((((cfg5.win 8).blk t).view.emb y) 1)) rfl hy1,
    blk5_7 V c t (ix2 0 (y 1)) (ix2 0 ((((cfg5.win 8).blk t).view.emb y) 1)) rfl hy1]

theorem mem_blk5 (t : Fin cfg5.N) (i : S50000x256.Idx) :
    i ∈ ((cfg5.win 8).blk t).view.set ↔ ∀ a : Fin 2, win5_8.index t a * S2000x256.size a ≤ (i a).val ∧ (i a).val < win5_8.index t a * S2000x256.size a + S2000x256.size a := by
  show i ∈ ((View.whole main_v134).slice (win5_8.rect t)).set ↔ _
  rw [View.set_slice_whole, Rect.mem_set_unit]
  exact Iff.rfl

/-- Every entry of the result is written by the point its row's block belongs to. -/
theorem cover5 (i : S50000x256.Idx) : ∃ t : Fin cfg5.N, (cfg5.win 8).flush t = true ∧ i ∈ ((cfg5.win 8).blk t).view.set := by
  have hi0 : (i 0).val < 50000 := (i 0).isLt
  have hi1 : (i 1).val < 256 := (i 1).isLt
  have hN : cfg5.N = 25 := N_5
  let t : Fin cfg5.N := ⟨(i 0).val / 2000, by rw [hN]; omega⟩
  obtain ⟨e00, e01, e10, e11, e20, e21, e30, e31, e40, e41, e50, e51, e60, e61, e70, e71, e80, e81⟩ := grid_facts5 t
  have ht : t.val = (i 0).val / 2000 := rfl
  refine ⟨t, flush5_8 t, ?_⟩
  rw [mem_blk5]
  intro a
  match a with
  | ⟨0, _⟩ => show win5_8.index t (0 : Fin 2) * 2000 ≤ (i 0).val ∧ (i 0).val < win5_8.index t (0 : Fin 2) * 2000 + 2000; omega
  | ⟨1, _⟩ => show win5_8.index t (1 : Fin 2) * 256 ≤ (i 1).val ∧ (i 1).val < win5_8.index t (1 : Fin 2) * 256 + 256; omega

/-- After region 5 its result array holds the step of the arrays it was entered with. -/
theorem stepped5 (c : Dev nD) : (dat5 V c).arrAt 8 cfg5.N
    = fused (V c main_v118) (V c main_v106) (V c main_v35) (V c main_v129) (V c main_v130) (V c main_v131) (V c main_v132) (V c main_v133) :=
  (dat5 V c).arrAt_eq_of_cover 8 _ (fun t _ => flushed5 V c t) cover5

end Region5

end Cert.KernelIdeal.FuseF

end
-- ==== Proof.ChainL2.lean ====
/-
  Layer 3 of the kernel's program, segment by segment.

  A stretch of host operations prepares the two operands of the feature product, a region forms the product, a
  second stretch gathers the product's rows along the edges, weights them, sums them into their destination nodes
  and re-shapes the layer's five parameter rows, and a second region applies the layer's step.  Each buffer a
  segment leaves is identified with the reference's stage of the same meaning; the host operations are the
  reference's own, applied to equal operands, and are never opened.
-/
import proofs.«157617_j32676111188646_1_alg».proof.Proof.Gen.KernelIdeal.Frame
import proofs.«157617_j32676111188646_1_alg».proof.Proof.RefRead
import proofs.«157617_j32676111188646_1_alg».proof.Proof.ChainDefs
import proofs.«157617_j32676111188646_1_alg».proof.Proof.ProductC
import proofs.«157617_j32676111188646_1_alg».proof.Proof.FuseF
import proofs.«157617_j32676111188646_1_alg».proof.Proof.RefLayer
import proofs.«157617_j32676111188646_1_alg».proof.Proof.Bridge

set_option maxRecDepth 16384
set_option maxHeartbeats 4000000

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP
open Cert.Lib.RowColumn Cert.KernelIdeal.Fuse Cert.ReferenceIdeal.Layers Cert.Bridge
variable (m : (ℓ : Loc nD τ sig) → Buf (Elt Ideal) ℓ) (ρ : Dev nD → PrngReg) (c : Dev nD)

/-- Narrowing the float format is the identity on the extended reals. -/
theorem L2_narrow_id {s : Shape} (x : FVec Ideal s .f32) (h : FTy.bf16.bits < FTy.f32.bits) :
    (truncf .bf16 x h : FVec Ideal s .bf16) = x := rfl

/-- The first stretch writes none of the kept buffers. -/
theorem L2_keptHA {W : Valuation τ sig (Elt Ideal)} (k : Kept m c W) : Kept m c (StableHlo.after hostOps4 W) where
  v1 := by after_results_simp; exact k.v1
  v3 := by after_results_simp; exact k.v3
  v32 := by after_results_simp; exact k.v32
  v35 := by after_results_simp; exact k.v35
  v37 := by after_results_simp; exact k.v37
  v39 := by after_results_simp; exact k.v39
  v41 := by after_results_simp; exact k.v41
  a2 := by after_results_simp; exact k.a2
  a5 := by after_results_simp; exact k.a5
  a6 := by after_results_simp; exact k.a6
  a7 := by after_results_simp; exact k.a7
  a8 := by after_results_simp; exact k.a8
  a9 := by after_results_simp; exact k.a9
  a10 := by after_results_simp; exact k.a10
  a11 := by after_results_simp; exact k.a11
  a12 := by after_results_simp; exact k.a12
  a13 := by after_results_simp; exact k.a13

/-- The product's operands are the previous layer's result and the layer's weight matrix (the change of float
    format is the identity on the extended reals). -/
theorem L2_va {W : Valuation τ sig (Elt Ideal)} (hcur : W (Proc.devRef .tc main_v103) = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps4 W (Proc.devRef .tc main_v104) = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp; rw [hcur]; exact L2_narrow_id _ _
theorem L2_vb {W : Valuation τ sig (Elt Ideal)} (k : Kept m c W) :
    StableHlo.after hostOps4 W (Proc.devRef .tc main_v105) = (val_main_v39 (F := Ideal) (m ((c : Thread nD τ).loc main_arg4))) := by
  after_results_simp; rw [k.v39]; exact L2_narrow_id _ _

/-- The product region changes only its result array. -/
theorem L2_keptRA (k : Kept m c (W9 m ρ c)) : Kept m c (W10 m ρ c) where
  v1 := (W10_of_ne m ρ c main_v1 (by decide)).trans k.v1
  v3 := (W10_of_ne m ρ c main_v3 (by decide)).trans k.v3
  v32 := (W10_of_ne m ρ c main_v32 (by decide)).trans k.v32
  v35 := (W10_of_ne m ρ c main_v35 (by decide)).trans k.v35
  v37 := (W10_of_ne m ρ c main_v37 (by decide)).trans k.v37
  v39 := (W10_of_ne m ρ c main_v39 (by decide)).trans k.v39
  v41 := (W10_of_ne m ρ c main_v41 (by decide)).trans k.v41
  a2 := (W10_of_ne m ρ c main_arg2 (by decide)).trans k.a2
  a5 := (W10_of_ne m ρ c main_arg5 (by decide)).trans k.a5
  a6 := (W10_of_ne m ρ c main_arg6 (by decide)).trans k.a6
  a7 := (W10_of_ne m ρ c main_arg7 (by decide)).trans k.a7
  a8 := (W10_of_ne m ρ c main_arg8 (by decide)).trans k.a8
  a9 := (W10_of_ne m ρ c main_arg9 (by decide)).trans k.a9
  a10 := (W10_of_ne m ρ c main_arg10 (by decide)).trans k.a10
  a11 := (W10_of_ne m ρ c main_arg11 (by decide)).trans k.a11
  a12 := (W10_of_ne m ρ c main_arg12 (by decide)).trans k.a12
  a13 := (W10_of_ne m ρ c main_arg13 (by decide)).trans k.a13

/-- The product region leaves the reference's product of the same operands. -/
theorem L2_h (k : Kept m c (W8 m ρ c)) (hcur : W8 m ρ c (Proc.devRef .tc main_v103) = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    W10 m ρ c (Proc.devRef .tc main_v106) = (val_main_v134 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W10_arr m ρ c 2).trans ?_
  rw [Cert.KernelIdeal.ProductsC.product4 (V9 m ρ) c]
  show rowsTimes (M := 50000) (K := 256) (N := 256) (StableHlo.after hostOps4 (W8 m ρ c) (Proc.devRef .tc main_v104)) (StableHlo.after hostOps4 (W8 m ρ c) (Proc.devRef .tc main_v105)) = _
  rw [L2_va m c hcur, L2_vb m c k]
  exact (dotB _ _).symm

/-- The second stretch writes none of the kept buffers. -/
theorem L2_keptHB {W : Valuation τ sig (Elt Ideal)} (k : Kept m c W) : Kept m c (StableHlo.after hostOps5 W) where
  v1 := by after_results_simp; exact k.v1
  v3 := by after_results_simp; exact k.v3
  v32 := by after_results_simp; exact k.v32
  v35 := by after_results_simp; exact k.v35
  v37 := by after_results_simp; exact k.v37
  v39 := by after_results_simp; exact k.v39
  v41 := by after_results_simp; exact k.v41
  a2 := by after_results_simp; exact k.a2
  a5 := by after_results_simp; exact k.a5
  a6 := by after_results_simp; exact k.a6
  a7 := by after_results_simp; exact k.a7
  a8 := by after_results_simp; exact k.a8
  a9 := by after_results_simp; exact k.a9
  a10 := by after_results_simp; exact k.a10
  a11 := by after_results_simp; exact k.a11
  a12 := by after_results_simp; exact k.a12
  a13 := by after_results_simp; exact k.a13

/-- The weighted messages summed into their destinations are the reference's, of the same product. -/
theorem L2_agg {W : Valuation τ sig (Elt Ideal)} (k : Kept m c W) (hh : W (Proc.devRef .tc main_v106) = (val_main_v134 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps5 W (Proc.devRef .tc main_v118) = (val_main_v146 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp
  rw [k.v1, k.v3, k.v32, hh]
  rfl
/-- The product itself is still there. -/
theorem L2_hh {W : Valuation τ sig (Elt Ideal)} (hh : W (Proc.devRef .tc main_v106) = (val_main_v134 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps5 W (Proc.devRef .tc main_v106) = (val_main_v134 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp; exact hh
/-- Parameter row 0 of the layer, as a [1, 256] array, is the reference's [256] vector cast to that shape. -/
theorem L2_row0 {W : Valuation τ sig (Elt Ideal)} (k : Kept m c W) :
    StableHlo.after hostOps5 W (Proc.devRef .tc main_v129) = shapeCast S1x256 (val_main_v133 (F := Ideal) (m ((c : Thread nD τ).loc main_arg5))) shapeCasts_S256_S1x256 := by
  after_results_simp; rw [k.a5]; rfl
/-- Parameter row 1 of the layer, as a [1, 256] array, is the reference's [256] vector cast to that shape. -/
theorem L2_row1 {W : Valuation τ sig (Elt Ideal)} (k : Kept m c W) :
    StableHlo.after hostOps5 W (Proc.devRef .tc main_v130) = shapeCast S1x256 (val_main_v167 (F := Ideal) (m ((c : Thread nD τ).loc main_arg6))) shapeCasts_S256_S1x256 := by
  after_results_simp; rw [k.a6]; rfl
/-- Parameter row 2 of the layer, as a [1, 256] array, is the reference's [256] vector cast to that shape. -/
theorem L2_row2 {W : Valuation τ sig (Elt Ideal)} (k : Kept m c W) :
    StableHlo.after hostOps5 W (Proc.devRef .tc main_v131) = shapeCast S1x256 (val_main_v172 (F := Ideal) (m ((c : Thread nD τ).loc main_arg7))) shapeCasts_S256_S1x256 := by
  after_results_simp; rw [k.a7]; rfl
/-- Parameter row 3 of the layer, as a [1, 256] array, is the reference's [256] vector cast to that shape. -/
theorem L2_row3 {W : Valuation τ sig (Elt Ideal)} (k : Kept m c W) :
    StableHlo.after hostOps5 W (Proc.devRef .tc main_v132) = shapeCast S1x256 (val_main_v154 (F := Ideal) (m ((c : Thread nD τ).loc main_arg8))) shapeCasts_S256_S1x256 := by
  after_results_simp; rw [k.a8]; rfl
/-- Parameter row 4 of the layer, as a [1, 256] array, is the reference's [256] vector cast to that shape. -/
theorem L2_row4 {W : Valuation τ sig (Elt Ideal)} (k : Kept m c W) :
    StableHlo.after hostOps5 W (Proc.devRef .tc main_v133) = shapeCast S1x256 (val_main_v159 (F := Ideal) (m ((c : Thread nD τ).loc main_arg9))) shapeCasts_S256_S1x256 := by
  after_results_simp; rw [k.a9]; rfl

/-- The self-loop weights pass through the step region unchanged: it only reads them. -/
theorem self_kept12 : W12 m ρ c (Proc.devRef .tc main_v35) = W11 m ρ c (Proc.devRef .tc main_v35) := by
  have hf : ∀ t : Fin cfg5.N, (cfg5.win 2).flush t = false :=
    (by decide +kernel : ∀ t : Fin grid5.N, win5_2.flush t = false)
  refine (W12_arr m ρ c 2).trans ?_
  funext i
  exact ((dat5 (V11 m ρ) c).arrAt_apply_of_forall_not_mem 2 cfg5.N i
    (fun t _ h => absurd h (by rw [hf t]; decide))).trans (congrFun (A_eq5 (V11 m ρ) c 2) i)

/-- The step region changes only its result array. -/
theorem L2_keptRB (k : Kept m c (W11 m ρ c)) : Kept m c (W12 m ρ c) where
  v1 := (W12_of_ne m ρ c main_v1 (by decide)).trans k.v1
  v3 := (W12_of_ne m ρ c main_v3 (by decide)).trans k.v3
  v32 := (W12_of_ne m ρ c main_v32 (by decide)).trans k.v32
  v35 := (self_kept12 m ρ c).trans k.v35
  v37 := (W12_of_ne m ρ c main_v37 (by decide)).trans k.v37
  v39 := (W12_of_ne m ρ c main_v39 (by decide)).trans k.v39
  v41 := (W12_of_ne m ρ c main_v41 (by decide)).trans k.v41
  a2 := (W12_of_ne m ρ c main_arg2 (by decide)).trans k.a2
  a5 := (W12_of_ne m ρ c main_arg5 (by decide)).trans k.a5
  a6 := (W12_of_ne m ρ c main_arg6 (by decide)).trans k.a6
  a7 := (W12_of_ne m ρ c main_arg7 (by decide)).trans k.a7
  a8 := (W12_of_ne m ρ c main_arg8 (by decide)).trans k.a8
  a9 := (W12_of_ne m ρ c main_arg9 (by decide)).trans k.a9
  a10 := (W12_of_ne m ρ c main_arg10 (by decide)).trans k.a10
  a11 := (W12_of_ne m ρ c main_arg11 (by decide)).trans k.a11
  a12 := (W12_of_ne m ρ c main_arg12 (by decide)).trans k.a12
  a13 := (W12_of_ne m ρ c main_arg13 (by decide)).trans k.a13

/-- LAYER 3: after its step region the kept buffers are still kept and the layer's result is the reference's. -/
theorem layer_2 (k : Kept m c (W8 m ρ c)) (hcur : W8 m ρ c (Proc.devRef .tc main_v103) = (val_main_v131 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    Kept m c (W12 m ρ c) ∧ W12 m ρ c (Proc.devRef .tc main_v134) = (val_main_v176 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have k2 : Kept m c (W10 m ρ c) := (L2_keptRA m ρ c (L2_keptHA m c k))
  have hh : W10 m ρ c (Proc.devRef .tc main_v106) = (val_main_v134 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := (L2_h m ρ c k hcur)
  have k3 : Kept m c (StableHlo.after hostOps5 (W10 m ρ c)) := L2_keptHB m c k2
  refine ⟨L2_keptRB m ρ c k3, ?_⟩
  refine (W12_arr m ρ c 8).trans ?_
  rw [Cert.KernelIdeal.FuseF.stepped5 (V11 m ρ) c]
  show fused (StableHlo.after hostOps5 (W10 m ρ c) (Proc.devRef .tc main_v118)) (StableHlo.after hostOps5 (W10 m ρ c) (Proc.devRef .tc main_v106))
      (StableHlo.after hostOps5 (W10 m ρ c) (Proc.devRef .tc main_v35))
      (StableHlo.after hostOps5 (W10 m ρ c) (Proc.devRef .tc main_v129)) (StableHlo.after hostOps5 (W10 m ρ c) (Proc.devRef .tc main_v130))
      (StableHlo.after hostOps5 (W10 m ρ c) (Proc.devRef .tc main_v131)) (StableHlo.after hostOps5 (W10 m ρ c) (Proc.devRef .tc main_v132))
      (StableHlo.after hostOps5 (W10 m ρ c) (Proc.devRef .tc main_v133)) = _
  rw [L2_agg m c k2 hh, L2_hh m c hh, k3.v35, L2_row0 m c k2, L2_row1 m c k2, L2_row2 m c k2, L2_row3 m c k2, L2_row4 m c k2]
  rw [layer3_eq]
  exact fused_eq_layer _ _ _ _ _ _ _ _ _

end Cert.KernelIdeal.Chain

end
-- ==== Proof.ProductD.lean ====
/-
  The four product regions of the kernel.

  Each of them multiplies a [50000, K] array by a [K, 256] array, 5000 rows per grid point: at point t the body
  loads block row t of the left array and the whole right array, forms their product into a zero accumulator and
  stores it as block row t of the result.  Entry (r, j) of a block's product is the sum over k of the block's
  (r, k) times the right array's (k, j), and block row t's row r is the array's row 5000·t + r; the ten block rows
  tile the result.  So after the region the result array is, entry by entry, the whole product.
-/
import proofs.«157617_j32676111188646_1_alg».proof.Proof.Gen.KernelIdeal.Frame
import proofs.«157617_j32676111188646_1_alg».proof.Proof.LibRowColumn
import Idealize.ShloMosaic.Lib.Pipeline.Value
import Idealize.ShloMosaic.Lib.ValueIdx
import Idealize.ShloMosaic.PureOps.Ideal.Laws

set_option maxRecDepth 16384

noncomputable section

namespace Cert.KernelIdeal.ProductsD

open Idealize.ShloMosaic Idealize.ShloMosaic.TcCoe Idealize.SL.Sem Idealize.ShloMosaic.ValueIdx
open Idealize.ShloMosaic.Pipeline (Dat)
open Cert.KernelIdeal Cert.KernelIdeal.Gen Cert.Lib.RowColumn

theorem hz2 : (![0, 0] : Fin 2 → Nat) = fun _ => 0 := funext fun a => by fin_cases a <;> rfl

/-! ## Region 6: rows of a [50000, 256] array against a [256, 256] array, 5000 rows per grid point -/

section Region6

theorem d6_lhs0 (i : S5000x256.Idx) (q : dot_S5000x256_S256x256_S5000x256_1_0_0_1_n_n.contr.Idx) : (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem d6_lhs1 (i : S5000x256.Idx) (q : dot_S5000x256_S256x256_S5000x256_1_0_0_1_n_n.contr.Idx) : (dot_S5000x256_S256x256_S5000x256_1_0_0_1_n_n.lhsIdx i q 1).val = (q ⟨0, by decide⟩).val :=
  dot_S5000x256_S256x256_S5000x256_1_0_0_1_n_n.lhsIdx_val_of_single rfl i q
theorem d6_rhs0 (i : S5000x256.Idx) (q : dot_S5000x256_S256x256_S5000x256_1_0_0_1_n_n.contr.Idx) : (dot_S5000x256_S256x256_S5000x256_1_0_0_1_n_n.rhsIdx i q 0).val = (q ⟨0, by decide⟩).val :=
  dot_S5000x256_S256x256_S5000x256_1_0_0_1_n_n.rhsIdx_val_of_single rfl i q
theorem d6_rhs1 (i : S5000x256.Idx) (q : dot_S5000x256_S256x256_S5000x256_1_0_0_1_n_n.contr.Idx) : (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- One block's payload at the entry (r, j): the r-th block row against the j-th column. -/
theorem pay6_entry (x0 : Vec Ideal S5000x256 .bf16) (x1 : Vec Ideal S256x256 .bf16) (r : Fin 5000) (j : Fin 256) :
    k6_pay1 x0 x1 (ix2 r j) = ∑ k : Fin 256, x0 (ix2 r k) * x1 (ix2 k j) := by
  unfold k6_pay1
  simp only [shapeCast_self]
  exact Cert.Lib.RowColumn.matmul_zero_entry dot_S5000x256_S256x256_S5000x256_1_0_0_1_n_n rfl rfl d6_lhs0 d6_lhs1 d6_rhs0 d6_rhs1 none x0 x1 (ix2 r j)

theorem pay6_at (x0 : Vec Ideal S5000x256 .bf16) (x1 : Vec Ideal S256x256 .bf16) (y : S5000x256.Idx) :
    k6_pay1 x0 x1 y = ∑ k : Fin 256, x0 (ix2 (y 0) k) * x1 (ix2 k (y 1)) := by
  obtain ⟨r, j, rfl⟩ : ∃ (r : Fin 5000) (j : Fin 256), y = ix2 r j := ⟨y 0, y 1, eq_ix2 y⟩
  exact pay6_entry x0 x1 r j

variable (V : (c : Dev nD) → (b : Ref sig .tc) → Buf (Elt Ideal) ((c : Thread nD τ).loc b))

/-- The index maps over the grid: point t takes block row t of the left operand and of the result, and the whole
    right operand. -/
theorem grid_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- An entry of the left operand's block at point t is the array's entry 5000·t rows further down. -/
theorem blk6_0 (c : Dev nD) (t : Fin cfg6.N) (z : S5000x256.Idx) (i : S50000x256.Idx)
    (h0 : (i 0).val = t.val * 5000 + (z 0).val) (h1 : (i 1).val = (z 1).val) :
    iblk6 V c 0 t z = V c main_v135 i := by
  obtain ⟨e0, e1, e2, e3, e4, e5⟩ := grid_facts6 t
  show V c main_v135 (((cfg6.win 0).blk t).view.emb z) = V c main_v135 i
  refine congrArg _ ?_
  funext a; apply Fin.ext
  match a with
  | ⟨0, _⟩ => show win6_0.index t (0 : Fin 2) * 5000 + 1 * (z 0).val = (i 0).val; omega
  | ⟨1, _⟩ => show win6_0.index t (1 : Fin 2) * 256 + 1 * (z 1).val = (i 1).val; omega

/-- The right operand's block is the whole array at every point. -/
theorem blk6_1 (c : Dev nD) (t : Fin cfg6.N) (z : S256x256.Idx) (i : S256x256.Idx)
    (h0 : (i 0).val = (z 0).val) (h1 : (i 1).val = (z 1).val) :
    iblk6 V c 1 t z = V c main_v136 i := by
  obtain ⟨e0, e1, e2, e3, e4, e5⟩ := grid_facts6 t
  show V c main_v136 (((cfg6.win 1).blk t).view.emb z) = V c main_v136 i
  refine congrArg _ ?_
  funext a; apply Fin.ext
  match a with
  | ⟨0, _⟩ => show win6_1.index t (0 : Fin 2) * 256 + 1 * (z 0).val = (i 0).val; omega
  | ⟨1, _⟩ => show win6_1.index t (1 : Fin 2) * 256 + 1 * (z 1).val = (i 1).val; omega

/-- What point t writes back is block row t of the whole product. -/
theorem flushed6 (c : Dev nD) (t : Fin cfg6.N) :
    (dat6 V c).flushed 2 t = ((cfg6.win 2).blk t).view.read (Elt Ideal) (rowsTimes (M := 50000) (K := 256) (N := 256) (V c main_v135) (V c main_v136)) := by
  show (cfg6.win 2).cut (grid6.coords t) ((dat6 V c).after 2 t) = _
  rw [after6_2]
  unfold out6_2
  rw [View.canon_unit_zero hz2]
  simp only [View.ld_unit_zero (S := S5000x256) hz2, View.ld_unit_zero (S := S256x256) hz2]
  obtain ⟨e0, e1, e2, e3, e4, e5⟩ := grid_facts6 t
  funext y
  show k6_pay1 (iblk6 V c 0 t) (iblk6 V c 1 t) y = rowsTimes (M := 50000) (K := 256) (N := 256) (V c main_v135) (V c main_v136) (((cfg6.win 2).blk t).view.emb y)
  refine (pay6_at _ _ y).trans ?_
  unfold rowsTimes
  refine Finset.sum_congr rfl fun k _ => ?_
  have hy0 : ((((cfg6.win 2).blk t).view.emb y) 0).val = t.val * 5000 + (y 0).val := by
    show win6_2.index t (0 : Fin 2) * 5000 + 1 * (y 0).val = _; omega
  have hy1 : ((((cfg6.win 2).blk t).view.emb y) 1).val = (y 1).val := by
    show win6_2.index t (1 : Fin 2) * 256 + 1 * (y 1).val = _; omega
  rw [blk6_0 V c t (ix2 (y 0) k) (ix2 ((((cfg6.win 2).blk t).view.emb y) 0) k) hy0 rfl,
    blk6_1 V c t (ix2 k (y 1)) (ix2 k ((((cfg6.win 2).blk t).view.emb y) 1)) rfl hy1]

/-- An index of the result array lies in point t's block iff its row lies in block row t. -/
theorem mem_blk6 (t : Fin cfg6.N) (i : S50000x256.Idx) :
    i ∈ ((cfg6.win 2).blk t).view.set ↔ ∀ a : Fin 2, win6_2.index t a * S5000x256.size a ≤ (i a).val ∧ (i a).val < win6_2.index t a * S5000x256.size a + S5000x256.size a := by
  show i ∈ ((View.whole main_v137).slice (win6_2.rect t)).set ↔ _
  rw [View.set_slice_whole, Rect.mem_set_unit]
  exact Iff.rfl

/-- Every entry of the result is written by the point its row's block belongs to. -/
theorem cover6 (i : S50000x256.Idx) : ∃ t : Fin cfg6.N, (cfg6.win 2).flush t = true ∧ i ∈ ((cfg6.win 2).blk t).view.set := by
  have hi0 : (i 0).val < 50000 := (i 0).isLt
  have hi1 : (i 1).val < 256 := (i 1).isLt
  have hN : cfg6.N = 10 := N_6
  let t : Fin cfg6.N := ⟨(i 0).val / 5000, by rw [hN]; omega⟩
  obtain ⟨e0, e1, e2, e3, e4, e5⟩ := grid_facts6 t
  have ht : t.val = (i 0).val / 5000 := rfl
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 256 ≤ (i 1).val ∧ (i 1).val < win6_2.index t (1 : Fin 2) * 256 + 256; omega

/-- After region 6 its result array holds the whole product of the arrays it was entered with. -/
theorem product6 (c : Dev nD) : (dat6 V c).arrAt 2 cfg6.N = rowsTimes (M := 50000) (K := 256) (N := 256) (V c main_v135) (V c main_v136) :=
  (dat6 V c).arrAt_eq_of_cover 2 _ (fun t _ => flushed6 V c t) cover6

end Region6

end Cert.KernelIdeal.ProductsD

end
-- ==== Proof.FuseH.lean ====
/-
  A fusing region of the kernel (region 7).

  At grid point t the body loads block row t (2000 rows) of the two sums and of the self weights' column, and the
  five parameter rows whole, applies the layer's scalar step entry by entry, and stores block row t of the result;
  the 25 block rows tile the result.  So after the region the result array is the step applied to the whole arrays.
-/
import proofs.«157617_j32676111188646_1_alg».proof.Proof.Gen.KernelIdeal.Frame
import proofs.«157617_j32676111188646_1_alg».proof.Proof.FuseEntry
import Idealize.ShloMosaic.Lib.Pipeline.Value
import Idealize.ShloMosaic.Lib.ValueIdx

set_option maxRecDepth 16384

noncomputable section

namespace Cert.KernelIdeal.FuseH

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Fuse Cert.Step

theorem hz2 : (![0, 0] : Fin 2 → Nat) = fun _ => 0 := funext fun a => by fin_cases a <;> rfl

/-! ## Region 7: the step on 2000 rows per grid point -/

section Region7

variable (V : (c : Dev nD) → (b : Ref sig .tc) → Buf (Elt Ideal) ((c : Thread nD τ).loc b))

/-- The index maps over the grid: point t takes block row t of the two sums, of the self weights and of the
    result, and the whole of each parameter row. -/
theorem grid_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = 0 ∧ win7_7.index t (1 : Fin 2) = 0
    ∧ win7_8.index t (0 : Fin 2) = t.val ∧ win7_8.index t (1 : Fin 2) = 0 :=
  (by decide +kernel : ∀ t : Fin grid7.N, _)

theorem blk7_0 (c : Dev nD) (t : Fin cfg7.N) (z : S2000x256.Idx) (i : S50000x256.Idx)
    (h0 : (i 0).val = t.val * 2000 + (z 0).val) (h1 : (i 1).val = (z 1).val) :
    iblk7 V c 0 t z = V c main_v149 i := by
  obtain ⟨e00, e01, e10, e11, e20, e21, e30, e31, e40, e41, e50, e51, e60, e61, e70, e71, e80, e81⟩ := grid_facts7 t
  show V c main_v149 (((cfg7.win 0).blk t).view.emb z) = V c main_v149 i
  refine congrArg _ ?_
  funext a; apply Fin.ext
  match a with
  | ⟨0, _⟩ => show win7_0.index t (0 : Fin 2) * 2000 + 1 * (z 0).val = (i 0).val; omega
  | ⟨1, _⟩ => show win7_0.index t (1 : Fin 2) * 256 + 1 * (z 1).val = (i 1).val; omega

theorem blk7_1 (c : Dev nD) (t : Fin cfg7.N) (z : S2000x256.Idx) (i : S50000x256.Idx)
    (h0 : (i 0).val = t.val * 2000 + (z 0).val) (h1 : (i 1).val = (z 1).val) :
    iblk7 V c 1 t z = V c main_v137 i := by
  obtain ⟨e00, e01, e10, e11, e20, e21, e30, e31, e40, e41, e50, e51, e60, e61, e70, e71, e80, e81⟩ := grid_facts7 t
  show V c main_v137 (((cfg7.win 1).blk t).view.emb z) = V c main_v137 i
  refine congrArg _ ?_
  funext a; apply Fin.ext
  match a with
  | ⟨0, _⟩ => show win7_1.index t (0 : Fin 2) * 2000 + 1 * (z 0).val = (i 0).val; omega
  | ⟨1, _⟩ => show win7_1.index t (1 : Fin 2) * 256 + 1 * (z 1).val = (i 1).val; omega

theorem blk7_2 (c : Dev nD) (t : Fin cfg7.N) (z : S2000x1.Idx) (i : S50000x1.Idx)
    (h0 : (i 0).val = t.val * 2000 + (z 0).val) (h1 : (i 1).val = (z 1).val) :
    iblk7 V c 2 t z = V c main_v35 i := by
  obtain ⟨e00, e01, e10, e11, e20, e21, e30, e31, e40, e41, e50, e51, e60, e61, e70, e71, e80, e81⟩ := grid_facts7 t
  show V c main_v35 (((cfg7.win 2).blk t).view.emb z) = V c main_v35 i
  refine congrArg _ ?_
  funext a; apply Fin.ext
  match a with
  | ⟨0, _⟩ => show win7_2.index t (0 : Fin 2) * 2000 + 1 * (z 0).val = (i 0).val; omega
  | ⟨1, _⟩ => show win7_2.index t (1 : Fin 2) * 1 + 1 * (z 1).val = (i 1).val; omega

theorem blk7_3 (c : Dev nD) (t : Fin cfg7.N) (z : S1x256.Idx) (i : S1x256.Idx)
    (h0 : (i 0).val = (z 0).val) (h1 : (i 1).val = (z 1).val) :
    iblk7 V c 3 t z = V c main_v160 i := by
  obtain ⟨e00, e01, e10, e11, e20, e21, e30, e31, e40, e41, e50, e51, e60, e61, e70, e71, e80, e81⟩ := grid_facts7 t
  show V c main_v160 (((cfg7.win 3).blk t).view.emb z) = V c main_v160 i
  refine congrArg _ ?_
  funext a; apply Fin.ext
  match a with
  | ⟨0, _⟩ => show win7_3.index t (0 : Fin 2) * 1 + 1 * (z 0).val = (i 0).val; omega
  | ⟨1, _⟩ => show win7_3.index t (1 : Fin 2) * 256 + 1 * (z 1).val = (i 1).val; omega

theorem blk7_4 (c : Dev nD) (t : Fin cfg7.N) (z : S1x256.Idx) (i : S1x256.Idx)
    (h0 : (i 0).val = (z 0).val) (h1 : (i 1).val = (z 1).val) :
    iblk7 V c 4 t z = V c main_v161 i := by
  obtain ⟨e00, e01, e10, e11, e20, e21, e30, e31, e40, e41, e50, e51, e60, e61, e70, e71, e80, e81⟩ := grid_facts7 t
  show V c main_v161 (((cfg7.win 4).blk t).view.emb z) = V c main_v161 i
  refine congrArg _ ?_
  funext a; apply Fin.ext
  match a with
  | ⟨0, _⟩ => show win7_4.index t (0 : Fin 2) * 1 + 1 * (z 0).val = (i 0).val; omega
  | ⟨1, _⟩ => show win7_4.index t (1 : Fin 2) * 256 + 1 * (z 1).val = (i 1).val; omega

theorem blk7_5 (c : Dev nD) (t : Fin cfg7.N) (z : S1x256.Idx) (i : S1x256.Idx)
    (h0 : (i 0).val = (z 0).val) (h1 : (i 1).val = (z 1).val) :
    iblk7 V c 5 t z = V c main_v162 i := by
  obtain ⟨e00, e01, e10, e11, e20, e21, e30, e31, e40, e41, e50, e51, e60, e61, e70, e71, e80, e81⟩ := grid_facts7 t
  show V c main_v162 (((cfg7.win 5).blk t).view.emb z) = V c main_v162 i
  refine congrArg _ ?_
  funext a; apply Fin.ext
  match a with
  | ⟨0, _⟩ => show win7_5.index t (0 : Fin 2) * 1 + 1 * (z 0).val = (i 0).val; omega
  | ⟨1, _⟩ => show win7_5.index t (1 : Fin 2) * 256 + 1 * (z 1).val = (i 1).val; omega

theorem blk7_6 (c : Dev nD) (t : Fin cfg7.N) (z : S1x256.Idx) (i : S1x256.Idx)
    (h0 : (i 0).val = (z 0).val) (h1 : (i 1).val = (z 1).val) :
    iblk7 V c 6 t z = V c main_v163 i := by
  obtain ⟨e00, e01, e10, e11, e20, e21, e30, e31, e40, e41, e50, e51, e60, e61, e70, e71, e80, e81⟩ := grid_facts7 t
  show V c main_v163 (((cfg7.win 6).blk t).view.emb z) = V c main_v163 i
  refine congrArg _ ?_
  funext a; apply Fin.ext
  match a with
  | ⟨0, _⟩ => show win7_6.index t (0 : Fin 2) * 1 + 1 * (z 0).val = (i 0).val; omega
  | ⟨1, _⟩ => show win7_6.index t (1 : Fin 2) * 256 + 1 * (z 1).val = (i 1).val; omega

theorem blk7_7 (c : Dev nD) (t : Fin cfg7.N) (z : S1x256.Idx) (i : S1x256.Idx)
    (h0 : (i 0).val = (z 0).val) (h1 : (i 1).val = (z 1).val) :
    iblk7 V c 7 t z = V c main_v164 i := by
  obtain ⟨e00, e01, e10, e11, e20, e21, e30, e31, e40, e41, e50, e51, e60, e61, e70, e71, e80, e81⟩ := grid_facts7 t
  show V c main_v164 (((cfg7.win 7).blk t).view.emb z) = V c main_v164 i
  refine congrArg _ ?_
  funext a; apply Fin.ext
  match a with
  | ⟨0, _⟩ => show win7_7.index t (0 : Fin 2) * 1 + 1 * (z 0).val = (i 0).val; omega
  | ⟨1, _⟩ => show win7_7.index t (1 : Fin 2) * 256 + 1 * (z 1).val = (i 1).val; omega

/-- What point t writes back is block row t of the step applied to the whole arrays. -/
theorem flushed7 (c : Dev nD) (t : Fin cfg7.N) :
    (dat7 V c).flushed 8 t = ((cfg7.win 8).blk t).view.read (Elt Ideal)
      (fused (V c main_v149) (V c main_v137) (V c main_v35) (V c main_v160) (V c main_v161) (V c main_v162) (V c main_v163) (V c main_v164)) := by
  show (cfg7.win 8).cut (grid7.coords t) ((dat7 V c).after 8 t) = _
  rw [after7_8]
  unfold out7_8
  rw [View.canon_unit_zero hz2]
  simp only [View.ld_unit_zero (S := S2000x256) hz2, View.ld_unit_zero (S := S2000x1) hz2, View.ld_unit_zero (S := S1x256) hz2]
  obtain ⟨e00, e01, e10, e11, e20, e21, e30, e31, e40, e41, e50, e51, e60, e61, e70, e71, e80, e81⟩ := grid_facts7 t
  funext y
  show k7_pay1 (iblk7 V c 0 t) (iblk7 V c 1 t) (iblk7 V c 2 t) (iblk7 V c 3 t) (iblk7 V c 6 t) (iblk7 V c 7 t) (iblk7 V c 4 t) (iblk7 V c 5 t) y
    = fused (V c main_v149) (V c main_v137) (V c main_v35) (V c main_v160) (V c main_v161) (V c main_v162) (V c main_v163) (V c main_v164) (((cfg7.win 8).blk t).view.emb y)
  refine (pay7_at _ _ _ _ _ _ _ _ y).trans ?_
  unfold fused
  have hy0 : ((((cfg7.win 8).blk t).view.emb y) 0).val = t.val * 2000 + (y 0).val := by
    show win7_8.index t (0 : Fin 2) * 2000 + 1 * (y 0).val = _; omega
  have hy1 : ((((cfg7.win 8).blk t).view.emb y) 1).val = (y 1).val := by
    show win7_8.index t (1 : Fin 2) * 256 + 1 * (y 1).val = _; omega
  rw [blk7_0 V c t y (((cfg7.win 8).blk t).view.emb y) hy0 hy1, blk7_1 V c t y (((cfg7.win 8).blk t).view.emb y) hy0 hy1,
    blk7_2 V c t (ix2 (y 0) 0) (ix2 ((((cfg7.win 8).blk t).view.emb y) 0) 0) hy0 rfl,
    blk7_3 V c t (ix2 0 (y 1)) (ix2 0 ((((cfg7.win 8).blk t).view.emb y) 1)) rfl hy1,
    blk7_4 V c t (ix2 0 (y 1)) (ix2 0 ((((cfg7.win 8).blk t).view.emb y) 1)) rfl hy1,
    blk7_5 V c t (ix2 0 (y 1)) (ix2 0 ((((cfg7.win 8).blk t).view.emb y) 1)) rfl hy1,
    blk7_6 V c t (ix2 0 (y 1)) (ix2 0 ((((cfg7.win 8).blk t).view.emb y) 1)) rfl hy1,
    blk7_7 V c t (ix2 0 (y 1)) (ix2 0 ((((cfg7.win 8).blk t).view.emb y) 1)) rfl hy1]

theorem mem_blk7 (t : Fin cfg7.N) (i : S50000x256.Idx) :
    i ∈ ((cfg7.win 8).blk t).view.set ↔ ∀ a : Fin 2, win7_8.index t a * S2000x256.size a ≤ (i a).val ∧ (i a).val < win7_8.index t a * S2000x256.size a + S2000x256.size a := by
  show i ∈ ((View.whole main_v165).slice (win7_8.rect t)).set ↔ _
  rw [View.set_slice_whole, Rect.mem_set_unit]
  exact Iff.rfl

/-- Every entry of the result is written by the point its row's block belongs to. -/
theorem cover7 (i : S50000x256.Idx) : ∃ t : Fin cfg7.N, (cfg7.win 8).flush t = true ∧ i ∈ ((cfg7.win 8).blk t).view.set := by
  have hi0 : (i 0).val < 50000 := (i 0).isLt
  have hi1 : (i 1).val < 256 := (i 1).isLt
  have hN : cfg7.N = 25 := N_7
  let t : Fin cfg7.N := ⟨(i 0).val / 2000, by rw [hN]; omega⟩
  obtain ⟨e00, e01, e10, e11, e20, e21, e30, e31, e40, e41, e50, e51, e60, e61, e70, e71, e80, e81⟩ := grid_facts7 t
  have ht : t.val = (i 0).val / 2000 := rfl
  refine ⟨t, flush7_8 t, ?_⟩
  rw [mem_blk7]
  intro a
  match a with
  | ⟨0, _⟩ => show win7_8.index t (0 : Fin 2) * 2000 ≤ (i 0).val ∧ (i 0).val < win7_8.index t (0 : Fin 2) * 2000 + 2000; omega
  | ⟨1, _⟩ => show win7_8.index t (1 : Fin 2) * 256 ≤ (i 1).val ∧ (i 1).val < win7_8.index t (1 : Fin 2) * 256 + 256; omega

/-- After region 7 its result array holds the step of the arrays it was entered with. -/
theorem stepped7 (c : Dev nD) : (dat7 V c).arrAt 8 cfg7.N
    = fused (V c main_v149) (V c main_v137) (V c main_v35) (V c main_v160) (V c main_v161) (V c main_v162) (V c main_v163) (V c main_v164) :=
  (dat7 V c).arrAt_eq_of_cover 8 _ (fun t _ => flushed7 V c t) cover7

end Region7

end Cert.KernelIdeal.FuseH

end
-- ==== Proof.ChainL3.lean ====
/-
  Layer 4 of the kernel's program, segment by segment.

  A stretch of host operations prepares the two operands of the feature product, a region forms the product, a
  second stretch gathers the product's rows along the edges, weights them, sums them into their destination nodes
  and re-shapes the layer's five parameter rows, and a second region applies the layer's step.  Each buffer a
  segment leaves is identified with the reference's stage of the same meaning; the host operations are the
  reference's own, applied to equal operands, and are never opened.
-/
import proofs.«157617_j32676111188646_1_alg».proof.Proof.Gen.KernelIdeal.Frame
import proofs.«157617_j32676111188646_1_alg».proof.Proof.RefRead
import proofs.«157617_j32676111188646_1_alg».proof.Proof.ChainDefs
import proofs.«157617_j32676111188646_1_alg».proof.Proof.ProductD
import proofs.«157617_j32676111188646_1_alg».proof.Proof.FuseH
import proofs.«157617_j32676111188646_1_alg».proof.Proof.RefLayer
import proofs.«157617_j32676111188646_1_alg».proof.Proof.Bridge

set_option maxRecDepth 16384
set_option maxHeartbeats 4000000

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP
open Cert.Lib.RowColumn Cert.KernelIdeal.Fuse Cert.ReferenceIdeal.Layers Cert.Bridge
variable (m : (ℓ : Loc nD τ sig) → Buf (Elt Ideal) ℓ) (ρ : Dev nD → PrngReg) (c : Dev nD)

/-- Narrowing the float format is the identity on the extended reals. -/
theorem L3_narrow_id {s : Shape} (x : FVec Ideal s .f32) (h : FTy.bf16.bits < FTy.f32.bits) :
    (truncf .bf16 x h : FVec Ideal s .bf16) = x := rfl

/-- The first stretch writes none of the kept buffers. -/
theorem L3_keptHA {W : Valuation τ sig (Elt Ideal)} (k : Kept m c W) : Kept m c (StableHlo.after hostOps6 W) where
  v1 := by after_results_simp; exact k.v1
  v3 := by after_results_simp; exact k.v3
  v32 := by after_results_simp; exact k.v32
  v35 := by after_results_simp; exact k.v35
  v37 := by after_results_simp; exact k.v37
  v39 := by after_results_simp; exact k.v39
  v41 := by after_results_simp; exact k.v41
  a2 := by after_results_simp; exact k.a2
  a5 := by after_results_simp; exact k.a5
  a6 := by after_results_simp; exact k.a6
  a7 := by after_results_simp; exact k.a7
  a8 := by after_results_simp; exact k.a8
  a9 := by after_results_simp; exact k.a9
  a10 := by after_results_simp; exact k.a10
  a11 := by after_results_simp; exact k.a11
  a12 := by after_results_simp; exact k.a12
  a13 := by after_results_simp; exact k.a13

/-- The product's operands are the previous layer's result and the layer's weight matrix (the change of float
    format is the identity on the extended reals). -/
theorem L3_va {W : Valuation τ sig (Elt Ideal)} (hcur : W (Proc.devRef .tc main_v134) = (val_main_v176 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps6 W (Proc.devRef .tc main_v135) = (val_main_v176 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp; rw [hcur]; exact L3_narrow_id _ _
theorem L3_vb {W : Valuation τ sig (Elt Ideal)} (k : Kept m c W) :
    StableHlo.after hostOps6 W (Proc.devRef .tc main_v136) = (val_main_v41 (F := Ideal) (m ((c : Thread nD τ).loc main_arg4))) := by
  after_results_simp; rw [k.v41]; exact L3_narrow_id _ _

/-- The product region changes only its result array. -/
theorem L3_keptRA (k : Kept m c (W13 m ρ c)) : Kept m c (W14 m ρ c) where
  v1 := (W14_of_ne m ρ c main_v1 (by decide)).trans k.v1
  v3 := (W14_of_ne m ρ c main_v3 (by decide)).trans k.v3
  v32 := (W14_of_ne m ρ c main_v32 (by decide)).trans k.v32
  v35 := (W14_of_ne m ρ c main_v35 (by decide)).trans k.v35
  v37 := (W14_of_ne m ρ c main_v37 (by decide)).trans k.v37
  v39 := (W14_of_ne m ρ c main_v39 (by decide)).trans k.v39
  v41 := (W14_of_ne m ρ c main_v41 (by decide)).trans k.v41
  a2 := (W14_of_ne m ρ c main_arg2 (by decide)).trans k.a2
  a5 := (W14_of_ne m ρ c main_arg5 (by decide)).trans k.a5
  a6 := (W14_of_ne m ρ c main_arg6 (by decide)).trans k.a6
  a7 := (W14_of_ne m ρ c main_arg7 (by decide)).trans k.a7
  a8 := (W14_of_ne m ρ c main_arg8 (by decide)).trans k.a8
  a9 := (W14_of_ne m ρ c main_arg9 (by decide)).trans k.a9
  a10 := (W14_of_ne m ρ c main_arg10 (by decide)).trans k.a10
  a11 := (W14_of_ne m ρ c main_arg11 (by decide)).trans k.a11
  a12 := (W14_of_ne m ρ c main_arg12 (by decide)).trans k.a12
  a13 := (W14_of_ne m ρ c main_arg13 (by decide)).trans k.a13

/-- The product region leaves the reference's product of the same operands. -/
theorem L3_h (k : Kept m c (W12 m ρ c)) (hcur : W12 m ρ c (Proc.devRef .tc main_v134) = (val_main_v176 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    W14 m ρ c (Proc.devRef .tc main_v137) = (val_main_v179 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W14_arr m ρ c 2).trans ?_
  rw [Cert.KernelIdeal.ProductsD.product6 (V13 m ρ) c]
  show rowsTimes (M := 50000) (K := 256) (N := 256) (StableHlo.after hostOps6 (W12 m ρ c) (Proc.devRef .tc main_v135)) (StableHlo.after hostOps6 (W12 m ρ c) (Proc.devRef .tc main_v136)) = _
  rw [L3_va m c hcur, L3_vb m c k]
  exact (dotB _ _).symm

/-- The second stretch writes none of the kept buffers. -/
theorem L3_keptHB {W : Valuation τ sig (Elt Ideal)} (k : Kept m c W) : Kept m c (StableHlo.after hostOps7 W) where
  v1 := by after_results_simp; exact k.v1
  v3 := by after_results_simp; exact k.v3
  v32 := by after_results_simp; exact k.v32
  v35 := by after_results_simp; exact k.v35
  v37 := by after_results_simp; exact k.v37
  v39 := by after_results_simp; exact k.v39
  v41 := by after_results_simp; exact k.v41
  a2 := by after_results_simp; exact k.a2
  a5 := by after_results_simp; exact k.a5
  a6 := by after_results_simp; exact k.a6
  a7 := by after_results_simp; exact k.a7
  a8 := by after_results_simp; exact k.a8
  a9 := by after_results_simp; exact k.a9
  a10 := by after_results_simp; exact k.a10
  a11 := by after_results_simp; exact k.a11
  a12 := by after_results_simp; exact k.a12
  a13 := by after_results_simp; exact k.a13

/-- The weighted messages summed into their destinations are the reference's, of the same product. -/
theorem L3_agg {W : Valuation τ sig (Elt Ideal)} (k : Kept m c W) (hh : W (Proc.devRef .tc main_v137) = (val_main_v179 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps7 W (Proc.devRef .tc main_v149) = (val_main_v191 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp
  rw [k.v1, k.v3, k.v32, hh]
  rfl
/-- The product itself is still there. -/
theorem L3_hh {W : Valuation τ sig (Elt Ideal)} (hh : W (Proc.devRef .tc main_v137) = (val_main_v179 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps7 W (Proc.devRef .tc main_v137) = (val_main_v179 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp; exact hh
/-- Parameter row 0 of the layer, as a [1, 256] array, is the reference's [256] vector cast to that shape. -/
theorem L3_row0 {W : Valuation τ sig (Elt Ideal)} (k : Kept m c W) :
    StableHlo.after hostOps7 W (Proc.devRef .tc main_v160) = shapeCast S1x256 (val_main_v178 (F := Ideal) (m ((c : Thread nD τ).loc main_arg5))) shapeCasts_S256_S1x256 := by
  after_results_simp; rw [k.a5]; rfl
/-- Parameter row 1 of the layer, as a [1, 256] array, is the reference's [256] vector cast to that shape. -/
theorem L3_row1 {W : Valuation τ sig (Elt Ideal)} (k : Kept m c W) :
    StableHlo.after hostOps7 W (Proc.devRef .tc main_v161) = shapeCast S1x256 (val_main_v212 (F := Ideal) (m ((c : Thread nD τ).loc main_arg6))) shapeCasts_S256_S1x256 := by
  after_results_simp; rw [k.a6]; rfl
/-- Parameter row 2 of the layer, as a [1, 256] array, is the reference's [256] vector cast to that shape. -/
theorem L3_row2 {W : Valuation τ sig (Elt Ideal)} (k : Kept m c W) :
    StableHlo.after hostOps7 W (Proc.devRef .tc main_v162) = shapeCast S1x256 (val_main_v217 (F := Ideal) (m ((c : Thread nD τ).loc main_arg7))) shapeCasts_S256_S1x256 := by
  after_results_simp; rw [k.a7]; rfl
/-- Parameter row 3 of the layer, as a [1, 256] array, is the reference's [256] vector cast to that shape. -/
theorem L3_row3 {W : Valuation τ sig (Elt Ideal)} (k : Kept m c W) :
    StableHlo.after hostOps7 W (Proc.devRef .tc main_v163) = shapeCast S1x256 (val_main_v199 (F := Ideal) (m ((c : Thread nD τ).loc main_arg8))) shapeCasts_S256_S1x256 := by
  after_results_simp; rw [k.a8]; rfl
/-- Parameter row 4 of the layer, as a [1, 256] array, is the reference's [256] vector cast to that shape. -/
theorem L3_row4 {W : Valuation τ sig (Elt Ideal)} (k : Kept m c W) :
    StableHlo.after hostOps7 W (Proc.devRef .tc main_v164) = shapeCast S1x256 (val_main_v204 (F := Ideal) (m ((c : Thread nD τ).loc main_arg9))) shapeCasts_S256_S1x256 := by
  after_results_simp; rw [k.a9]; rfl

/-- The self-loop weights pass through the step region unchanged: it only reads them. -/
theorem self_kept16 : W16 m ρ c (Proc.devRef .tc main_v35) = W15 m ρ c (Proc.devRef .tc main_v35) := by
  have hf : ∀ t : Fin cfg7.N, (cfg7.win 2).flush t = false :=
    (by decide +kernel : ∀ t : Fin grid7.N, win7_2.flush t = false)
  refine (W16_arr m ρ c 2).trans ?_
  funext i
  exact ((dat7 (V15 m ρ) c).arrAt_apply_of_forall_not_mem 2 cfg7.N i
    (fun t _ h => absurd h (by rw [hf t]; decide))).trans (congrFun (A_eq7 (V15 m ρ) c 2) i)

/-- The step region changes only its result array. -/
theorem L3_keptRB (k : Kept m c (W15 m ρ c)) : Kept m c (W16 m ρ c) where
  v1 := (W16_of_ne m ρ c main_v1 (by decide)).trans k.v1
  v3 := (W16_of_ne m ρ c main_v3 (by decide)).trans k.v3
  v32 := (W16_of_ne m ρ c main_v32 (by decide)).trans k.v32
  v35 := (self_kept16 m ρ c).trans k.v35
  v37 := (W16_of_ne m ρ c main_v37 (by decide)).trans k.v37
  v39 := (W16_of_ne m ρ c main_v39 (by decide)).trans k.v39
  v41 := (W16_of_ne m ρ c main_v41 (by decide)).trans k.v41
  a2 := (W16_of_ne m ρ c main_arg2 (by decide)).trans k.a2
  a5 := (W16_of_ne m ρ c main_arg5 (by decide)).trans k.a5
  a6 := (W16_of_ne m ρ c main_arg6 (by decide)).trans k.a6
  a7 := (W16_of_ne m ρ c main_arg7 (by decide)).trans k.a7
  a8 := (W16_of_ne m ρ c main_arg8 (by decide)).trans k.a8
  a9 := (W16_of_ne m ρ c main_arg9 (by decide)).trans k.a9
  a10 := (W16_of_ne m ρ c main_arg10 (by decide)).trans k.a10
  a11 := (W16_of_ne m ρ c main_arg11 (by decide)).trans k.a11
  a12 := (W16_of_ne m ρ c main_arg12 (by decide)).trans k.a12
  a13 := (W16_of_ne m ρ c main_arg13 (by decide)).trans k.a13

/-- LAYER 4: after its step region the kept buffers are still kept and the layer's result is the reference's. -/
theorem layer_3 (k : Kept m c (W12 m ρ c)) (hcur : W12 m ρ c (Proc.devRef .tc main_v134) = (val_main_v176 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    Kept m c (W16 m ρ c) ∧ W16 m ρ c (Proc.devRef .tc main_v165) = (val_main_v221 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have k2 : Kept m c (W14 m ρ c) := (L3_keptRA m ρ c (L3_keptHA m c k))
  have hh : W14 m ρ c (Proc.devRef .tc main_v137) = (val_main_v179 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := (L3_h m ρ c k hcur)
  have k3 : Kept m c (StableHlo.after hostOps7 (W14 m ρ c)) := L3_keptHB m c k2
  refine ⟨L3_keptRB m ρ c k3, ?_⟩
  refine (W16_arr m ρ c 8).trans ?_
  rw [Cert.KernelIdeal.FuseH.stepped7 (V15 m ρ) c]
  show fused (StableHlo.after hostOps7 (W14 m ρ c) (Proc.devRef .tc main_v149)) (StableHlo.after hostOps7 (W14 m ρ c) (Proc.devRef .tc main_v137))
      (StableHlo.after hostOps7 (W14 m ρ c) (Proc.devRef .tc main_v35))
      (StableHlo.after hostOps7 (W14 m ρ c) (Proc.devRef .tc main_v160)) (StableHlo.after hostOps7 (W14 m ρ c) (Proc.devRef .tc main_v161))
      (StableHlo.after hostOps7 (W14 m ρ c) (Proc.devRef .tc main_v162)) (StableHlo.after hostOps7 (W14 m ρ c) (Proc.devRef .tc main_v163))
      (StableHlo.after hostOps7 (W14 m ρ c) (Proc.devRef .tc main_v164)) = _
  rw [L3_agg m c k2 hh, L3_hh m c hh, k3.v35, L3_row0 m c k2, L3_row1 m c k2, L3_row2 m c k2, L3_row3 m c k2, L3_row4 m c k2]
  rw [layer4_eq]
  exact fused_eq_layer _ _ _ _ _ _ _ _ _

end Cert.KernelIdeal.Chain

end
-- ==== Proof.HeadRegion.lean ====
/-
  The read-out region (region 8).

  Its grid has one point and every window's block is its whole array, so the one write-back is the whole result:
  after the region the result array is the head of the five arrays the region was entered with.
-/
import proofs.«157617_j32676111188646_1_alg».proof.Proof.Gen.KernelIdeal.Frame
import proofs.«157617_j32676111188646_1_alg».proof.Proof.HeadEntry
import Idealize.ShloMosaic.Lib.Pipeline.Value
import Idealize.ShloMosaic.Lib.ValueIdx

set_option maxRecDepth 16384

noncomputable section

namespace Cert.KernelIdeal.HeadRegion

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Head

theorem hz2 : (![0, 0] : Fin 2 → Nat) = fun _ => 0 := funext fun a => by fin_cases a <;> rfl

section Region8

variable (V : (c : Dev nD) → (b : Ref sig .tc) → Buf (Elt Ideal) ((c : Thread nD τ).loc b))

/-- Every window's block index is (0, 0) at the one grid point. -/
theorem grid_facts8 : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

theorem whole8_0 (c : Dev nD) (t : Fin cfg8.N) (z : S2048x256.Idx) : iblk8 V c 0 t z = V c main_v178 z := by
  obtain ⟨e00, e01, e10, e11, e20, e21, e30, e31, e40, e41, e50, e51⟩ := grid_facts8 t
  show V c main_v178 (((cfg8.win 0).blk t).view.emb z) = V c main_v178 z
  refine congrArg _ ?_
  funext a; apply Fin.ext
  match a with
  | ⟨0, _⟩ => show win8_0.index t (0 : Fin 2) * 2048 + 1 * (z 0).val = (z 0).val; omega
  | ⟨1, _⟩ => show win8_0.index t (1 : Fin 2) * 256 + 1 * (z 1).val = (z 1).val; omega

theorem whole8_1 (c : Dev nD) (t : Fin cfg8.N) (z : S256x128.Idx) : iblk8 V c 1 t z = V c main_v179 z := by
  obtain ⟨e00, e01, e10, e11, e20, e21, e30, e31, e40, e41, e50, e51⟩ := grid_facts8 t
  show V c main_v179 (((cfg8.win 1).blk t).view.emb z) = V c main_v179 z
  refine congrArg _ ?_
  funext a; apply Fin.ext
  match a with
  | ⟨0, _⟩ => show win8_1.index t (0 : Fin 2) * 256 + 1 * (z 0).val = (z 0).val; omega
  | ⟨1, _⟩ => show win8_1.index t (1 : Fin 2) * 128 + 1 * (z 1).val = (z 1).val; omega

theorem whole8_2 (c : Dev nD) (t : Fin cfg8.N) (z : S1x128.Idx) : iblk8 V c 2 t z = V c main_v181 z := by
  obtain ⟨e00, e01, e10, e11, e20, e21, e30, e31, e40, e41, e50, e51⟩ := grid_facts8 t
  show V c main_v181 (((cfg8.win 2).blk t).view.emb z) = V c main_v181 z
  refine congrArg _ ?_
  funext a; apply Fin.ext
  match a with
  | ⟨0, _⟩ => show win8_2.index t (0 : Fin 2) * 1 + 1 * (z 0).val = (z 0).val; omega
  | ⟨1, _⟩ => show win8_2.index t (1 : Fin 2) * 128 + 1 * (z 1).val = (z 1).val; omega

theorem whole8_3 (c : Dev nD) (t : Fin cfg8.N) (z : S128x1.Idx) : iblk8 V c 3 t z = V c main_v180 z := by
  obtain ⟨e00, e01, e10, e11, e20, e21, e30, e31, e40, e41, e50, e51⟩ := grid_facts8 t
  show V c main_v180 (((cfg8.win 3).blk t).view.emb z) = V c main_v180 z
  refine congrArg _ ?_
  funext a; apply Fin.ext
  match a with
  | ⟨0, _⟩ => show win8_3.index t (0 : Fin 2) * 128 + 1 * (z 0).val = (z 0).val; omega
  | ⟨1, _⟩ => show win8_3.index t (1 : Fin 2) * 1 + 1 * (z 1).val = (z 1).val; omega

theorem whole8_4 (c : Dev nD) (t : Fin cfg8.N) (z : S1x1.Idx) : iblk8 V c 4 t z = V c main_v182 z := by
  obtain ⟨e00, e01, e10, e11, e20, e21, e30, e31, e40, e41, e50, e51⟩ := grid_facts8 t
  show V c main_v182 (((cfg8.win 4).blk t).view.emb z) = V c main_v182 z
  refine congrArg _ ?_
  funext a; apply Fin.ext
  match a with
  | ⟨0, _⟩ => show win8_4.index t (0 : Fin 2) * 1 + 1 * (z 0).val = (z 0).val; omega
  | ⟨1, _⟩ => show win8_4.index t (1 : Fin 2) * 1 + 1 * (z 1).val = (z 1).val; omega

/-- The one point writes back the head of the whole arrays. -/
theorem flushed8 (c : Dev nD) (t : Fin cfg8.N) :
    (dat8 V c).flushed 5 t = ((cfg8.win 5).blk t).view.read (Elt Ideal)
      (head (V c main_v178) (V c main_v179) (V c main_v181) (V c main_v180) (V c main_v182)) := by
  show (cfg8.win 5).cut (grid8.coords t) ((dat8 V c).after 5 t) = _
  rw [after8_5]
  unfold out8_5
  rw [View.canon_unit_zero hz2]
  simp only [View.ld_unit_zero (S := S2048x256) hz2, View.ld_unit_zero (S := S256x128) hz2, View.ld_unit_zero (S := S1x128) hz2,
    View.ld_unit_zero (S := S128x1) hz2, View.ld_unit_zero (S := S1x1) hz2]
  obtain ⟨e00, e01, e10, e11, e20, e21, e30, e31, e40, e41, e50, e51⟩ := grid_facts8 t
  rw [pay8_eq]
  have h0 : iblk8 V c 0 t = V c main_v178 := funext fun z => whole8_0 V c t z
  have h1 : iblk8 V c 1 t = V c main_v179 := funext fun z => whole8_1 V c t z
  have h2 : iblk8 V c 2 t = V c main_v181 := funext fun z => whole8_2 V c t z
  have h3 : iblk8 V c 3 t = V c main_v180 := funext fun z => whole8_3 V c t z
  have h4 : iblk8 V c 4 t = V c main_v182 := funext fun z => whole8_4 V c t z
  rw [h0, h1, h2, h3, h4]
  funext y
  show head (V c main_v178) (V c main_v179) (V c main_v181) (V c main_v180) (V c main_v182) y
    = head (V c main_v178) (V c main_v179) (V c main_v181) (V c main_v180) (V c main_v182) (((cfg8.win 5).blk t).view.emb y)
  refine congrArg _ ?_
  funext a; apply Fin.ext
  match a with
  | ⟨0, _⟩ => show (y 0).val = win8_5.index t (0 : Fin 2) * 2048 + 1 * (y 0).val; omega
  | ⟨1, _⟩ => show (y 1).val = win8_5.index t (1 : Fin 2) * 1 + 1 * (y 1).val; omega

theorem mem_blk8 (t : Fin cfg8.N) (i : S2048x1.Idx) :
    i ∈ ((cfg8.win 5).blk t).view.set ↔ ∀ a : Fin 2, win8_5.index t a * S2048x1.size a ≤ (i a).val ∧ (i a).val < win8_5.index t a * S2048x1.size a + S2048x1.size a := by
  show i ∈ ((View.whole main_v183).slice (win8_5.rect t)).set ↔ _
  rw [View.set_slice_whole, Rect.mem_set_unit]
  exact Iff.rfl

theorem cover8 (i : S2048x1.Idx) : ∃ t : Fin cfg8.N, (cfg8.win 5).flush t = true ∧ i ∈ ((cfg8.win 5).blk t).view.set := by
  have hi0 : (i 0).val < 2048 := (i 0).isLt
  have hi1 : (i 1).val < 1 := (i 1).isLt
  have hN : cfg8.N = 1 := N_8
  let t : Fin cfg8.N := ⟨0, by rw [hN]; omega⟩
  obtain ⟨e00, e01, e10, e11, e20, e21, e30, e31, e40, e41, e50, e51⟩ := grid_facts8 t
  refine ⟨t, flush8_5 t, ?_⟩
  rw [mem_blk8]
  intro a
  match a with
  | ⟨0, _⟩ => show win8_5.index t (0 : Fin 2) * 2048 ≤ (i 0).val ∧ (i 0).val < win8_5.index t (0 : Fin 2) * 2048 + 2048; omega
  | ⟨1, _⟩ => show win8_5.index t (1 : Fin 2) * 1 ≤ (i 1).val ∧ (i 1).val < win8_5.index t (1 : Fin 2) * 1 + 1; omega

/-- After region 8 its result array holds the head of the arrays it was entered with. -/
theorem headed8 (c : Dev nD) : (dat8 V c).arrAt 5 cfg8.N
    = head (V c main_v178) (V c main_v179) (V c main_v181) (V c main_v180) (V c main_v182) :=
  (dat8 V c).arrAt_eq_of_cover 5 _ (fun t _ => flushed8 V c t) cover8

end Region8

end Cert.KernelIdeal.HeadRegion

end
-- ==== Proof.ChainHead.lean ====
/-
  The pooling stretch, the read-out region and the final re-shape.

  The last long stretch of host operations sums the last layer's rows into their graphs, divides by the graphs' node
  counts (at least one), and prepares the head's weights and biases; these are the reference's own operations on equal
  operands.  The read-out region applies the head, and one re-shape drops the result's unit axis.
-/
import proofs.«157617_j32676111188646_1_alg».proof.Proof.Gen.KernelIdeal.Frame
import proofs.«157617_j32676111188646_1_alg».proof.Proof.RefRead
import proofs.«157617_j32676111188646_1_alg».proof.Proof.ChainDefs
import proofs.«157617_j32676111188646_1_alg».proof.Proof.HeadRegion
import proofs.«157617_j32676111188646_1_alg».proof.Proof.RefLayer
import proofs.«157617_j32676111188646_1_alg».proof.Proof.Bridge

set_option maxRecDepth 16384
set_option maxHeartbeats 4000000

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP
open Cert.Lib.RowColumn Cert.KernelIdeal.Head Cert.ReferenceIdeal.Layers Cert.Bridge
variable (m : (ℓ : Loc nD τ sig) → Buf (Elt Ideal) ℓ) (ρ : Dev nD → PrngReg) (c : Dev nD)

/-- The pooled features are the reference's (the change of float format is the identity on the extended reals). -/
theorem pool_p {W : Valuation τ sig (Elt Ideal)} (k : Kept m c W) (hcur : W (Proc.devRef .tc main_v165) = (val_main_v221 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    StableHlo.after hostOps8 W (Proc.devRef .tc main_v178) = (val_main_v233 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  after_results_simp
  rw [k.a2, hcur]
  rfl
theorem pool_w1 {W : Valuation τ sig (Elt Ideal)} (k : Kept m c W) : StableHlo.after hostOps8 W (Proc.devRef .tc main_v179) = (m ((c : Thread nD τ).loc main_arg10)) := by
  after_results_simp; rw [k.a10]; rfl
theorem pool_w2 {W : Valuation τ sig (Elt Ideal)} (k : Kept m c W) : StableHlo.after hostOps8 W (Proc.devRef .tc main_v180) = (m ((c : Thread nD τ).loc main_arg12)) := by
  after_results_simp; rw [k.a12]; rfl
theorem pool_b1 {W : Valuation τ sig (Elt Ideal)} (k : Kept m c W) :
    StableHlo.after hostOps8 W (Proc.devRef .tc main_v181) = shapeCast S1x128 (m ((c : Thread nD τ).loc main_arg11)) shapeCasts_S128_S1x128 := by
  after_results_simp; rw [k.a11]; rfl
theorem pool_b2 {W : Valuation τ sig (Elt Ideal)} (k : Kept m c W) :
    StableHlo.after hostOps8 W (Proc.devRef .tc main_v182) = shapeCast S1x1 (m ((c : Thread nD τ).loc main_arg13)) shapeCasts_S1_S1x1 := by
  after_results_simp; rw [k.a13]; rfl

/-- THE RESULT: after the whole program the result buffer holds the reference's last stage of the launch arguments. -/
theorem readout (k : Kept m c (W16 m ρ c)) (hcur : W16 m ρ c (Proc.devRef .tc main_v165) = (val_main_v221 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))) :
    W19 m ρ c (Proc.devRef .tc main_v184) = (val_main_v243 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  have h183 : W18 m ρ c (Proc.devRef .tc main_v183) = (val_main_v242 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
    refine (W18_arr m ρ c 5).trans ?_
    rw [Cert.KernelIdeal.HeadRegion.headed8 (V17 m ρ) c]
    show head (StableHlo.after hostOps8 (W16 m ρ c) (Proc.devRef .tc main_v178)) (StableHlo.after hostOps8 (W16 m ρ c) (Proc.devRef .tc main_v179))
        (StableHlo.after hostOps8 (W16 m ρ c) (Proc.devRef .tc main_v181)) (StableHlo.after hostOps8 (W16 m ρ c) (Proc.devRef .tc main_v180))
        (StableHlo.after hostOps8 (W16 m ρ c) (Proc.devRef .tc main_v182)) = _
    rw [pool_p m c k hcur, pool_w1 m c k, pool_b1 m c k, pool_w2 m c k, pool_b2 m c k]
    rw [head_eq]
    exact head_eq_headR _ _ _ _ _ _ _
  show StableHlo.after hostOps9 (W18 m ρ c) _ = _
  after_results_simp
  rw [h183]
  rfl

end Cert.KernelIdeal.Chain

end
-- ==== Proof.KernelValue.lean ====
/-
  The idealized kernel's result.

  Walking the fold of buffer contents back from the last segment boundary — four layers (a product region and a
  step region each, with the reference's own gather / weight / scatter operations between them), the pooling
  stretch, the read-out region and the final re-shape — the result buffer holds, on every core, the reference's last
  stage applied to the launch contents of the arguments.
-/
import proofs.«157617_j32676111188646_1_alg».proof.Proof.KernelRun
import proofs.«157617_j32676111188646_1_alg».proof.Proof.ChainL0
import proofs.«157617_j32676111188646_1_alg».proof.Proof.ChainL1
import proofs.«157617_j32676111188646_1_alg».proof.Proof.ChainL2
import proofs.«157617_j32676111188646_1_alg».proof.Proof.ChainL3
import proofs.«157617_j32676111188646_1_alg».proof.Proof.ChainHead

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.ReferenceIdeal.ReadP

variable (m : (ℓ : Loc nD τ sig) → Buf (Elt Ideal) ℓ) (ρ : Dev nD → PrngReg) (c : Dev nD)

/-- The last boundary's contents at the result buffer. -/
theorem result_value : W19 m ρ c (Proc.devRef .tc main_v184) = (val_main_v243 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) := by
  obtain ⟨k4, h4⟩ := layer_0 m ρ c
  obtain ⟨k8, h8⟩ := layer_1 m ρ c k4 h4
  obtain ⟨k12, h12⟩ := layer_2 m ρ c k8 h8
  obtain ⟨k16, h16⟩ := layer_3 m ρ c k12 h12
  exact readout m ρ c k16 h16

/-- Every weakly fair execution of the idealized kernel terminates, nothing faulting, with the result at the
    reference's last stage of the arguments and the arguments unchanged. -/
theorem run : θ_run defs (onTc (τ := τ) (main (F := Ideal))) ⟨m, fun _ => 0, ρ⟩ (fun r => ∀ c : Dev nD,
      r.2.mem ((c.tc : Thread nD τ).loc main_v184) = (val_main_v243 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_value m ρ c), (h c).2⟩)
    (Cert.KernelIdeal.Result.run_result (F := Ideal) m ρ)

end Cert.KernelIdeal.Chain

end
-- ==== Proof.lean ====
/-
  A four-layer graph convolution network with mean pooling and a two-layer read-out, as a kernel program of nine
  regions among host operations, against its plain reference: on the extended reals the two compute the same array.

  Both programs build the same edge weights and self-loop weights from the edge list with the same host operations.
  In each layer the kernel forms the feature product X·W in a region of ten grid points, 5000 rows each, where the
  reference takes one whole dot product: entry (n, j) is the same sum over k of X(n, k)·W(k, j) (the kernel's change
  of float format before the product is the identity on the extended reals, and its accumulator starts at zero).  The
  gather along the edges, the weighting and the sum into destination nodes are the reference's own operations.  The
  layer's step — add the self-loop term and the bias, normalise by mean and variance, scale, shift, clip at zero — is
  applied by the kernel in a region of 25 grid points, 2000 rows each, and by the reference to whole arrays, with the
  same order of scalar operations at every entry; the parameter rows differ only in how a [256] vector is laid out
  as a row.  Pooling is again the reference's own operations, and the read-out head is two row-by-column products
  with a bias and a clip between them on both sides.  No algebraic law beyond these identifications is used, so the
  finiteness of the inputs is not needed.

  The frames of the two kernel programs are generated; the reference's frame is its run with the result dropped; the
  idealisation rewrote nothing, so it is preserved trivially.
-/
import proofs.«157617_j32676111188646_1_alg».proof.Defs
import proofs.«157617_j32676111188646_1_alg».proof.Proof.Gen.Kernel
import proofs.«157617_j32676111188646_1_alg».proof.Proof.Gen.Kernel.Skeleton
import proofs.«157617_j32676111188646_1_alg».proof.Proof.Gen.Kernel.Launch
import proofs.«157617_j32676111188646_1_alg».proof.Proof.Gen.Kernel.Points
import proofs.«157617_j32676111188646_1_alg».proof.Proof.Gen.Kernel.Frame
import proofs.«157617_j32676111188646_1_alg».proof.Proof.Gen.KernelIdeal
import proofs.«157617_j32676111188646_1_alg».proof.Proof.Gen.KernelIdeal.Skeleton
import proofs.«157617_j32676111188646_1_alg».proof.Proof.Gen.KernelIdeal.Launch
import proofs.«157617_j32676111188646_1_alg».proof.Proof.Gen.KernelIdeal.Points
import proofs.«157617_j32676111188646_1_alg».proof.Proof.Gen.KernelIdeal.Frame
import proofs.«157617_j32676111188646_1_alg».proof.Proof.Gen.ReferenceIdeal
import proofs.«157617_j32676111188646_1_alg».proof.Proof.Gen.Pre_finite_inputs
import proofs.«157617_j32676111188646_1_alg».proof.Proof.RefRun
import proofs.«157617_j32676111188646_1_alg».proof.Proof.RefRead
import proofs.«157617_j32676111188646_1_alg».proof.Proof.KernelValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end at the reference's last stage of the (agreeing) arguments. -/
theorem algebraic : Cert.algebraic_KernelIdeal_ReferenceIdeal := by
  intro m ρ m' ρ' _ hagree
  refine ⟨fun c => (Cert.ReferenceIdeal.ReadP.val_main_v243 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))), Cert.KernelIdeal.Chain.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v243_eq]
  obtain ⟨e0, e1, e2, e3, e4, e5, e6, e7, e8, e9, e10, e11, e12, e13⟩ := hagree c
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
